-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg9 : FVec F S128 .f32) (main_arg11 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_cst_22 : FVec F S_ .f32 := constant S_ .f32 0x3727C5AC#32
  let main_v59 : FVec F S128 .f32 := broadcastInDim S128 ![] bcast_S_S128 main_cst_22
  let main_v60 : FVec F S128 .f32 := addf main_arg9 main_v59
  let main_cst_23 : FVec F S_ .f32 := constant S_ .f32 0x00000000#32
  let main_v61 : FVec F S128 .f32 := broadcastInDim S128 ![] bcast_S_S128 main_cst_23
  let main_v62 : IVec S128 1 := cmpf .ogt main_v60 main_v61
  let main_c_24 : IVec S_ 1 := constantI S_ 1 1#1
  let main_v63 : IVec S_ 1 := (fun x v => Host.reduce IntOp.andi x v reducesTo_S128_S_d0 h_S_) main_v62 main_c_24
  let main_v64 : IVec S_ 1 := andi main_v58 main_v63
  main_v64

def fn_part2 {F : FTy → Type} [FloatOps F] (main_arg7 : FVec F S128 .f32) (main_arg8 : FVec F S128 .f32) (main_arg9 : FVec F S128 .f32) (main_arg10 : FVec F S128x128 .f32) (main_arg11 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg9 main_arg11 main_v48 main_v49 main_v50

def fn_part1 {F : FTy → Type} [FloatOps F] (main_arg4 : FVec F S128x128 .f32) (main_arg5 : FVec F S128 .f32) (main_arg6 : FVec F S128 .f32) (main_arg7 : FVec F S128 .f32) (main_arg8 : FVec F S128 .f32) (main_arg9 : FVec F S128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S10000x10000 .f32) (main_arg1 : FVec F S10000x128 .f32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128 .f32) (main_arg9 : FVec F S128 .f32) (main_arg10 : FVec F S128x128 .f32) (main_arg11 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩
abbrev S1x128 : Shape := ⟨2, ![1, 128]⟩
abbrev S1000x5120 : Shape := ⟨2, ![1000, 5120]⟩
abbrev S1000x128 : Shape := ⟨2, ![1000, 128]⟩
abbrev S5120x128 : Shape := ⟨2, ![5120, 128]⟩
abbrev S1000x4880 : Shape := ⟨2, ![1000, 4880]⟩
abbrev S4880x128 : Shape := ⟨2, ![4880, 128]⟩

abbrev nBuf : Space → Nat
  | .hbm => 27
  | .vmem => 13
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S1x128, .f32⟩
  | .hbm, ⟨18, _⟩ => ⟨S128x128, .f32⟩
  | .hbm, ⟨19, _⟩ => ⟨S128x128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S10000x128, .f32⟩
  | .local _ .vmem, ⟨0, _⟩ => ⟨S1000x5120, .f32⟩
  | .local _ .vmem, ⟨1, _⟩ => ⟨S1000x5120, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S1000x128, .f32⟩
  | .local _ .vmem, ⟨10, _⟩ => ⟨S1000x128, .f32⟩
  | .local _ .vmem, ⟨11, _⟩ => ⟨S10000x128, .f32⟩
  | .local _ .vmem, ⟨12, _⟩ => ⟨S1000x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_v0 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![10, 2], ![false, false]⟩

def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1000x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  bcast_S_S128 : S_.BroadcastsInDim S128 (![] : Fin 0 → Fin S128.rank)
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S1000x5120_S1000x5120_0_0 : ∀ a, (![0, 0] : Fin 2 → Nat) a + S1000x5120.size a ≤ S1000x5120.size a
  h_S1000x5120 : 0 < S1000x5120.numel
  inb_S10000x128_S5120x128_0_0 : ∀ a, (![0, 0] : Fin 2 → Nat) a + S5120x128.size a ≤ S10000x128.size a
  h_S5120x128 : 0 < S5120x128.numel
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1000x5120_S1000x4880_0_0 : ∀ a, (![0, 0] : Fin 2 → Nat) a + S1000x4880.size a ≤ S1000x5120.size a
  h_S1000x4880 : 0 < S1000x4880.numel
  inb_S10000x128_S4880x128_5120_0 : ∀ a, (![5120, 0] : Fin 2 → Nat) a + S4880x128.size a ≤ S10000x128.size a
  h_S4880x128 : 0 < S4880x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  shapeCasts_S128x128_S128x128 : S128x128.ShapeCasts S128x128
  dot_S10000x128_S128x128_S10000x128_1_0_0_1_n_n_wf : DotDims.WF S10000x128 S128x128 S10000x128 [1] [0] [0] [1] [] []
  dot_S1000x5120_S5120x128_S1000x128_1_0_0_1_n_n_wf : DotDims.WF S1000x5120 S5120x128 S1000x128 [1] [0] [0] [1] [] []
  dot_S1000x4880_S4880x128_S1000x128_1_0_0_1_n_n_wf : DotDims.WF S1000x4880 S4880x128 S1000x128 [1] [0] [0] [1] [] []
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1000x5120.size a < S10000x10000.size a
  hwx0_0 : ∀ i : grid0.Coords, EltTy.bits .f32 = 32 ∨ (Rect.unit (s := S10000x10000) (fun a => cc0_transform_0 i a * S1000x5120.size a) (fun a => (Pipeline.Clip.of (cc0_transform_0 i a) (S1000x5120.size a) (S10000x10000.size a)).extent (S1000x5120.size a)) fun a => Pipeline.Clip.inb (Pipeline.Clip.ok_of (hstart0_0 i a))).WholeWords (EltTy.packing .f32)
  hwxs0_0 : ∀ i : grid0.Coords, EltTy.bits .f32 = 32 ∨ (Rect.unit (s := S1000x5120) (fun _ => 0) (fun a => (Pipeline.Clip.of (cc0_transform_0 i a) (S1000x5120.size a) (S10000x10000.size a)).extent (S1000x5120.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1000x128.size a ≤ S10000x128.size a
  hwx0_8 : ∀ i : grid0.Coords, EltTy.bits .f32 = 32 ∨ (Rect.block (s := S10000x128) S1000x128.size (cc0_transform_8 i) (hinb0_8 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S1000x5120_S5120x128_S1000x128_1_0_0_1_n_n : DotDims S1000x5120 S5120x128 S1000x128 where
  lhsContracting := [1]
  rhsContracting := [0]
  lhsNonContracting := [0]
  rhsNonContracting := [1]
  lhsBatch := []
  rhsBatch := []
  wf := dot_S1000x5120_S5120x128_S1000x128_1_0_0_1_n_n_wf
def dot_S1000x4880_S4880x128_S1000x128_1_0_0_1_n_n : DotDims S1000x4880 S4880x128 S1000x128 where
  lhsContracting := [1]
  rhsContracting := [0]
  lhsNonContracting := [0]
  rhsNonContracting := [1]
  lhsBatch := []
  rhsBatch := []
  wf := dot_S1000x4880_S4880x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpecClip (Memref.whole main_arg0) S1000x5120.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v10) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v11) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v12) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond3 i == 1#1) | ⟨_ + 9, h⟩ => absurd h (Nat.not_lt.2 (Nat.le_add_left _ _))

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S10000x128, .f32⟩
  | .hbm, ⟨13, _⟩ => ⟨S10000x128, .f32⟩
  | .hbm, ⟨14, _⟩ => ⟨S1x128, .f32⟩
  | .hbm, ⟨15, _⟩ => ⟨S10000x128, .f32⟩
  | .hbm, ⟨16, _⟩ => ⟨S10000x128, .f32⟩
  | .hbm, ⟨17, _⟩ => ⟨S_, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S1x128, .f32⟩
  | .hbm, ⟨22, _⟩ => ⟨S10000x128, .f32⟩
  | .hbm, ⟨23, _⟩ => ⟨S10000x128, .f32⟩
  | .hbm, ⟨24, _⟩ => ⟨S1x128, .f32⟩
  | .hbm, ⟨25, _⟩ => ⟨S10000x128, .f32⟩
  | .hbm, ⟨26, _⟩ => ⟨S10000x128, .f32⟩
  | .hbm, ⟨27, _⟩ => ⟨S1x128, .f32⟩
  | .hbm, ⟨28, _⟩ => ⟨S10000x128, .f32⟩
  | .hbm, ⟨29, _⟩ => ⟨S10000x128, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S1x128, .f32⟩
  | .hbm, ⟨35, _⟩ => ⟨S10000x128, .f32⟩
  | .hbm, ⟨36, _⟩ => ⟨S10000x128, .f32⟩
  | .hbm, ⟨37, _⟩ => ⟨S1x128, .f32⟩
  | .hbm, ⟨38, _⟩ => ⟨S10000x128, .f32⟩
  | .hbm, ⟨39, _⟩ => ⟨S10000x128, .f32⟩
  | .hbm, ⟨40, _⟩ => ⟨S_, .f32⟩
  | .hbm, ⟨41, _⟩ => ⟨S10000x128, .f32⟩
  | .hbm, ⟨42, _⟩ => ⟨S10000x128, .f32⟩
  | .hbm, ⟨43, _⟩ => ⟨S10000x128, .f32⟩
  | .hbm, ⟨44, _⟩ => ⟨S1x128, .f32⟩
  | .hbm, ⟨45, _⟩ => ⟨S10000x128, .f32⟩
  | .hbm, ⟨46, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call1_cst : Ref sig .tc := ⟨.hbm, 40, rfl⟩
abbrev main_call1_v0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S_S128 : S_.BroadcastsInDim S128 (![] : Fin 0 → Fin S128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.WordGuards.lean ====
/-
  Here the program is read with its floats as machine words. Nothing below depends on what a float is: the guards
  are integer comparisons on the grid point, the runs say which buffers are loaded and stored whole and when, and the
  payloads are carried as terms that are never opened.

  The grid of the kernel is ten row blocks by two halves of the contraction, visited in row-major order, so point
  `t` is row block `t / 2` and half `t % 2`. The body has three guarded parts. At the very first point it
  forms `xw = X · Wg` (all 10000 rows) into the first scratch. At the first half of each row block it stores the
  partial product of the row block's first 5120 columns of `adj` with the first 5120 rows of `xw` into the second
  scratch. At the second half it adds the product of the remaining 4880 columns with the last 4880 rows of `xw`,
  applies the head, and stores the row block of the result. The three guards, as functions of the point, are decided
  here once over the twenty points.
-/
import proofs.«155627_g90632399880415_cont_sun_m_680_22_alg».proof.Proof.Gen.Kernel.Frame
import proofs.«155627_g90632399880415_cont_sun_m_680_22_alg».proof.Proof.Gen.Kernel.Skeleton
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three guards -/

/-- The guard of the part that forms `xw`: both grid coordinates are zero. -/
abbrev guardXw (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- The guard of the part that starts a row block's accumulator: the half is the first. -/
abbrev guardStart (i : grid0.Coords) : Prop :=
  Scalar.cmpi .ne (Scalar.extui (Scalar.cmpi .eq (BitVec.ofNat 32 (i 1).val) 0#32)) 0#32 = 1#1
/-- The guard of the part that finishes a row block: the half is the second. -/
abbrev guardFinish (i : grid0.Coords) : Prop := k0_cond3 i = 1#1

theorem guardXw_iff : ∀ t : Fin cfg0.N, guardXw (grid0.coords t) ↔ t.val = 0 :=
  (by decide +kernel : ∀ t : Fin grid0.N, guardXw (grid0.coords t) ↔ t.val = 0)
theorem guardStart_iff : ∀ t : Fin cfg0.N, guardStart (grid0.coords t) ↔ t.val % 2 = 0 :=
  (by decide +kernel : ∀ t : Fin grid0.N, guardStart (grid0.coords t) ↔ t.val % 2 = 0)
theorem guardFinish_iff : ∀ t : Fin cfg0.N, guardFinish (grid0.coords t) ↔ t.val % 2 = 1 :=
  (by decide +kernel : ∀ t : Fin grid0.N, guardFinish (grid0.coords t) ↔ t.val % 2 = 1)

/-! ## Where the result's window is idle, and when it is written back -/

theorem live_in : ∀ (w : Fin 9), w.val < 8 → ∀ t : Fin cfg0.N, cfg0.idle w (grid0.coords t) = false := by decide +kernel
theorem idle_out : ∀ t : Fin cfg0.N, t.val % 2 = 0 → cfg0.idle 8 (grid0.coords t) = true := by decide +kernel
theorem live_out : ∀ t : Fin cfg0.N, t.val % 2 = 1 → cfg0.idle 8 (grid0.coords t) = false := by decide +kernel
theorem noflush_out : ∀ t : Fin cfg0.N, t.val % 2 = 0 → (cfg0.win 8).flush t = false := by decide +kernel

/-! ## The memrefs the body is called with -/

abbrev ms0 (t : Fin cfg0.N) : Memref sig .tc .vmem S1000x5120 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1000x128 .f32 := win0_8.stage (cfg0.slots t 8)
abbrev hs8 (t : Fin cfg0.N) : (ms8 t).IsWhole := hstage0_8 ((cfg0.slots t 8).cast nbuf0_8)
/-- The scratch that holds `xw`. -/
abbrev scXw : Memref sig .tc .vmem S10000x128 .f32 := Memref.whole cc0_scratch0
/-- The scratch that holds a row block's accumulator. -/
abbrev scAcc : Memref sig .tc .vmem S1000x128 .f32 := Memref.whole cc0_scratch1
/-- One staging buffer of the result's window, through which what the body leaves in it is stated. -/
abbrev VOut : View sig .tc .vmem S1000x128 .f32 := (Memref.whole cc0_stg8_0 : Memref sig .tc .vmem S1000x128 .f32).view

/-- The region's own invariant, its two scratch buffers spelled as memrefs owned at some contents. -/
theorem PhiA_eq (c : Dev nD) :
    (Pipeline.ΦA spec0 c : sProp 𝕄)
      = iprop(iprop((∃ d, owns (c : Thread nD τ) scXw fullShare d) ∗ (∃ d, owns (c : Thread nD τ) scAcc fullShare d)) ∗ (∃ r, prngReg c r)) := by
  unfold Pipeline.ΦA; rw [scopedRest0_eq]; simp only [scXw, scAcc, owns_whole]; try rfl

end Cert.Kernel.Body

end
-- ==== Proof.WordRunFirst.lean ====
/-
  Here the program is read with its floats as machine words. Nothing below depends on what a float is: the guards
  are integer comparisons on the grid point, the runs say which buffers are loaded and stored whole and when, and the
  payloads are carried as terms that are never opened.

  The body run once in each of the three situations the grid meets, on any whole staging memrefs: what it needs of
  each buffer and what it leaves in each. At the first point it forms `xw` and starts the first row block's
  accumulator (both scratch buffers stored whole, the result's buffer untouched); at the first half of a later row block
  it starts that block's accumulator from the `xw` the scratch carries; at a second half it reads both scratch
  buffers and stores the row block of the result. The stored pieces are found by running the body; the guards are
  decided by the situation's hypotheses.
-/
import proofs.«155627_g90632399880415_cont_sun_m_680_22_alg».proof.Proof.Gen.Kernel.Frame
import proofs.«155627_g90632399880415_cont_sun_m_680_22_alg».proof.Proof.Gen.Kernel.Skeleton
import proofs.«155627_g90632399880415_cont_sun_m_680_22_alg».proof.Proof.WordGuards
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The first point: both guards of the first half hold. -/
noncomputable def runFirst (c : Dev nD) (i : grid0.Coords) (arg2 : Memref sig .tc .vmem S1000x5120 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1000x128 .f32) (harg10 : arg10.IsWhole) (arg11 : Memref sig .tc .vmem S10000x128 .f32) (harg11 : arg11.IsWhole) (arg12 : Memref sig .tc .vmem S1000x128 .f32) (harg12 : arg12.IsWhole)
    (h1 : guardXw i) (h2 : guardStart i) (h3 : ¬guardFinish i) (x0 : Vec F S1000x5120 .f32) (x1 : Vec F S10000x128 .f32) (x2 : Vec F S128x128 .f32) (x3 : Vec F S1x128 .f32) (x4 : Vec F S128x128 .f32) (x5 : Vec F S1x128 .f32) (x6 : Vec F S128x128 .f32) (x7 : Vec F S1x128 .f32) :
    Σ' (LX : List (View.Piece (Elt F) S10000x128 .f32)), { LA : List (View.Piece (Elt F) S1000x128 .f32) //
      ∀ (xi8 : Vec F S1000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LX) ∗ (∃ f, arg12.view.loc (c : Thread nD τ) ↦[arg12.view.set]{fullShare} arg12.view.writes (Elt F) f LA)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K } := by
  refine ⟨?_, ?_, fun xi8 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%dX, %fX, -, HX⟩, ⟨%dA, %fA, -, HA⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HX]; · iexists _; iexact HX
    iexists _; iexact HA

end Cert.Kernel.Body

end
-- ==== Proof.WordRunStart.lean ====
/-
  Here the program is read with its floats as machine words. Nothing below depends on what a float is: the guards
  are integer comparisons on the grid point, the runs say which buffers are loaded and stored whole and when, and the
  payloads are carried as terms that are never opened.

  The body at the first half of a row block after the first: it starts the block's accumulator from the `xw` the first
  scratch carries, which it only reads; the result's buffer is untouched.
-/
import proofs.«155627_g90632399880415_cont_sun_m_680_22_alg».proof.Proof.Gen.Kernel.Frame
import proofs.«155627_g90632399880415_cont_sun_m_680_22_alg».proof.Proof.Gen.Kernel.Skeleton
import proofs.«155627_g90632399880415_cont_sun_m_680_22_alg».proof.Proof.WordRunFirst
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runStart (c : Dev nD) (i : grid0.Coords) (arg2 : Memref sig .tc .vmem S1000x5120 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1000x128 .f32) (harg10 : arg10.IsWhole) (arg11 : Memref sig .tc .vmem S10000x128 .f32) (harg11 : arg11.IsWhole) (arg12 : Memref sig .tc .vmem S1000x128 .f32) (harg12 : arg12.IsWhole)
    (h1 : ¬guardXw i) (h2 : guardStart i) (h3 : ¬guardFinish i) (x0 : Vec F S1000x5120 .f32) (x1 : Vec F S10000x128 .f32) (x2 : Vec F S128x128 .f32) (x3 : Vec F S1x128 .f32) (x4 : Vec F S128x128 .f32) (x5 : Vec F S1x128 .f32) (x6 : Vec F S128x128 .f32) (x7 : Vec F S1x128 .f32) (xs0 : Vec F S10000x128 .f32) :
    { LA : List (View.Piece (Elt F) S1000x128 .f32) //
      ∀ (xi8 : Vec F S1000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0 ∗ (∃ f, arg12.view.loc (c : Thread nD τ) ↦[arg12.view.set]{fullShare} arg12.view.writes (Elt F) f LA)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K } := by
  refine ⟨?_, fun xi8 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fX, %hfX, HX⟩, ⟨%dA, %fA, -, HA⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfX
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HX]
    · iexists _; isplitr; · ipureintro; exact harg11.read_unread _
      iexact HX
    iexists _; iexact HA

end Cert.Kernel.Body

end
-- ==== Proof.WordRunFinish.lean ====
/-
  Here the program is read with its floats as machine words. Nothing below depends on what a float is: the guards
  are integer comparisons on the grid point, the runs say which buffers are loaded and stored whole and when, and the
  payloads are carried as terms that are never opened.

  The body at the second half of a row block: it reads `xw` and the block's accumulator from the two scratch buffers,
  which it leaves as they are, and stores the row block of the result whole.
-/
import proofs.«155627_g90632399880415_cont_sun_m_680_22_alg».proof.Proof.Gen.Kernel.Frame
import proofs.«155627_g90632399880415_cont_sun_m_680_22_alg».proof.Proof.Gen.Kernel.Skeleton
import proofs.«155627_g90632399880415_cont_sun_m_680_22_alg».proof.Proof.WordRunStart
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runFinish (c : Dev nD) (i : grid0.Coords) (arg2 : Memref sig .tc .vmem S1000x5120 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1000x128 .f32) (harg10 : arg10.IsWhole) (arg11 : Memref sig .tc .vmem S10000x128 .f32) (harg11 : arg11.IsWhole) (arg12 : Memref sig .tc .vmem S1000x128 .f32) (harg12 : arg12.IsWhole)
    (h1 : ¬guardXw i) (h2 : ¬guardStart i) (h3 : guardFinish i) (x0 : Vec F S1000x5120 .f32) (x1 : Vec F S10000x128 .f32) (x2 : Vec F S128x128 .f32) (x3 : Vec F S1x128 .f32) (x4 : Vec F S128x128 .f32) (x5 : Vec F S1x128 .f32) (x6 : Vec F S128x128 .f32) (x7 : Vec F S1x128 .f32) (xs0 : Vec F S10000x128 .f32) (xs1 : Vec F S1000x128 .f32) :
    { L8 : List (View.Piece (Elt F) S1000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xs0 ∗ owns (c : Thread nD τ) arg12 fullShare xs1) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fX, %hfX, HX⟩, ⟨%fA, %hfA, HA⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfX; obtain rfl := harg12.eq_unread hfA
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HX]
    · iexists _; isplitr; · ipureintro; exact harg11.read_unread _
      iexact HX
    iexists _; isplitr; · ipureintro; exact harg12.read_unread _
    iexact HA

end Cert.Kernel.Body

end
-- ==== Proof.WordData.lean ====
/-
  Here the program is read with its floats as machine words. Nothing below depends on what a float is: the guards
  are integer comparisons on the grid point, the runs say which buffers are loaded and stored whole and when, and the
  payloads are carried as terms that are never opened.

  The proof data of the one pipeline. `xw = X · Wg` is formed once, at the first point, and the first scratch holds
  it from then on. The second scratch holds, after the first half of row block `b`, the partial product of the block's
  rows of `adj` restricted to the first 5120 columns with the first 5120 rows of `xw`; after the second half nobody
  reads it again. The result's staging buffer holds, after the second half, the row block of the result. The first
  window's second-half block overhangs the array by 240 columns: only its first 4880 columns are fetched, and the body
  reads only those; the tail of the buffer is filled here with the zero word, a choice nothing depends on.
-/
import proofs.«155627_g90632399880415_cont_sun_m_680_22_alg».proof.Proof.Gen.Kernel.Frame
import proofs.«155627_g90632399880415_cont_sun_m_680_22_alg».proof.Proof.Gen.Kernel.Skeleton
import proofs.«155627_g90632399880415_cont_sun_m_680_22_alg».proof.Proof.WordGuards
import Idealize.ShloMosaic.Lib.Pipeline.Value
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first 5120 rows of a `[10000, 128]` buffer. -/
abbrev rLo : Rect S10000x128 := Rect.unit (s := S10000x128) ![0, 0] S5120x128.size inb_S10000x128_S5120x128_0_0
/-- Its last 4880 rows. -/
abbrev rHi : Rect S10000x128 := Rect.unit (s := S10000x128) ![5120, 0] S4880x128.size inb_S10000x128_S4880x128_5120_0
/-- The first 4880 columns of a `[1000, 5120]` buffer. -/
abbrev rCols : Rect S1000x5120 := Rect.unit (s := S1000x5120) ![0, 0] S1000x4880.size inb_S1000x5120_S1000x4880_0_0

theorem hz2 : (![0, 0] : Fin 2 → Nat) = fun _ => 0 := funext fun a => by fin_cases a <;> rfl

/-- The first point. -/
abbrev tFirst : Fin cfg0.N := ⟨0, by decide⟩

/-- The point before `t` (the first point's own, at the first). -/
abbrev prevPt (t : Fin cfg0.N) : Fin cfg0.N := ⟨t.val - 1, Nat.lt_of_le_of_lt (Nat.sub_le _ _) t.isLt⟩

/-- The word that fills the tail of the first window's buffer where the fetch is cut. -/
abbrev tailWord : S1000x5120.Idx → Elt F .f32 := fun _ => Scalar.ofBits .f32 0#32

/-- The staged columns of `adj` at point `t`: the block inside the array, the tail filled. -/
def adjBlk (c : Dev nD) (t : Fin cfg0.N) : Vec F S1000x5120 .f32 :=
  win0_0.fill (grid0.coords t) tailWord (iblk m c 0 t)

/-- `xw = X · Wg`, as the first point forms it. -/
def xwV (c : Dev nD) : Vec F S10000x128 .f32 := k0_pay1 (iblk m c 1 tFirst) (iblk m c 2 tFirst)

/-- The accumulator the first half of a row block leaves. -/
def accV (c : Dev nD) (t : Fin cfg0.N) : Vec F S1000x128 .f32 := k0_pay2 (adjBlk m c t) (View.ld (xwV m c) rLo)

/-- The row block of the result the second half stores. -/
def outV (c : Dev nD) (t : Fin cfg0.N) : Vec F S1000x128 .f32 :=
  k0_pay3 (View.ld (adjBlk m c t) rCols) (View.ld (xwV m c) rHi) (accV m c (prevPt t))
    (iblk m c 3 t) (iblk m c 4 t) (iblk m c 5 t) (iblk m c 6 t) (iblk m c 7 t)

/-! ## The invariant, point by point -/

/-- Before the first point the two scratch buffers hold anything; after a first half they hold `xw` and the row
    block's accumulator; after a second half `xw` and anything. -/
def PhiS (c : Dev nD) : (n : ℕ) → n ≤ cfg0.N → sProp 𝕄
  | 0, _ => Pipeline.ΦA spec0 c
  | n + 1, hn =>
    if n % 2 = 0 then
      iprop(iprop(owns (c : Thread nD τ) scXw fullShare (xwV m c) ∗ owns (c : Thread nD τ) scAcc fullShare (accV m c ⟨n, hn⟩)) ∗ (∃ r, prngReg c r))
    else
      iprop(iprop(owns (c : Thread nD τ) scXw fullShare (xwV m c) ∗ (∃ d, owns (c : Thread nD τ) scAcc fullShare d)) ∗ (∃ r, prngReg c r))

theorem PhiS_zero (c : Dev nD) (n : ℕ) (h : n ≤ cfg0.N) (hz : n = 0) : PhiS m c n h = Pipeline.ΦA spec0 c := by
  subst hz; rfl

theorem PhiS_after_start (c : Dev nD) (n : ℕ) (hn : n < cfg0.N) (he : n % 2 = 0) :
    PhiS m c (n + 1) hn = iprop(iprop(owns (c : Thread nD τ) scXw fullShare (xwV m c) ∗ owns (c : Thread nD τ) scAcc fullShare (accV m c ⟨n, hn⟩)) ∗ (∃ r, prngReg c r)) := by
  show (if n % 2 = 0 then _ else _) = _; rw [if_pos he]

theorem PhiS_after_finish (c : Dev nD) (n : ℕ) (hn : n < cfg0.N) (he : ¬n % 2 = 0) :
    PhiS m c (n + 1) hn = iprop(iprop(owns (c : Thread nD τ) scXw fullShare (xwV m c) ∗ (∃ d, owns (c : Thread nD τ) scAcc fullShare d)) ∗ (∃ r, prngReg c r)) := by
  show (if n % 2 = 0 then _ else _) = _; rw [if_neg he]

/-- Before a second half: the point before was a first half. -/
theorem PhiS_before_finish (c : Dev nD) (n : ℕ) (h : n ≤ cfg0.N) (ho : n % 2 = 1) :
    PhiS m c n h = iprop(iprop(owns (c : Thread nD τ) scXw fullShare (xwV m c) ∗ owns (c : Thread nD τ) scAcc fullShare (accV m c ⟨n - 1, by omega⟩)) ∗ (∃ r, prngReg c r)) := by
  cases n with
  | zero => omega
  | succ k => exact PhiS_after_start m c k h (by omega)

/-- Before a first half other than the first point: the point before was a second half. -/
theorem PhiS_before_start (c : Dev nD) (n : ℕ) (h : n ≤ cfg0.N) (hz : n ≠ 0) (he : n % 2 = 0) :
    PhiS m c n h = iprop(iprop(owns (c : Thread nD τ) scXw fullShare (xwV m c) ∗ (∃ d, owns (c : Thread nD τ) scAcc fullShare d)) ∗ (∃ r, prngReg c r)) := by
  cases n with
  | zero => exact absurd rfl hz
  | succ k => exact PhiS_after_finish m c k h (by omega)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => adjBlk m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outV m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem Phi_succ (c : Dev nD) (t : Fin cfg0.N) :
    (dats m 0 c).Φ t.succ = PhiS m c (t.val + 1) t.isLt := rfl

theorem after_0 (c : Dev nD) (t : Fin cfg0.N) : (dats m 0 c).after 0 t = adjBlk m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outV m c t := by dsimp only [dats]

/-- What the body finds in each input's buffer: the first window's block just fetched, its tail at whatever the
    buffer held; every other input's block, fetched once and left in place. -/
theorem before_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

end Cert.Kernel.Body

end
-- ==== Proof.WordPieces.lean ====
/-
  Here the program is read with its floats as machine words. Nothing below depends on what a float is: the guards
  are integer comparisons on the grid point, the runs say which buffers are loaded and stored whole and when, and the
  payloads are carried as terms that are never opened.

  What the stored pieces of each run are, as values: `xw = X · Wg` (the first payload of whole loads), an accumulator
  as the second payload of the row block's staged columns and the first 5120 rows of `xw`, and the result's row block
  as the third payload of the first 4880 staged columns, the last 4880 rows of `xw`, the accumulator and the head's
  weights and biases. Every store covers its buffer, so what the buffer reads afterwards is the payload.
-/
import proofs.«155627_g90632399880415_cont_sun_m_680_22_alg».proof.Proof.Gen.Kernel.Frame
import proofs.«155627_g90632399880415_cont_sun_m_680_22_alg».proof.Proof.Gen.Kernel.Skeleton
import proofs.«155627_g90632399880415_cont_sun_m_680_22_alg».proof.Proof.WordRunFinish
import proofs.«155627_g90632399880415_cont_sun_m_680_22_alg».proof.Proof.WordData
import Idealize.ShloMosaic.Lib.Pipeline.Value
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem first_xw (c : Dev nD) (i : grid0.Coords) (arg2 : Memref sig .tc .vmem S1000x5120 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1000x128 .f32) (harg10 : arg10.IsWhole) (arg11 : Memref sig .tc .vmem S10000x128 .f32) (harg11 : arg11.IsWhole) (arg12 : Memref sig .tc .vmem S1000x128 .f32) (harg12 : arg12.IsWhole)
    (h1 : guardXw i) (h2 : guardStart i) (h3 : ¬guardFinish i) (x0 : Vec F S1000x5120 .f32) (x1 : Vec F S10000x128 .f32) (x2 : Vec F S128x128 .f32) (x3 : Vec F S1x128 .f32) (x4 : Vec F S128x128 .f32) (x5 : Vec F S1x128 .f32) (x6 : Vec F S128x128 .f32) (x7 : Vec F S1x128 .f32) :
    View.canon (runFirst (F := F) c i arg2 harg2 arg3 harg3 arg4 harg4 arg5 harg5 arg6 harg6 arg7 harg7 arg8 harg8 arg9 harg9 arg10 harg10 arg11 harg11 arg12 harg12 h1 h2 h3 x0 x1 x2 x3 x4 x5 x6 x7).1 = k0_pay1 x1 x2 := by
  unfold runFirst; dsimp only; sl_unfold_words
  rw [View.canon_unit_zero hz2]
  simp only [View.readAt_eq_ld, harg3.read_unread, harg4.read_unread,
    View.ld_unit_zero (S := S10000x128) hz2, View.ld_unit_zero (S := S128x128) hz2]

theorem first_xw_cover (c : Dev nD) (i : grid0.Coords) (arg2 : Memref sig .tc .vmem S1000x5120 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1000x128 .f32) (harg10 : arg10.IsWhole) (arg11 : Memref sig .tc .vmem S10000x128 .f32) (harg11 : arg11.IsWhole) (arg12 : Memref sig .tc .vmem S1000x128 .f32) (harg12 : arg12.IsWhole)
    (h1 : guardXw i) (h2 : guardStart i) (h3 : ¬guardFinish i) (x0 : Vec F S1000x5120 .f32) (x1 : Vec F S10000x128 .f32) (x2 : Vec F S128x128 .f32) (x3 : Vec F S1x128 .f32) (x4 : Vec F S128x128 .f32) (x5 : Vec F S1x128 .f32) (x6 : Vec F S128x128 .f32) (x7 : Vec F S1x128 .f32) (y : S10000x128.Idx) :
    ∃ pc ∈ (runFirst (F := F) c i arg2 harg2 arg3 harg3 arg4 harg4 arg5 harg5 arg6 harg6 arg7 harg7 arg8 harg8 arg9 harg9 arg10 harg10 arg11 harg11 arg12 harg12 h1 h2 h3 x0 x1 x2 x3 x4 x5 x6 x7).1, y ∈ pc.1.set :=
  View.cover_of_tiledL _ S10000x128.size (by sl_kernel_rfl) y

theorem first_acc (c : Dev nD) (i : grid0.Coords) (arg2 : Memref sig .tc .vmem S1000x5120 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1000x128 .f32) (harg10 : arg10.IsWhole) (arg11 : Memref sig .tc .vmem S10000x128 .f32) (harg11 : arg11.IsWhole) (arg12 : Memref sig .tc .vmem S1000x128 .f32) (harg12 : arg12.IsWhole)
    (h1 : guardXw i) (h2 : guardStart i) (h3 : ¬guardFinish i) (x0 : Vec F S1000x5120 .f32) (x1 : Vec F S10000x128 .f32) (x2 : Vec F S128x128 .f32) (x3 : Vec F S1x128 .f32) (x4 : Vec F S128x128 .f32) (x5 : Vec F S1x128 .f32) (x6 : Vec F S128x128 .f32) (x7 : Vec F S1x128 .f32) :
    View.canon (runFirst (F := F) c i arg2 harg2 arg3 harg3 arg4 harg4 arg5 harg5 arg6 harg6 arg7 harg7 arg8 harg8 arg9 harg9 arg10 harg10 arg11 harg11 arg12 harg12 h1 h2 h3 x0 x1 x2 x3 x4 x5 x6 x7).2.1
      = k0_pay2 x0 (View.ld (k0_pay1 x1 x2) rLo) := by
  unfold runFirst; dsimp only; sl_unfold_words
  rw [View.canon_unit_zero hz2,
    View.readCov_eq_canon_ld _ _ _ (fun y => ⟨_, List.mem_singleton_self _, View.mem_set_unit_zero hz2 inb_S10000x128_S10000x128_0_0 y⟩),
    View.canon_unit_zero hz2]
  simp only [View.readAt_eq_ld, harg2.read_unread, harg3.read_unread, harg4.read_unread,
    View.ld_unit_zero (S := S1000x5120) hz2, View.ld_unit_zero (S := S10000x128) hz2, View.ld_unit_zero (S := S128x128) hz2]

theorem first_acc_cover (c : Dev nD) (i : grid0.Coords) (arg2 : Memref sig .tc .vmem S1000x5120 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1000x128 .f32) (harg10 : arg10.IsWhole) (arg11 : Memref sig .tc .vmem S10000x128 .f32) (harg11 : arg11.IsWhole) (arg12 : Memref sig .tc .vmem S1000x128 .f32) (harg12 : arg12.IsWhole)
    (h1 : guardXw i) (h2 : guardStart i) (h3 : ¬guardFinish i) (x0 : Vec F S1000x5120 .f32) (x1 : Vec F S10000x128 .f32) (x2 : Vec F S128x128 .f32) (x3 : Vec F S1x128 .f32) (x4 : Vec F S128x128 .f32) (x5 : Vec F S1x128 .f32) (x6 : Vec F S128x128 .f32) (x7 : Vec F S1x128 .f32) (y : S1000x128.Idx) :
    ∃ pc ∈ (runFirst (F := F) c i arg2 harg2 arg3 harg3 arg4 harg4 arg5 harg5 arg6 harg6 arg7 harg7 arg8 harg8 arg9 harg9 arg10 harg10 arg11 harg11 arg12 harg12 h1 h2 h3 x0 x1 x2 x3 x4 x5 x6 x7).2.1, y ∈ pc.1.set :=
  View.cover_of_tiledL _ S1000x128.size (by sl_kernel_rfl) y

theorem start_acc (c : Dev nD) (i : grid0.Coords) (arg2 : Memref sig .tc .vmem S1000x5120 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1000x128 .f32) (harg10 : arg10.IsWhole) (arg11 : Memref sig .tc .vmem S10000x128 .f32) (harg11 : arg11.IsWhole) (arg12 : Memref sig .tc .vmem S1000x128 .f32) (harg12 : arg12.IsWhole)
    (h1 : ¬guardXw i) (h2 : guardStart i) (h3 : ¬guardFinish i) (x0 : Vec F S1000x5120 .f32) (x1 : Vec F S10000x128 .f32) (x2 : Vec F S128x128 .f32) (x3 : Vec F S1x128 .f32) (x4 : Vec F S128x128 .f32) (x5 : Vec F S1x128 .f32) (x6 : Vec F S128x128 .f32) (x7 : Vec F S1x128 .f32) (xs0 : Vec F S10000x128 .f32) :
    View.canon (runStart (F := F) c i arg2 harg2 arg3 harg3 arg4 harg4 arg5 harg5 arg6 harg6 arg7 harg7 arg8 harg8 arg9 harg9 arg10 harg10 arg11 harg11 arg12 harg12 h1 h2 h3 x0 x1 x2 x3 x4 x5 x6 x7 xs0).1
      = k0_pay2 x0 (View.ld xs0 rLo) := by
  unfold runStart; dsimp only; sl_unfold_words
  rw [View.canon_unit_zero hz2]
  simp only [View.readAt_eq_ld, harg2.read_unread, harg11.read_unread, View.ld_unit_zero (S := S1000x5120) hz2]

theorem start_acc_cover (c : Dev nD) (i : grid0.Coords) (arg2 : Memref sig .tc .vmem S1000x5120 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1000x128 .f32) (harg10 : arg10.IsWhole) (arg11 : Memref sig .tc .vmem S10000x128 .f32) (harg11 : arg11.IsWhole) (arg12 : Memref sig .tc .vmem S1000x128 .f32) (harg12 : arg12.IsWhole)
    (h1 : ¬guardXw i) (h2 : guardStart i) (h3 : ¬guardFinish i) (x0 : Vec F S1000x5120 .f32) (x1 : Vec F S10000x128 .f32) (x2 : Vec F S128x128 .f32) (x3 : Vec F S1x128 .f32) (x4 : Vec F S128x128 .f32) (x5 : Vec F S1x128 .f32) (x6 : Vec F S128x128 .f32) (x7 : Vec F S1x128 .f32) (xs0 : Vec F S10000x128 .f32) (y : S1000x128.Idx) :
    ∃ pc ∈ (runStart (F := F) c i arg2 harg2 arg3 harg3 arg4 harg4 arg5 harg5 arg6 harg6 arg7 harg7 arg8 harg8 arg9 harg9 arg10 harg10 arg11 harg11 arg12 harg12 h1 h2 h3 x0 x1 x2 x3 x4 x5 x6 x7 xs0).1, y ∈ pc.1.set :=
  View.cover_of_tiledL _ S1000x128.size (by sl_kernel_rfl) y

theorem finish_out (c : Dev nD) (i : grid0.Coords) (arg2 : Memref sig .tc .vmem S1000x5120 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1000x128 .f32) (harg10 : arg10.IsWhole) (arg11 : Memref sig .tc .vmem S10000x128 .f32) (harg11 : arg11.IsWhole) (arg12 : Memref sig .tc .vmem S1000x128 .f32) (harg12 : arg12.IsWhole)
    (h1 : ¬guardXw i) (h2 : ¬guardStart i) (h3 : guardFinish i) (x0 : Vec F S1000x5120 .f32) (x1 : Vec F S10000x128 .f32) (x2 : Vec F S128x128 .f32) (x3 : Vec F S1x128 .f32) (x4 : Vec F S128x128 .f32) (x5 : Vec F S1x128 .f32) (x6 : Vec F S128x128 .f32) (x7 : Vec F S1x128 .f32) (xs0 : Vec F S10000x128 .f32) (xs1 : Vec F S1000x128 .f32) :
    View.canon (runFinish (F := F) c i arg2 harg2 arg3 harg3 arg4 harg4 arg5 harg5 arg6 harg6 arg7 harg7 arg8 harg8 arg9 harg9 arg10 harg10 arg11 harg11 arg12 harg12 h1 h2 h3 x0 x1 x2 x3 x4 x5 x6 x7 xs0 xs1).1
      = k0_pay3 (View.ld x0 rCols) (View.ld xs0 rHi) xs1 x3 x4 x5 x6 x7 := by
  unfold runFinish; dsimp only; sl_unfold_words
  rw [View.canon_unit_zero hz2]
  simp only [View.readAt_eq_ld, harg2.read_unread, harg5.read_unread, harg6.read_unread, harg7.read_unread,
    harg8.read_unread, harg9.read_unread, harg11.read_unread, harg12.read_unread,
    View.ld_unit_zero (S := S1000x128) hz2, View.ld_unit_zero (S := S1x128) hz2, View.ld_unit_zero (S := S128x128) hz2]

theorem finish_out_cover (c : Dev nD) (i : grid0.Coords) (arg2 : Memref sig .tc .vmem S1000x5120 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1000x128 .f32) (harg10 : arg10.IsWhole) (arg11 : Memref sig .tc .vmem S10000x128 .f32) (harg11 : arg11.IsWhole) (arg12 : Memref sig .tc .vmem S1000x128 .f32) (harg12 : arg12.IsWhole)
    (h1 : ¬guardXw i) (h2 : ¬guardStart i) (h3 : guardFinish i) (x0 : Vec F S1000x5120 .f32) (x1 : Vec F S10000x128 .f32) (x2 : Vec F S128x128 .f32) (x3 : Vec F S1x128 .f32) (x4 : Vec F S128x128 .f32) (x5 : Vec F S1x128 .f32) (x6 : Vec F S128x128 .f32) (x7 : Vec F S1x128 .f32) (xs0 : Vec F S10000x128 .f32) (xs1 : Vec F S1000x128 .f32) (y : S1000x128.Idx) :
    ∃ pc ∈ (runFinish (F := F) c i arg2 harg2 arg3 harg3 arg4 harg4 arg5 harg5 arg6 harg6 arg7 harg7 arg8 harg8 arg9 harg9 arg10 harg10 arg11 harg11 arg12 harg12 h1 h2 h3 x0 x1 x2 x3 x4 x5 x6 x7 xs0 xs1).1, y ∈ pc.1.set :=
  View.cover_of_tiledL _ S1000x128.size (by sl_kernel_rfl) y

end Cert.Kernel.Body

end
-- ==== Proof.WordTail.lean ====
/-
  Here the program is read with its floats as machine words. Nothing below depends on what a float is: the guards
  are integer comparisons on the grid point, the runs say which buffers are loaded and stored whole and when, and the
  payloads are carried as terms that are never opened.

  The first window's block at a first half lies wholly inside the array, so the whole staging buffer is what the
  fetch filled; at a second half its first 4880 columns do, and those are all the body reads. Hence nothing the body
  computes depends on what the tail of the buffer held.
-/
import proofs.«155627_g90632399880415_cont_sun_m_680_22_alg».proof.Proof.Gen.Kernel.Frame
import proofs.«155627_g90632399880415_cont_sun_m_680_22_alg».proof.Proof.Gen.Kernel.Skeleton
import proofs.«155627_g90632399880415_cont_sun_m_680_22_alg».proof.Proof.WordData
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a first half the fetch moves the whole block. -/
theorem xsize_start : ∀ t : Fin cfg0.N, t.val % 2 = 0 → ∀ a, win0_0.xsize (grid0.coords t) a = S1000x5120.size a := by
  decide +kernel

/-- At a second half it moves all 1000 rows and the first 4880 columns. -/
theorem xsize_finish : ∀ t : Fin cfg0.N, t.val % 2 = 1 →
    win0_0.xsize (grid0.coords t) 0 = 1000 ∧ win0_0.xsize (grid0.coords t) 1 = 4880 := by
  decide +kernel

theorem fill_indep_start {α : Type} (t : Fin cfg0.N) (he : t.val % 2 = 0) (d d' : win0_0.block.Idx → α)
    (g : (win0_0.xblock (grid0.coords t)).Idx → α) :
    win0_0.fill (grid0.coords t) d g = win0_0.fill (grid0.coords t) d' g := by
  funext j
  have hm : win0_0.moved (grid0.coords t) j = true :=
    (win0_0.moved_iff _ j).mpr fun a => by rw [xsize_start t he a]; exact (j a).isLt
  unfold Pipeline.Window.fill; rw [dif_pos hm, dif_pos hm]

theorem ld_fill_indep_finish {α : Type} (t : Fin cfg0.N) (ho : t.val % 2 = 1) (d d' : win0_0.block.Idx → α)
    (g : (win0_0.xblock (grid0.coords t)).Idx → α) (x : rCols.shape.Idx) :
    win0_0.fill (grid0.coords t) d g (rCols.idx x) = win0_0.fill (grid0.coords t) d' g (rCols.idx x) := by
  have hm : win0_0.moved (grid0.coords t) (rCols.idx x) = true :=
    (win0_0.moved_iff _ _).mpr fun a => by
      match a with
      | ⟨0, _⟩ =>
        exact lt_of_lt_of_eq (show (0 + 1 * (x 0).val) < 1000 from by
          have h : (x 0).val < 1000 := (x 0).isLt
          omega) (xsize_finish t ho).1.symm
      | ⟨1, _⟩ =>
        exact lt_of_lt_of_eq (show (0 + 1 * (x 1).val) < 4880 from by
          have h : (x 1).val < 4880 := (x 1).isLt
          omega) (xsize_finish t ho).2.symm
  unfold Pipeline.Window.fill; rw [dif_pos hm, dif_pos hm]

end Cert.Kernel.Body

end
-- ==== Proof.WordOblig.lean ====
/-
  Here the program is read with its floats as machine words. Nothing below depends on what a float is: the guards
  are integer comparisons on the grid point, the runs say which buffers are loaded and stored whole and when, and the
  payloads are carried as terms that are never opened.

  The body obligation, point by point. At each point the body is handed every window's current staging buffer: the
  first window's holds its block just fetched (its tail whatever it held), every other input's its block, the
  result's whatever the pipeline left there. By the half the point is in — and whether it is the very first — one of
  the three runs applies; the invariant hands the run the scratch buffers at what the point before left and takes
  them back at what this point leaves; the result's buffer is handed back untouched at a first half and holding the
  row block at a second.
-/
import proofs.«155627_g90632399880415_cont_sun_m_680_22_alg».proof.Proof.Gen.Kernel.Frame
import proofs.«155627_g90632399880415_cont_sun_m_680_22_alg».proof.Proof.Gen.Kernel.Skeleton
import proofs.«155627_g90632399880415_cont_sun_m_680_22_alg».proof.Proof.WordPieces
import proofs.«155627_g90632399880415_cont_sun_m_680_22_alg».proof.Proof.WordTail
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
theorem body_obligation (c : Dev nD) :
    BodyObligationLoose (dats (F := F) m 0 c) (defs₀ (F := F)) Variants.none () Set.univ := fun t => by
  rw [bigSep_W0, bigSep_W0]
  simp only
  rw [show (dats m 0 c).owesAt () t.succ = (dats m 0 c).owesAt () t.castSucc from rfl, Phi_succ, Phi_castSucc]
  simp only [before_0, before_1, before_2, before_3, before_4, before_5, before_6, before_7,
    after_0, after_1, after_2, after_3, after_4, after_5, after_6, after_7, after_8]
  have hN : t.val < 20 := lt_of_lt_of_eq t.isLt (show cfg0.N = 20 from N_0)
  by_cases he : t.val % 2 = 0
  · rw [show idle0 8 (grid0.coords t) = true from idle_out t he, show (win0 8).flush t = false from noflush_out t he]
    simp only
    by_cases hz : t.val = 0
    · -- the first point
      rw [PhiS_zero m c _ _ hz, PhiA_eq, PhiS_after_start m c t.val t.isLt he]
      iintro ⟨⟨⟨HX, HA⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      have e0 : (win0 0).fill (grid0.coords t) d0 ((win0 0).cut (grid0.coords t) (adjBlk m c t))
          = win0_0.fill (grid0.coords t) d0 (iblk m c 0 t) := by
        unfold adjBlk; exact congrArg _ (win0_0.cut_fill _ _ _)
      have hx : t = tFirst := Fin.ext hz
      iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scXw (Memref.isWhole_whole _) scAcc (Memref.isWhole_whole _) ((guardXw_iff t).mpr hz) ((guardStart_iff t).mpr he) (fun h => by have := (guardFinish_iff t).mp h; omega) (win0_0.fill (grid0.coords t) d0 (iblk m c 0 t)) (iblk m c 1 t) (iblk m c 2 t) (iblk m c 3 t) (iblk m c 4 t) (iblk m c 5 t) (iblk m c 6 t) (iblk m c 7 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HX]; · iexact HX
      isplitl [HA]; · iexact HA
      iintro ⟨H0, H1, H2, H3, H4, H5, H6, H7, H8, ⟨%fX, HX⟩, ⟨%fA, HA⟩⟩
      isplitl [HX HA Hg]
      · isplitl [HX HA]
        · isplitl [HX]
          · unfold owns; iexists _; isplitr
            swap; · iexact HX
            ipureintro
            refine (View.read_writes_eq_canon _ _ _ (first_xw_cover c _ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scXw (Memref.isWhole_whole _) scAcc (Memref.isWhole_whole _) _ _ _ _ _ _ _ _ _ _ _)).trans ((first_xw c _ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scXw (Memref.isWhole_whole _) scAcc (Memref.isWhole_whole _) _ _ _ _ _ _ _ _ _ _ _).trans ?_)
            unfold xwV; rw [hx]
          · unfold owns; iexists _; isplitr
            swap; · iexact HA
            ipureintro
            refine (View.read_writes_eq_canon _ _ _ (first_acc_cover c _ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scXw (Memref.isWhole_whole _) scAcc (Memref.isWhole_whole _) _ _ _ _ _ _ _ _ _ _ _)).trans ((first_acc c _ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scXw (Memref.isWhole_whole _) scAcc (Memref.isWhole_whole _) _ _ _ _ _ _ _ _ _ _ _).trans ?_)
            unfold accV xwV adjBlk
            rw [fill_indep_start t he d0 tailWord (iblk m c 0 t), hx]
        · iexact Hg
      isplitl [Ho]; · iexact Ho
      isplitl [H0]
      · iexists d0; rw [e0]; iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists d8; iexact H8
    · -- the first half of a later row block
      rw [PhiS_before_start m c _ _ hz he, PhiS_after_start m c t.val t.isLt he]
      iintro ⟨⟨⟨HX, HA⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      have e0 : (win0 0).fill (grid0.coords t) d0 ((win0 0).cut (grid0.coords t) (adjBlk m c t))
          = win0_0.fill (grid0.coords t) d0 (iblk m c 0 t) := by
        unfold adjBlk; exact congrArg _ (win0_0.cut_fill _ _ _)
      iapply ((runStart c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scXw (Memref.isWhole_whole _) scAcc (Memref.isWhole_whole _) (fun h => hz ((guardXw_iff t).mp h)) ((guardStart_iff t).mpr he) (fun h => by have := (guardFinish_iff t).mp h; omega) (win0_0.fill (grid0.coords t) d0 (iblk m c 0 t)) (iblk m c 1 t) (iblk m c 2 t) (iblk m c 3 t) (iblk m c 4 t) (iblk m c 5 t) (iblk m c 6 t) (iblk m c 7 t) (xwV m c)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HX]; · iexact HX
      isplitl [HA]; · iexact HA
      iintro ⟨H0, H1, H2, H3, H4, H5, H6, H7, H8, HX, ⟨%fA, HA⟩⟩
      isplitl [HX HA Hg]
      · isplitl [HX HA]
        · isplitl [HX]; · iexact HX
          unfold owns; iexists _; isplitr
          swap; · iexact HA
          ipureintro
          refine (View.read_writes_eq_canon _ _ _ (start_acc_cover c _ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scXw (Memref.isWhole_whole _) scAcc (Memref.isWhole_whole _) _ _ _ _ _ _ _ _ _ _ _ _)).trans ((start_acc c _ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scXw (Memref.isWhole_whole _) scAcc (Memref.isWhole_whole _) _ _ _ _ _ _ _ _ _ _ _ _).trans ?_)
          unfold accV adjBlk
          rw [fill_indep_start t he d0 tailWord (iblk m c 0 t)]
        · iexact Hg
      isplitl [Ho]; · iexact Ho
      isplitl [H0]
      · iexists d0; rw [e0]; iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists d8; iexact H8
  · -- the second half of a row block
    have ho : t.val % 2 = 1 := by omega
    rw [show idle0 8 (grid0.coords t) = false from live_out t ho]
    simp only
    rw [PhiS_before_finish m c _ _ ho, PhiS_after_finish m c t.val t.isLt he]
    iintro ⟨⟨⟨HX, HA⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have e0 : (win0 0).fill (grid0.coords t) d0 ((win0 0).cut (grid0.coords t) (adjBlk m c t))
        = win0_0.fill (grid0.coords t) d0 (iblk m c 0 t) := by
      unfold adjBlk; exact congrArg _ (win0_0.cut_fill _ _ _)
    iapply ((runFinish c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scXw (Memref.isWhole_whole _) scAcc (Memref.isWhole_whole _) (fun h => by have := (guardXw_iff t).mp h; omega) (fun h => by have := (guardStart_iff t).mp h; omega) ((guardFinish_iff t).mpr ho) (win0_0.fill (grid0.coords t) d0 (iblk m c 0 t)) (iblk m c 1 t) (iblk m c 2 t) (iblk m c 3 t) (iblk m c 4 t) (iblk m c 5 t) (iblk m c 6 t) (iblk m c 7 t) (xwV m c) (accV m c (prevPt t))).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HX]; · iexact HX
    isplitl [HA]; · iexact HA
    iintro ⟨H0, H1, H2, H3, H4, H5, H6, H7, ⟨%f8, H8⟩, HX, HA⟩
    isplitl [HX HA Hg]
    · isplitl [HX HA]
      · isplitl [HX]; · iexact HX
        iexists _; iexact HA
      · iexact Hg
    isplitl [Ho]; · iexact Ho
    isplitl [H0]
    · iexists d0; rw [e0]; iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro
    refine (View.read_writes_eq_canon _ _ _ (finish_out_cover c _ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scXw (Memref.isWhole_whole _) scAcc (Memref.isWhole_whole _) _ _ _ _ _ _ _ _ _ _ _ _ _)).trans ((finish_out c _ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scXw (Memref.isWhole_whole _) scAcc (Memref.isWhole_whole _) _ _ _ _ _ _ _ _ _ _ _ _ _).trans ?_)
    unfold outV adjBlk
    exact congrArg (fun v => k0_pay3 v (View.ld (xwV m c) rHi) (accV m c (prevPt t)) (iblk m c 3 t) (iblk m c 4 t) (iblk m c 5 t) (iblk m c 6 t) (iblk m c 7 t))
      (funext (ld_fill_indep_finish t ho d0 tailWord (iblk m c 0 t)))

end Cert.Kernel.Body

end
-- ==== Proof.WordRun.lean ====
/-
  Here the program is read with its floats as machine words. Nothing below depends on what a float is: the guards
  are integer comparisons on the grid point, the runs say which buffers are loaded and stored whole and when, and the
  payloads are carried as terms that are never opened.

  The run of the whole program from the body obligation: the region's own invariant before the first point is the
  point-by-point invariant there (both scratch buffers at anything), and after the last point — a second half — it is
  given back with `xw` forgotten. Every weakly fair execution then terminates without a fault, every windowed array
  ends at what the write-backs leave, and every other buffer as the region found it; read at the twelve arguments this
  is the frame.
-/
import proofs.«155627_g90632399880415_cont_sun_m_680_22_alg».proof.Proof.Gen.Kernel.Frame
import proofs.«155627_g90632399880415_cont_sun_m_680_22_alg».proof.Proof.Gen.Kernel.Skeleton
import proofs.«155627_g90632399880415_cont_sun_m_680_22_alg».proof.Proof.WordOblig
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hin (c : Dev nD) : Pipeline.ΦA spec0 c ⊢ (dats (F := F) m 0 c).Φ 0 := by
  rw [show (dats m 0 c).Φ 0 = PhiS m c 0 (Nat.zero_le _) from rfl, PhiS_zero m c 0 _ rfl]
  try exact Idealize.SL.BI.Entails.refl _

theorem hout (c : Dev nD) : (dats (F := F) m 0 c).Φ (Fin.last cfg0.N) ⊢ Pipeline.ΦA spec0 c := by
  rw [show (dats m 0 c).Φ (Fin.last cfg0.N) = PhiS m c (19 + 1) (by decide) from rfl,
    PhiS_after_finish m c 19 (by decide) (by decide), PhiA_eq]
  iintro ⟨⟨HX, HA⟩, Hg⟩
  isplitl [HX HA]
  · isplitl [HX]
    · iexists _; iexact HX
    iexact HA
  iexact Hg

set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

/-- info: 'Cert.Kernel.Body.run_main' depends on axioms: [propext, Classical.choice, Quot.sound] -/
#guard_msgs in #print axioms run_main

end Cert.Kernel.Body

end
-- ==== Proof.Guards.lean ====
/-
  The grid of the kernel is ten row blocks by two halves of the contraction, visited in row-major order, so point
  `t` is row block `t / 2` and half `t % 2`. The body has three guarded parts. At the very first point it
  forms `xw = X · Wg` (all 10000 rows) into the first scratch. At the first half of each row block it stores the
  partial product of the row block's first 5120 columns of `adj` with the first 5120 rows of `xw` into the second
  scratch. At the second half it adds the product of the remaining 4880 columns with the last 4880 rows of `xw`,
  applies the head, and stores the row block of the result. The three guards, as functions of the point, are decided
  here once over the twenty points.
-/
import proofs.«155627_g90632399880415_cont_sun_m_680_22_alg».proof.Proof.Gen.KernelIdeal.Frame
import proofs.«155627_g90632399880415_cont_sun_m_680_22_alg».proof.Proof.Gen.KernelIdeal.Skeleton
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three guards -/

/-- The guard of the part that forms `xw`: both grid coordinates are zero. -/
abbrev guardXw (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- The guard of the part that starts a row block's accumulator: the half is the first. -/
abbrev guardStart (i : grid0.Coords) : Prop :=
  Scalar.cmpi .ne (Scalar.extui (Scalar.cmpi .eq (BitVec.ofNat 32 (i 1).val) 0#32)) 0#32 = 1#1
/-- The guard of the part that finishes a row block: the half is the second. -/
abbrev guardFinish (i : grid0.Coords) : Prop := k0_cond3 i = 1#1

theorem guardXw_iff : ∀ t : Fin cfg0.N, guardXw (grid0.coords t) ↔ t.val = 0 :=
  (by decide +kernel : ∀ t : Fin grid0.N, guardXw (grid0.coords t) ↔ t.val = 0)
theorem guardStart_iff : ∀ t : Fin cfg0.N, guardStart (grid0.coords t) ↔ t.val % 2 = 0 :=
  (by decide +kernel : ∀ t : Fin grid0.N, guardStart (grid0.coords t) ↔ t.val % 2 = 0)
theorem guardFinish_iff : ∀ t : Fin cfg0.N, guardFinish (grid0.coords t) ↔ t.val % 2 = 1 :=
  (by decide +kernel : ∀ t : Fin grid0.N, guardFinish (grid0.coords t) ↔ t.val % 2 = 1)

/-! ## Where the result's window is idle, and when it is written back -/

theorem live_in : ∀ (w : Fin 9), w.val < 8 → ∀ t : Fin cfg0.N, cfg0.idle w (grid0.coords t) = false := by decide +kernel
theorem idle_out : ∀ t : Fin cfg0.N, t.val % 2 = 0 → cfg0.idle 8 (grid0.coords t) = true := by decide +kernel
theorem live_out : ∀ t : Fin cfg0.N, t.val % 2 = 1 → cfg0.idle 8 (grid0.coords t) = false := by decide +kernel
theorem noflush_out : ∀ t : Fin cfg0.N, t.val % 2 = 0 → (cfg0.win 8).flush t = false := by decide +kernel

/-! ## The memrefs the body is called with -/

abbrev ms0 (t : Fin cfg0.N) : Memref sig .tc .vmem S1000x5120 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1000x128 .f32 := win0_8.stage (cfg0.slots t 8)
abbrev hs8 (t : Fin cfg0.N) : (ms8 t).IsWhole := hstage0_8 ((cfg0.slots t 8).cast nbuf0_8)
/-- The scratch that holds `xw`. -/
abbrev scXw : Memref sig .tc .vmem S10000x128 .f32 := Memref.whole cc0_scratch0
/-- The scratch that holds a row block's accumulator. -/
abbrev scAcc : Memref sig .tc .vmem S1000x128 .f32 := Memref.whole cc0_scratch1
/-- One staging buffer of the result's window, through which what the body leaves in it is stated. -/
abbrev VOut : View sig .tc .vmem S1000x128 .f32 := (Memref.whole cc0_stg8_0 : Memref sig .tc .vmem S1000x128 .f32).view

/-- The region's own invariant, its two scratch buffers spelled as memrefs owned at some contents. -/
theorem PhiA_eq (c : Dev nD) :
    (Pipeline.ΦA spec0 c : sProp 𝕄)
      = iprop(iprop((∃ d, owns (c : Thread nD τ) scXw fullShare d) ∗ (∃ d, owns (c : Thread nD τ) scAcc fullShare d)) ∗ (∃ r, prngReg c r)) := by
  unfold Pipeline.ΦA; rw [scopedRest0_eq]; simp only [scXw, scAcc, owns_whole]; try rfl

end Cert.KernelIdeal.Body

end
-- ==== Proof.RunFirst.lean ====
/-
  The body run once in each of the three situations the grid meets, on any whole staging memrefs: what it needs of
  each buffer and what it leaves in each. At the first point it forms `xw` and starts the first row block's
  accumulator (both scratch buffers stored whole, the result's buffer untouched); at the first half of a later row block
  it starts that block's accumulator from the `xw` the scratch carries; at a second half it reads both scratch
  buffers and stores the row block of the result. The stored pieces are found by running the body; the guards are
  decided by the situation's hypotheses.
-/
import proofs.«155627_g90632399880415_cont_sun_m_680_22_alg».proof.Proof.Gen.KernelIdeal.Frame
import proofs.«155627_g90632399880415_cont_sun_m_680_22_alg».proof.Proof.Gen.KernelIdeal.Skeleton
import proofs.«155627_g90632399880415_cont_sun_m_680_22_alg».proof.Proof.Guards
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The first point: both guards of the first half hold. -/
noncomputable def runFirst (c : Dev nD) (i : grid0.Coords) (arg2 : Memref sig .tc .vmem S1000x5120 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1000x128 .f32) (harg10 : arg10.IsWhole) (arg11 : Memref sig .tc .vmem S10000x128 .f32) (harg11 : arg11.IsWhole) (arg12 : Memref sig .tc .vmem S1000x128 .f32) (harg12 : arg12.IsWhole)
    (h1 : guardXw i) (h2 : guardStart i) (h3 : ¬guardFinish i) (x0 : Vec F S1000x5120 .f32) (x1 : Vec F S10000x128 .f32) (x2 : Vec F S128x128 .f32) (x3 : Vec F S1x128 .f32) (x4 : Vec F S128x128 .f32) (x5 : Vec F S1x128 .f32) (x6 : Vec F S128x128 .f32) (x7 : Vec F S1x128 .f32) :
    Σ' (LX : List (View.Piece (Elt F) S10000x128 .f32)), { LA : List (View.Piece (Elt F) S1000x128 .f32) //
      ∀ (xi8 : Vec F S1000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LX) ∗ (∃ f, arg12.view.loc (c : Thread nD τ) ↦[arg12.view.set]{fullShare} arg12.view.writes (Elt F) f LA)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K } := by
  refine ⟨?_, ?_, fun xi8 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%dX, %fX, -, HX⟩, ⟨%dA, %fA, -, HA⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HX]; · iexists _; iexact HX
    iexists _; iexact HA

end Cert.KernelIdeal.Body

end
-- ==== Proof.RunStart.lean ====
/-
  The body at the first half of a row block after the first: it starts the block's accumulator from the `xw` the first
  scratch carries, which it only reads; the result's buffer is untouched.
-/
import proofs.«155627_g90632399880415_cont_sun_m_680_22_alg».proof.Proof.Gen.KernelIdeal.Frame
import proofs.«155627_g90632399880415_cont_sun_m_680_22_alg».proof.Proof.Gen.KernelIdeal.Skeleton
import proofs.«155627_g90632399880415_cont_sun_m_680_22_alg».proof.Proof.RunFirst
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runStart (c : Dev nD) (i : grid0.Coords) (arg2 : Memref sig .tc .vmem S1000x5120 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1000x128 .f32) (harg10 : arg10.IsWhole) (arg11 : Memref sig .tc .vmem S10000x128 .f32) (harg11 : arg11.IsWhole) (arg12 : Memref sig .tc .vmem S1000x128 .f32) (harg12 : arg12.IsWhole)
    (h1 : ¬guardXw i) (h2 : guardStart i) (h3 : ¬guardFinish i) (x0 : Vec F S1000x5120 .f32) (x1 : Vec F S10000x128 .f32) (x2 : Vec F S128x128 .f32) (x3 : Vec F S1x128 .f32) (x4 : Vec F S128x128 .f32) (x5 : Vec F S1x128 .f32) (x6 : Vec F S128x128 .f32) (x7 : Vec F S1x128 .f32) (xs0 : Vec F S10000x128 .f32) :
    { LA : List (View.Piece (Elt F) S1000x128 .f32) //
      ∀ (xi8 : Vec F S1000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0 ∗ (∃ f, arg12.view.loc (c : Thread nD τ) ↦[arg12.view.set]{fullShare} arg12.view.writes (Elt F) f LA)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K } := by
  refine ⟨?_, fun xi8 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fX, %hfX, HX⟩, ⟨%dA, %fA, -, HA⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfX
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HX]
    · iexists _; isplitr; · ipureintro; exact harg11.read_unread _
      iexact HX
    iexists _; iexact HA

end Cert.KernelIdeal.Body

end
-- ==== Proof.RunFinish.lean ====
/-
  The body at the second half of a row block: it reads `xw` and the block's accumulator from the two scratch buffers,
  which it leaves as they are, and stores the row block of the result whole.
-/
import proofs.«155627_g90632399880415_cont_sun_m_680_22_alg».proof.Proof.Gen.KernelIdeal.Frame
import proofs.«155627_g90632399880415_cont_sun_m_680_22_alg».proof.Proof.Gen.KernelIdeal.Skeleton
import proofs.«155627_g90632399880415_cont_sun_m_680_22_alg».proof.Proof.RunStart
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runFinish (c : Dev nD) (i : grid0.Coords) (arg2 : Memref sig .tc .vmem S1000x5120 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1000x128 .f32) (harg10 : arg10.IsWhole) (arg11 : Memref sig .tc .vmem S10000x128 .f32) (harg11 : arg11.IsWhole) (arg12 : Memref sig .tc .vmem S1000x128 .f32) (harg12 : arg12.IsWhole)
    (h1 : ¬guardXw i) (h2 : ¬guardStart i) (h3 : guardFinish i) (x0 : Vec F S1000x5120 .f32) (x1 : Vec F S10000x128 .f32) (x2 : Vec F S128x128 .f32) (x3 : Vec F S1x128 .f32) (x4 : Vec F S128x128 .f32) (x5 : Vec F S1x128 .f32) (x6 : Vec F S128x128 .f32) (x7 : Vec F S1x128 .f32) (xs0 : Vec F S10000x128 .f32) (xs1 : Vec F S1000x128 .f32) :
    { L8 : List (View.Piece (Elt F) S1000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xs0 ∗ owns (c : Thread nD τ) arg12 fullShare xs1) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fX, %hfX, HX⟩, ⟨%fA, %hfA, HA⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfX; obtain rfl := harg12.eq_unread hfA
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HX]
    · iexists _; isplitr; · ipureintro; exact harg11.read_unread _
      iexact HX
    iexists _; isplitr; · ipureintro; exact harg12.read_unread _
    iexact HA

end Cert.KernelIdeal.Body

end
-- ==== Proof.Data.lean ====
/-
  The proof data of the one pipeline. `xw = X · Wg` is formed once, at the first point, and the first scratch holds
  it from then on. The second scratch holds, after the first half of row block `b`, the partial product of the block's
  rows of `adj` restricted to the first 5120 columns with the first 5120 rows of `xw`; after the second half nobody
  reads it again. The result's staging buffer holds, after the second half, the row block of the result. The first
  window's second-half block overhangs the array by 240 columns: only its first 4880 columns are fetched, and the body
  reads only those; the tail of the buffer is filled here with the zero word, a choice nothing depends on.
-/
import proofs.«155627_g90632399880415_cont_sun_m_680_22_alg».proof.Proof.Gen.KernelIdeal.Frame
import proofs.«155627_g90632399880415_cont_sun_m_680_22_alg».proof.Proof.Gen.KernelIdeal.Skeleton
import proofs.«155627_g90632399880415_cont_sun_m_680_22_alg».proof.Proof.Guards
import Idealize.ShloMosaic.Lib.Pipeline.Value
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first 5120 rows of a `[10000, 128]` buffer. -/
abbrev rLo : Rect S10000x128 := Rect.unit (s := S10000x128) ![0, 0] S5120x128.size inb_S10000x128_S5120x128_0_0
/-- Its last 4880 rows. -/
abbrev rHi : Rect S10000x128 := Rect.unit (s := S10000x128) ![5120, 0] S4880x128.size inb_S10000x128_S4880x128_5120_0
/-- The first 4880 columns of a `[1000, 5120]` buffer. -/
abbrev rCols : Rect S1000x5120 := Rect.unit (s := S1000x5120) ![0, 0] S1000x4880.size inb_S1000x5120_S1000x4880_0_0

theorem hz2 : (![0, 0] : Fin 2 → Nat) = fun _ => 0 := funext fun a => by fin_cases a <;> rfl

/-- The first point. -/
abbrev tFirst : Fin cfg0.N := ⟨0, by decide⟩

/-- The point before `t` (the first point's own, at the first). -/
abbrev prevPt (t : Fin cfg0.N) : Fin cfg0.N := ⟨t.val - 1, Nat.lt_of_le_of_lt (Nat.sub_le _ _) t.isLt⟩

/-- The word that fills the tail of the first window's buffer where the fetch is cut. -/
abbrev tailWord : S1000x5120.Idx → Elt F .f32 := fun _ => Scalar.ofBits .f32 0#32

/-- The staged columns of `adj` at point `t`: the block inside the array, the tail filled. -/
def adjBlk (c : Dev nD) (t : Fin cfg0.N) : Vec F S1000x5120 .f32 :=
  win0_0.fill (grid0.coords t) tailWord (iblk m c 0 t)

/-- `xw = X · Wg`, as the first point forms it. -/
def xwV (c : Dev nD) : Vec F S10000x128 .f32 := k0_pay1 (iblk m c 1 tFirst) (iblk m c 2 tFirst)

/-- The accumulator the first half of a row block leaves. -/
def accV (c : Dev nD) (t : Fin cfg0.N) : Vec F S1000x128 .f32 := k0_pay2 (adjBlk m c t) (View.ld (xwV m c) rLo)

/-- The row block of the result the second half stores. -/
def outV (c : Dev nD) (t : Fin cfg0.N) : Vec F S1000x128 .f32 :=
  k0_pay3 (View.ld (adjBlk m c t) rCols) (View.ld (xwV m c) rHi) (accV m c (prevPt t))
    (iblk m c 3 t) (iblk m c 4 t) (iblk m c 5 t) (iblk m c 6 t) (iblk m c 7 t)

/-! ## The invariant, point by point -/

/-- Before the first point the two scratch buffers hold anything; after a first half they hold `xw` and the row
    block's accumulator; after a second half `xw` and anything. -/
def PhiS (c : Dev nD) : (n : ℕ) → n ≤ cfg0.N → sProp 𝕄
  | 0, _ => Pipeline.ΦA spec0 c
  | n + 1, hn =>
    if n % 2 = 0 then
      iprop(iprop(owns (c : Thread nD τ) scXw fullShare (xwV m c) ∗ owns (c : Thread nD τ) scAcc fullShare (accV m c ⟨n, hn⟩)) ∗ (∃ r, prngReg c r))
    else
      iprop(iprop(owns (c : Thread nD τ) scXw fullShare (xwV m c) ∗ (∃ d, owns (c : Thread nD τ) scAcc fullShare d)) ∗ (∃ r, prngReg c r))

theorem PhiS_zero (c : Dev nD) (n : ℕ) (h : n ≤ cfg0.N) (hz : n = 0) : PhiS m c n h = Pipeline.ΦA spec0 c := by
  subst hz; rfl

theorem PhiS_after_start (c : Dev nD) (n : ℕ) (hn : n < cfg0.N) (he : n % 2 = 0) :
    PhiS m c (n + 1) hn = iprop(iprop(owns (c : Thread nD τ) scXw fullShare (xwV m c) ∗ owns (c : Thread nD τ) scAcc fullShare (accV m c ⟨n, hn⟩)) ∗ (∃ r, prngReg c r)) := by
  show (if n % 2 = 0 then _ else _) = _; rw [if_pos he]

theorem PhiS_after_finish (c : Dev nD) (n : ℕ) (hn : n < cfg0.N) (he : ¬n % 2 = 0) :
    PhiS m c (n + 1) hn = iprop(iprop(owns (c : Thread nD τ) scXw fullShare (xwV m c) ∗ (∃ d, owns (c : Thread nD τ) scAcc fullShare d)) ∗ (∃ r, prngReg c r)) := by
  show (if n % 2 = 0 then _ else _) = _; rw [if_neg he]

/-- Before a second half: the point before was a first half. -/
theorem PhiS_before_finish (c : Dev nD) (n : ℕ) (h : n ≤ cfg0.N) (ho : n % 2 = 1) :
    PhiS m c n h = iprop(iprop(owns (c : Thread nD τ) scXw fullShare (xwV m c) ∗ owns (c : Thread nD τ) scAcc fullShare (accV m c ⟨n - 1, by omega⟩)) ∗ (∃ r, prngReg c r)) := by
  cases n with
  | zero => omega
  | succ k => exact PhiS_after_start m c k h (by omega)

/-- Before a first half other than the first point: the point before was a second half. -/
theorem PhiS_before_start (c : Dev nD) (n : ℕ) (h : n ≤ cfg0.N) (hz : n ≠ 0) (he : n % 2 = 0) :
    PhiS m c n h = iprop(iprop(owns (c : Thread nD τ) scXw fullShare (xwV m c) ∗ (∃ d, owns (c : Thread nD τ) scAcc fullShare d)) ∗ (∃ r, prngReg c r)) := by
  cases n with
  | zero => exact absurd rfl hz
  | succ k => exact PhiS_after_finish m c k h (by omega)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => adjBlk m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outV m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem Phi_succ (c : Dev nD) (t : Fin cfg0.N) :
    (dats m 0 c).Φ t.succ = PhiS m c (t.val + 1) t.isLt := rfl

theorem after_0 (c : Dev nD) (t : Fin cfg0.N) : (dats m 0 c).after 0 t = adjBlk m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outV m c t := by dsimp only [dats]

/-- What the body finds in each input's buffer: the first window's block just fetched, its tail at whatever the
    buffer held; every other input's block, fetched once and left in place. -/
theorem before_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

end Cert.KernelIdeal.Body

end
-- ==== Proof.Pieces.lean ====
/-
  What the stored pieces of each run are, as values: `xw = X · Wg` (the first payload of whole loads), an accumulator
  as the second payload of the row block's staged columns and the first 5120 rows of `xw`, and the result's row block
  as the third payload of the first 4880 staged columns, the last 4880 rows of `xw`, the accumulator and the head's
  weights and biases. Every store covers its buffer, so what the buffer reads afterwards is the payload.
-/
import proofs.«155627_g90632399880415_cont_sun_m_680_22_alg».proof.Proof.Gen.KernelIdeal.Frame
import proofs.«155627_g90632399880415_cont_sun_m_680_22_alg».proof.Proof.Gen.KernelIdeal.Skeleton
import proofs.«155627_g90632399880415_cont_sun_m_680_22_alg».proof.Proof.RunFinish
import proofs.«155627_g90632399880415_cont_sun_m_680_22_alg».proof.Proof.Data
import Idealize.ShloMosaic.Lib.Pipeline.Value
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem first_xw (c : Dev nD) (i : grid0.Coords) (arg2 : Memref sig .tc .vmem S1000x5120 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1000x128 .f32) (harg10 : arg10.IsWhole) (arg11 : Memref sig .tc .vmem S10000x128 .f32) (harg11 : arg11.IsWhole) (arg12 : Memref sig .tc .vmem S1000x128 .f32) (harg12 : arg12.IsWhole)
    (h1 : guardXw i) (h2 : guardStart i) (h3 : ¬guardFinish i) (x0 : Vec F S1000x5120 .f32) (x1 : Vec F S10000x128 .f32) (x2 : Vec F S128x128 .f32) (x3 : Vec F S1x128 .f32) (x4 : Vec F S128x128 .f32) (x5 : Vec F S1x128 .f32) (x6 : Vec F S128x128 .f32) (x7 : Vec F S1x128 .f32) :
    View.canon (runFirst (F := F) c i arg2 harg2 arg3 harg3 arg4 harg4 arg5 harg5 arg6 harg6 arg7 harg7 arg8 harg8 arg9 harg9 arg10 harg10 arg11 harg11 arg12 harg12 h1 h2 h3 x0 x1 x2 x3 x4 x5 x6 x7).1 = k0_pay1 x1 x2 := by
  unfold runFirst; dsimp only; sl_unfold_words
  rw [View.canon_unit_zero hz2]
  simp only [View.readAt_eq_ld, harg3.read_unread, harg4.read_unread,
    View.ld_unit_zero (S := S10000x128) hz2, View.ld_unit_zero (S := S128x128) hz2]

theorem first_xw_cover (c : Dev nD) (i : grid0.Coords) (arg2 : Memref sig .tc .vmem S1000x5120 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1000x128 .f32) (harg10 : arg10.IsWhole) (arg11 : Memref sig .tc .vmem S10000x128 .f32) (harg11 : arg11.IsWhole) (arg12 : Memref sig .tc .vmem S1000x128 .f32) (harg12 : arg12.IsWhole)
    (h1 : guardXw i) (h2 : guardStart i) (h3 : ¬guardFinish i) (x0 : Vec F S1000x5120 .f32) (x1 : Vec F S10000x128 .f32) (x2 : Vec F S128x128 .f32) (x3 : Vec F S1x128 .f32) (x4 : Vec F S128x128 .f32) (x5 : Vec F S1x128 .f32) (x6 : Vec F S128x128 .f32) (x7 : Vec F S1x128 .f32) (y : S10000x128.Idx) :
    ∃ pc ∈ (runFirst (F := F) c i arg2 harg2 arg3 harg3 arg4 harg4 arg5 harg5 arg6 harg6 arg7 harg7 arg8 harg8 arg9 harg9 arg10 harg10 arg11 harg11 arg12 harg12 h1 h2 h3 x0 x1 x2 x3 x4 x5 x6 x7).1, y ∈ pc.1.set :=
  View.cover_of_tiledL _ S10000x128.size (by sl_kernel_rfl) y

theorem first_acc (c : Dev nD) (i : grid0.Coords) (arg2 : Memref sig .tc .vmem S1000x5120 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1000x128 .f32) (harg10 : arg10.IsWhole) (arg11 : Memref sig .tc .vmem S10000x128 .f32) (harg11 : arg11.IsWhole) (arg12 : Memref sig .tc .vmem S1000x128 .f32) (harg12 : arg12.IsWhole)
    (h1 : guardXw i) (h2 : guardStart i) (h3 : ¬guardFinish i) (x0 : Vec F S1000x5120 .f32) (x1 : Vec F S10000x128 .f32) (x2 : Vec F S128x128 .f32) (x3 : Vec F S1x128 .f32) (x4 : Vec F S128x128 .f32) (x5 : Vec F S1x128 .f32) (x6 : Vec F S128x128 .f32) (x7 : Vec F S1x128 .f32) :
    View.canon (runFirst (F := F) c i arg2 harg2 arg3 harg3 arg4 harg4 arg5 harg5 arg6 harg6 arg7 harg7 arg8 harg8 arg9 harg9 arg10 harg10 arg11 harg11 arg12 harg12 h1 h2 h3 x0 x1 x2 x3 x4 x5 x6 x7).2.1
      = k0_pay2 x0 (View.ld (k0_pay1 x1 x2) rLo) := by
  unfold runFirst; dsimp only; sl_unfold_words
  rw [View.canon_unit_zero hz2,
    View.readCov_eq_canon_ld _ _ _ (fun y => ⟨_, List.mem_singleton_self _, View.mem_set_unit_zero hz2 inb_S10000x128_S10000x128_0_0 y⟩),
    View.canon_unit_zero hz2]
  simp only [View.readAt_eq_ld, harg2.read_unread, harg3.read_unread, harg4.read_unread,
    View.ld_unit_zero (S := S1000x5120) hz2, View.ld_unit_zero (S := S10000x128) hz2, View.ld_unit_zero (S := S128x128) hz2]

theorem first_acc_cover (c : Dev nD) (i : grid0.Coords) (arg2 : Memref sig .tc .vmem S1000x5120 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1000x128 .f32) (harg10 : arg10.IsWhole) (arg11 : Memref sig .tc .vmem S10000x128 .f32) (harg11 : arg11.IsWhole) (arg12 : Memref sig .tc .vmem S1000x128 .f32) (harg12 : arg12.IsWhole)
    (h1 : guardXw i) (h2 : guardStart i) (h3 : ¬guardFinish i) (x0 : Vec F S1000x5120 .f32) (x1 : Vec F S10000x128 .f32) (x2 : Vec F S128x128 .f32) (x3 : Vec F S1x128 .f32) (x4 : Vec F S128x128 .f32) (x5 : Vec F S1x128 .f32) (x6 : Vec F S128x128 .f32) (x7 : Vec F S1x128 .f32) (y : S1000x128.Idx) :
    ∃ pc ∈ (runFirst (F := F) c i arg2 harg2 arg3 harg3 arg4 harg4 arg5 harg5 arg6 harg6 arg7 harg7 arg8 harg8 arg9 harg9 arg10 harg10 arg11 harg11 arg12 harg12 h1 h2 h3 x0 x1 x2 x3 x4 x5 x6 x7).2.1, y ∈ pc.1.set :=
  View.cover_of_tiledL _ S1000x128.size (by sl_kernel_rfl) y

theorem start_acc (c : Dev nD) (i : grid0.Coords) (arg2 : Memref sig .tc .vmem S1000x5120 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1000x128 .f32) (harg10 : arg10.IsWhole) (arg11 : Memref sig .tc .vmem S10000x128 .f32) (harg11 : arg11.IsWhole) (arg12 : Memref sig .tc .vmem S1000x128 .f32) (harg12 : arg12.IsWhole)
    (h1 : ¬guardXw i) (h2 : guardStart i) (h3 : ¬guardFinish i) (x0 : Vec F S1000x5120 .f32) (x1 : Vec F S10000x128 .f32) (x2 : Vec F S128x128 .f32) (x3 : Vec F S1x128 .f32) (x4 : Vec F S128x128 .f32) (x5 : Vec F S1x128 .f32) (x6 : Vec F S128x128 .f32) (x7 : Vec F S1x128 .f32) (xs0 : Vec F S10000x128 .f32) :
    View.canon (runStart (F := F) c i arg2 harg2 arg3 harg3 arg4 harg4 arg5 harg5 arg6 harg6 arg7 harg7 arg8 harg8 arg9 harg9 arg10 harg10 arg11 harg11 arg12 harg12 h1 h2 h3 x0 x1 x2 x3 x4 x5 x6 x7 xs0).1
      = k0_pay2 x0 (View.ld xs0 rLo) := by
  unfold runStart; dsimp only; sl_unfold_words
  rw [View.canon_unit_zero hz2]
  simp only [View.readAt_eq_ld, harg2.read_unread, harg11.read_unread, View.ld_unit_zero (S := S1000x5120) hz2]

theorem start_acc_cover (c : Dev nD) (i : grid0.Coords) (arg2 : Memref sig .tc .vmem S1000x5120 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1000x128 .f32) (harg10 : arg10.IsWhole) (arg11 : Memref sig .tc .vmem S10000x128 .f32) (harg11 : arg11.IsWhole) (arg12 : Memref sig .tc .vmem S1000x128 .f32) (harg12 : arg12.IsWhole)
    (h1 : ¬guardXw i) (h2 : guardStart i) (h3 : ¬guardFinish i) (x0 : Vec F S1000x5120 .f32) (x1 : Vec F S10000x128 .f32) (x2 : Vec F S128x128 .f32) (x3 : Vec F S1x128 .f32) (x4 : Vec F S128x128 .f32) (x5 : Vec F S1x128 .f32) (x6 : Vec F S128x128 .f32) (x7 : Vec F S1x128 .f32) (xs0 : Vec F S10000x128 .f32) (y : S1000x128.Idx) :
    ∃ pc ∈ (runStart (F := F) c i arg2 harg2 arg3 harg3 arg4 harg4 arg5 harg5 arg6 harg6 arg7 harg7 arg8 harg8 arg9 harg9 arg10 harg10 arg11 harg11 arg12 harg12 h1 h2 h3 x0 x1 x2 x3 x4 x5 x6 x7 xs0).1, y ∈ pc.1.set :=
  View.cover_of_tiledL _ S1000x128.size (by sl_kernel_rfl) y

theorem finish_out (c : Dev nD) (i : grid0.Coords) (arg2 : Memref sig .tc .vmem S1000x5120 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1000x128 .f32) (harg10 : arg10.IsWhole) (arg11 : Memref sig .tc .vmem S10000x128 .f32) (harg11 : arg11.IsWhole) (arg12 : Memref sig .tc .vmem S1000x128 .f32) (harg12 : arg12.IsWhole)
    (h1 : ¬guardXw i) (h2 : ¬guardStart i) (h3 : guardFinish i) (x0 : Vec F S1000x5120 .f32) (x1 : Vec F S10000x128 .f32) (x2 : Vec F S128x128 .f32) (x3 : Vec F S1x128 .f32) (x4 : Vec F S128x128 .f32) (x5 : Vec F S1x128 .f32) (x6 : Vec F S128x128 .f32) (x7 : Vec F S1x128 .f32) (xs0 : Vec F S10000x128 .f32) (xs1 : Vec F S1000x128 .f32) :
    View.canon (runFinish (F := F) c i arg2 harg2 arg3 harg3 arg4 harg4 arg5 harg5 arg6 harg6 arg7 harg7 arg8 harg8 arg9 harg9 arg10 harg10 arg11 harg11 arg12 harg12 h1 h2 h3 x0 x1 x2 x3 x4 x5 x6 x7 xs0 xs1).1
      = k0_pay3 (View.ld x0 rCols) (View.ld xs0 rHi) xs1 x3 x4 x5 x6 x7 := by
  unfold runFinish; dsimp only; sl_unfold_words
  rw [View.canon_unit_zero hz2]
  simp only [View.readAt_eq_ld, harg2.read_unread, harg5.read_unread, harg6.read_unread, harg7.read_unread,
    harg8.read_unread, harg9.read_unread, harg11.read_unread, harg12.read_unread,
    View.ld_unit_zero (S := S1000x128) hz2, View.ld_unit_zero (S := S1x128) hz2, View.ld_unit_zero (S := S128x128) hz2]

theorem finish_out_cover (c : Dev nD) (i : grid0.Coords) (arg2 : Memref sig .tc .vmem S1000x5120 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1000x128 .f32) (harg10 : arg10.IsWhole) (arg11 : Memref sig .tc .vmem S10000x128 .f32) (harg11 : arg11.IsWhole) (arg12 : Memref sig .tc .vmem S1000x128 .f32) (harg12 : arg12.IsWhole)
    (h1 : ¬guardXw i) (h2 : ¬guardStart i) (h3 : guardFinish i) (x0 : Vec F S1000x5120 .f32) (x1 : Vec F S10000x128 .f32) (x2 : Vec F S128x128 .f32) (x3 : Vec F S1x128 .f32) (x4 : Vec F S128x128 .f32) (x5 : Vec F S1x128 .f32) (x6 : Vec F S128x128 .f32) (x7 : Vec F S1x128 .f32) (xs0 : Vec F S10000x128 .f32) (xs1 : Vec F S1000x128 .f32) (y : S1000x128.Idx) :
    ∃ pc ∈ (runFinish (F := F) c i arg2 harg2 arg3 harg3 arg4 harg4 arg5 harg5 arg6 harg6 arg7 harg7 arg8 harg8 arg9 harg9 arg10 harg10 arg11 harg11 arg12 harg12 h1 h2 h3 x0 x1 x2 x3 x4 x5 x6 x7 xs0 xs1).1, y ∈ pc.1.set :=
  View.cover_of_tiledL _ S1000x128.size (by sl_kernel_rfl) y

end Cert.KernelIdeal.Body

end
-- ==== Proof.Tail.lean ====
/-
  The first window's block at a first half lies wholly inside the array, so the whole staging buffer is what the
  fetch filled; at a second half its first 4880 columns do, and those are all the body reads. Hence nothing the body
  computes depends on what the tail of the buffer held.
-/
import proofs.«155627_g90632399880415_cont_sun_m_680_22_alg».proof.Proof.Gen.KernelIdeal.Frame
import proofs.«155627_g90632399880415_cont_sun_m_680_22_alg».proof.Proof.Gen.KernelIdeal.Skeleton
import proofs.«155627_g90632399880415_cont_sun_m_680_22_alg».proof.Proof.Data
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a first half the fetch moves the whole block. -/
theorem xsize_start : ∀ t : Fin cfg0.N, t.val % 2 = 0 → ∀ a, win0_0.xsize (grid0.coords t) a = S1000x5120.size a := by
  decide +kernel

/-- At a second half it moves all 1000 rows and the first 4880 columns. -/
theorem xsize_finish : ∀ t : Fin cfg0.N, t.val % 2 = 1 →
    win0_0.xsize (grid0.coords t) 0 = 1000 ∧ win0_0.xsize (grid0.coords t) 1 = 4880 := by
  decide +kernel

theorem fill_indep_start {α : Type} (t : Fin cfg0.N) (he : t.val % 2 = 0) (d d' : win0_0.block.Idx → α)
    (g : (win0_0.xblock (grid0.coords t)).Idx → α) :
    win0_0.fill (grid0.coords t) d g = win0_0.fill (grid0.coords t) d' g := by
  funext j
  have hm : win0_0.moved (grid0.coords t) j = true :=
    (win0_0.moved_iff _ j).mpr fun a => by rw [xsize_start t he a]; exact (j a).isLt
  unfold Pipeline.Window.fill; rw [dif_pos hm, dif_pos hm]

theorem ld_fill_indep_finish {α : Type} (t : Fin cfg0.N) (ho : t.val % 2 = 1) (d d' : win0_0.block.Idx → α)
    (g : (win0_0.xblock (grid0.coords t)).Idx → α) (x : rCols.shape.Idx) :
    win0_0.fill (grid0.coords t) d g (rCols.idx x) = win0_0.fill (grid0.coords t) d' g (rCols.idx x) := by
  have hm : win0_0.moved (grid0.coords t) (rCols.idx x) = true :=
    (win0_0.moved_iff _ _).mpr fun a => by
      match a with
      | ⟨0, _⟩ =>
        exact lt_of_lt_of_eq (show (0 + 1 * (x 0).val) < 1000 from by
          have h : (x 0).val < 1000 := (x 0).isLt
          omega) (xsize_finish t ho).1.symm
      | ⟨1, _⟩ =>
        exact lt_of_lt_of_eq (show (0 + 1 * (x 1).val) < 4880 from by
          have h : (x 1).val < 4880 := (x 1).isLt
          omega) (xsize_finish t ho).2.symm
  unfold Pipeline.Window.fill; rw [dif_pos hm, dif_pos hm]

end Cert.KernelIdeal.Body

end
-- ==== Proof.Oblig.lean ====
/-
  The body obligation, point by point. At each point the body is handed every window's current staging buffer: the
  first window's holds its block just fetched (its tail whatever it held), every other input's its block, the
  result's whatever the pipeline left there. By the half the point is in — and whether it is the very first — one of
  the three runs applies; the invariant hands the run the scratch buffers at what the point before left and takes
  them back at what this point leaves; the result's buffer is handed back untouched at a first half and holding the
  row block at a second.
-/
import proofs.«155627_g90632399880415_cont_sun_m_680_22_alg».proof.Proof.Gen.KernelIdeal.Frame
import proofs.«155627_g90632399880415_cont_sun_m_680_22_alg».proof.Proof.Gen.KernelIdeal.Skeleton
import proofs.«155627_g90632399880415_cont_sun_m_680_22_alg».proof.Proof.Pieces
import proofs.«155627_g90632399880415_cont_sun_m_680_22_alg».proof.Proof.Tail
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
theorem body_obligation (c : Dev nD) :
    BodyObligationLoose (dats (F := F) m 0 c) (defs₀ (F := F)) Variants.none () Set.univ := fun t => by
  rw [bigSep_W0, bigSep_W0]
  simp only
  rw [show (dats m 0 c).owesAt () t.succ = (dats m 0 c).owesAt () t.castSucc from rfl, Phi_succ, Phi_castSucc]
  simp only [before_0, before_1, before_2, before_3, before_4, before_5, before_6, before_7,
    after_0, after_1, after_2, after_3, after_4, after_5, after_6, after_7, after_8]
  have hN : t.val < 20 := lt_of_lt_of_eq t.isLt (show cfg0.N = 20 from N_0)
  by_cases he : t.val % 2 = 0
  · rw [show idle0 8 (grid0.coords t) = true from idle_out t he, show (win0 8).flush t = false from noflush_out t he]
    simp only
    by_cases hz : t.val = 0
    · -- the first point
      rw [PhiS_zero m c _ _ hz, PhiA_eq, PhiS_after_start m c t.val t.isLt he]
      iintro ⟨⟨⟨HX, HA⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      have e0 : (win0 0).fill (grid0.coords t) d0 ((win0 0).cut (grid0.coords t) (adjBlk m c t))
          = win0_0.fill (grid0.coords t) d0 (iblk m c 0 t) := by
        unfold adjBlk; exact congrArg _ (win0_0.cut_fill _ _ _)
      have hx : t = tFirst := Fin.ext hz
      iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scXw (Memref.isWhole_whole _) scAcc (Memref.isWhole_whole _) ((guardXw_iff t).mpr hz) ((guardStart_iff t).mpr he) (fun h => by have := (guardFinish_iff t).mp h; omega) (win0_0.fill (grid0.coords t) d0 (iblk m c 0 t)) (iblk m c 1 t) (iblk m c 2 t) (iblk m c 3 t) (iblk m c 4 t) (iblk m c 5 t) (iblk m c 6 t) (iblk m c 7 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HX]; · iexact HX
      isplitl [HA]; · iexact HA
      iintro ⟨H0, H1, H2, H3, H4, H5, H6, H7, H8, ⟨%fX, HX⟩, ⟨%fA, HA⟩⟩
      isplitl [HX HA Hg]
      · isplitl [HX HA]
        · isplitl [HX]
          · unfold owns; iexists _; isplitr
            swap; · iexact HX
            ipureintro
            refine (View.read_writes_eq_canon _ _ _ (first_xw_cover c _ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scXw (Memref.isWhole_whole _) scAcc (Memref.isWhole_whole _) _ _ _ _ _ _ _ _ _ _ _)).trans ((first_xw c _ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scXw (Memref.isWhole_whole _) scAcc (Memref.isWhole_whole _) _ _ _ _ _ _ _ _ _ _ _).trans ?_)
            unfold xwV; rw [hx]
          · unfold owns; iexists _; isplitr
            swap; · iexact HA
            ipureintro
            refine (View.read_writes_eq_canon _ _ _ (first_acc_cover c _ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scXw (Memref.isWhole_whole _) scAcc (Memref.isWhole_whole _) _ _ _ _ _ _ _ _ _ _ _)).trans ((first_acc c _ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scXw (Memref.isWhole_whole _) scAcc (Memref.isWhole_whole _) _ _ _ _ _ _ _ _ _ _ _).trans ?_)
            unfold accV xwV adjBlk
            rw [fill_indep_start t he d0 tailWord (iblk m c 0 t), hx]
        · iexact Hg
      isplitl [Ho]; · iexact Ho
      isplitl [H0]
      · iexists d0; rw [e0]; iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists d8; iexact H8
    · -- the first half of a later row block
      rw [PhiS_before_start m c _ _ hz he, PhiS_after_start m c t.val t.isLt he]
      iintro ⟨⟨⟨HX, HA⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      have e0 : (win0 0).fill (grid0.coords t) d0 ((win0 0).cut (grid0.coords t) (adjBlk m c t))
          = win0_0.fill (grid0.coords t) d0 (iblk m c 0 t) := by
        unfold adjBlk; exact congrArg _ (win0_0.cut_fill _ _ _)
      iapply ((runStart c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scXw (Memref.isWhole_whole _) scAcc (Memref.isWhole_whole _) (fun h => hz ((guardXw_iff t).mp h)) ((guardStart_iff t).mpr he) (fun h => by have := (guardFinish_iff t).mp h; omega) (win0_0.fill (grid0.coords t) d0 (iblk m c 0 t)) (iblk m c 1 t) (iblk m c 2 t) (iblk m c 3 t) (iblk m c 4 t) (iblk m c 5 t) (iblk m c 6 t) (iblk m c 7 t) (xwV m c)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HX]; · iexact HX
      isplitl [HA]; · iexact HA
      iintro ⟨H0, H1, H2, H3, H4, H5, H6, H7, H8, HX, ⟨%fA, HA⟩⟩
      isplitl [HX HA Hg]
      · isplitl [HX HA]
        · isplitl [HX]; · iexact HX
          unfold owns; iexists _; isplitr
          swap; · iexact HA
          ipureintro
          refine (View.read_writes_eq_canon _ _ _ (start_acc_cover c _ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scXw (Memref.isWhole_whole _) scAcc (Memref.isWhole_whole _) _ _ _ _ _ _ _ _ _ _ _ _)).trans ((start_acc c _ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scXw (Memref.isWhole_whole _) scAcc (Memref.isWhole_whole _) _ _ _ _ _ _ _ _ _ _ _ _).trans ?_)
          unfold accV adjBlk
          rw [fill_indep_start t he d0 tailWord (iblk m c 0 t)]
        · iexact Hg
      isplitl [Ho]; · iexact Ho
      isplitl [H0]
      · iexists d0; rw [e0]; iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists d8; iexact H8
  · -- the second half of a row block
    have ho : t.val % 2 = 1 := by omega
    rw [show idle0 8 (grid0.coords t) = false from live_out t ho]
    simp only
    rw [PhiS_before_finish m c _ _ ho, PhiS_after_finish m c t.val t.isLt he]
    iintro ⟨⟨⟨HX, HA⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have e0 : (win0 0).fill (grid0.coords t) d0 ((win0 0).cut (grid0.coords t) (adjBlk m c t))
        = win0_0.fill (grid0.coords t) d0 (iblk m c 0 t) := by
      unfold adjBlk; exact congrArg _ (win0_0.cut_fill _ _ _)
    iapply ((runFinish c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scXw (Memref.isWhole_whole _) scAcc (Memref.isWhole_whole _) (fun h => by have := (guardXw_iff t).mp h; omega) (fun h => by have := (guardStart_iff t).mp h; omega) ((guardFinish_iff t).mpr ho) (win0_0.fill (grid0.coords t) d0 (iblk m c 0 t)) (iblk m c 1 t) (iblk m c 2 t) (iblk m c 3 t) (iblk m c 4 t) (iblk m c 5 t) (iblk m c 6 t) (iblk m c 7 t) (xwV m c) (accV m c (prevPt t))).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HX]; · iexact HX
    isplitl [HA]; · iexact HA
    iintro ⟨H0, H1, H2, H3, H4, H5, H6, H7, ⟨%f8, H8⟩, HX, HA⟩
    isplitl [HX HA Hg]
    · isplitl [HX HA]
      · isplitl [HX]; · iexact HX
        iexists _; iexact HA
      · iexact Hg
    isplitl [Ho]; · iexact Ho
    isplitl [H0]
    · iexists d0; rw [e0]; iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro
    refine (View.read_writes_eq_canon _ _ _ (finish_out_cover c _ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scXw (Memref.isWhole_whole _) scAcc (Memref.isWhole_whole _) _ _ _ _ _ _ _ _ _ _ _ _ _)).trans ((finish_out c _ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scXw (Memref.isWhole_whole _) scAcc (Memref.isWhole_whole _) _ _ _ _ _ _ _ _ _ _ _ _ _).trans ?_)
    unfold outV adjBlk
    exact congrArg (fun v => k0_pay3 v (View.ld (xwV m c) rHi) (accV m c (prevPt t)) (iblk m c 3 t) (iblk m c 4 t) (iblk m c 5 t) (iblk m c 6 t) (iblk m c 7 t))
      (funext (ld_fill_indep_finish t ho d0 tailWord (iblk m c 0 t)))

end Cert.KernelIdeal.Body

end
-- ==== Proof.Run.lean ====
/-
  The run of the whole program from the body obligation: the region's own invariant before the first point is the
  point-by-point invariant there (both scratch buffers at anything), and after the last point — a second half — it is
  given back with `xw` forgotten. Every weakly fair execution then terminates without a fault, every windowed array
  ends at what the write-backs leave, and every other buffer as the region found it; read at the twelve arguments this
  is the frame.
-/
import proofs.«155627_g90632399880415_cont_sun_m_680_22_alg».proof.Proof.Gen.KernelIdeal.Frame
import proofs.«155627_g90632399880415_cont_sun_m_680_22_alg».proof.Proof.Gen.KernelIdeal.Skeleton
import proofs.«155627_g90632399880415_cont_sun_m_680_22_alg».proof.Proof.Oblig
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hin (c : Dev nD) : Pipeline.ΦA spec0 c ⊢ (dats (F := F) m 0 c).Φ 0 := by
  rw [show (dats m 0 c).Φ 0 = PhiS m c 0 (Nat.zero_le _) from rfl, PhiS_zero m c 0 _ rfl]
  try exact Idealize.SL.BI.Entails.refl _

theorem hout (c : Dev nD) : (dats (F := F) m 0 c).Φ (Fin.last cfg0.N) ⊢ Pipeline.ΦA spec0 c := by
  rw [show (dats m 0 c).Φ (Fin.last cfg0.N) = PhiS m c (19 + 1) (by decide) from rfl,
    PhiS_after_finish m c 19 (by decide) (by decide), PhiA_eq]
  iintro ⟨⟨HX, HA⟩, Hg⟩
  isplitl [HX HA]
  · isplitl [HX]
    · iexists _; iexact HX
    iexact HA
  iexact Hg

set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

/-- info: 'Cert.KernelIdeal.Body.run_main' depends on axioms: [propext, Classical.choice, Quot.sound] -/
#guard_msgs in #print axioms run_main

end Cert.KernelIdeal.Body

end
-- ==== Proof.ResultArray.lean ====
/-
  The result array, from its row blocks.

  The grid has 10 row blocks of 1000 rows, each visited twice (a first and a second half), the points numbered in
  row-major order: point t is half t mod 2 of row block t / 2. The result's window has blocks of 1000 rows by all 128
  columns; at point t its block is row block t / 2, and it is written back exactly at the second halves (t odd), where
  it holds the row block the second half stores. So row r, column k of the final array is row r mod 1000, column k of
  what point 2 · (r / 1000) + 1 stores: the blocks of the second halves tile the array, each row block written once.
-/
import proofs.«155627_g90632399880415_cont_sun_m_680_22_alg».proof.Proof.Data
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ)

/-! ## The result, from its row blocks to the whole array -/

/-- The result window's block index at a point, decided over the grid: (row block, 0), the row block being half the
    point's number. -/
theorem rowBlock_index : ∀ t : Fin cfg0.N, win0_8.index t (0 : Fin 2) = t.val / 2 ∧ win0_8.index t (1 : Fin 2) = 0 :=
  (by decide +kernel : ∀ t : Fin grid0.N, win0_8.index t (0 : Fin 2) = t.val / 2 ∧ win0_8.index t (1 : Fin 2) = 0)

theorem nPoints : cfg0.N = 20 := by decide

/-- The whole result: row r, column k is row r mod 1000, column k of the block that the second half of row block
    r / 1000 stores. -/
def resArr (c : Dev nD) : S10000x128.Idx → Elt F .f32 := fun i =>
  outV m c ⟨2 * ((i 0).val / 1000) + 1, by
      have h : (i 0).val < 10000 := (i 0).isLt
      rw [nPoints]; omega⟩
    (ix2 (⟨(i 0).val % 1000, Nat.mod_lt _ (by decide)⟩ : Fin 1000) (i 1))

/-- What a second half writes back is its row block of the whole result. -/
theorem flushed_rowBlock (c : Dev nD) (t : Fin cfg0.N) (ht : t.val % 2 = 1) :
    (dats m 0 c).flushed 8 t = ((cfg0.win 8).blk t).view.read (Elt F) (resArr m c) := by
  show (cfg0.win 8).cut (grid0.coords t) ((dats m 0 c).after 8 t) = _
  rw [after_8]
  funext y
  show outV m c t y = resArr m c (((cfg0.win 8).blk t).view.emb y)
  obtain ⟨e0, e1⟩ := rowBlock_index t
  have hy0 : (y 0).val < 1000 := (y 0).isLt
  have hy1 : (y 1).val < 128 := (y 1).isLt
  have ht20 : t.val < 20 := nPoints ▸ t.isLt
  have r0 : ((((cfg0.win 8).blk t).view.emb y) 0).val = win0_8.index t (0 : Fin 2) * 1000 + 1 * (y 0).val := rfl
  have r1 : ((((cfg0.win 8).blk t).view.emb y) 1).val = win0_8.index t (1 : Fin 2) * 128 + 1 * (y 1).val := rfl
  unfold resArr
  congr 1
  · apply Fin.ext
    show t.val = 2 * (((((cfg0.win 8).blk t).view.emb y) 0).val / 1000) + 1
    rw [r0, e0]; omega
  · funext a
    apply Fin.ext
    match a with
    | ⟨0, _⟩ =>
      show (y 0).val = ((((cfg0.win 8).blk t).view.emb y) 0).val % 1000
      rw [r0, e0]; omega
    | ⟨1, _⟩ =>
      show (y 1).val = ((((cfg0.win 8).blk t).view.emb y) 1).val
      rw [r1, e1]; omega

/-- An index of the result is in a point's row block iff each coordinate is in the block's range on its axis. -/
theorem mem_rowBlock (t : Fin cfg0.N) (i : S10000x128.Idx) :
    i ∈ ((cfg0.win 8).blk t).view.set ↔ ∀ a : Fin 2, win0_8.index t a * S1000x128.size a ≤ (i a).val ∧ (i a).val < win0_8.index t a * S1000x128.size a + S1000x128.size a := by
  show i ∈ ((View.whole main_v0).slice (win0_8.rect t)).set ↔ _
  rw [View.set_slice_whole, Rect.mem_set_unit]
  exact Iff.rfl

/-- Every index of the result is in the row block of a second half: row r is covered by the second half of row
    block r / 1000. -/
theorem rowBlock_cover (i : S10000x128.Idx) :
    ∃ t : Fin cfg0.N, (cfg0.win 8).flush t = true ∧ i ∈ ((cfg0.win 8).blk t).view.set := by
  have hi0 : (i 0).val < 10000 := (i 0).isLt
  have hi1 : (i 1).val < 128 := (i 1).isLt
  have hlt : 2 * ((i 0).val / 1000) + 1 < cfg0.N := by rw [nPoints]; omega
  refine ⟨⟨2 * ((i 0).val / 1000) + 1, hlt⟩, (flush0_8 _).2 (by show (2 * ((i 0).val / 1000) + 1) % 2 = 1; omega), ?_⟩
  rw [mem_rowBlock]
  obtain ⟨e0, e1⟩ := rowBlock_index ⟨2 * ((i 0).val / 1000) + 1, hlt⟩
  have e0' : win0_8.index ⟨2 * ((i 0).val / 1000) + 1, hlt⟩ (0 : Fin 2) = (2 * ((i 0).val / 1000) + 1) / 2 := e0
  intro a
  match a with
  | ⟨0, _⟩ =>
    show win0_8.index ⟨2 * ((i 0).val / 1000) + 1, hlt⟩ (0 : Fin 2) * 1000 ≤ (i 0).val
      ∧ (i 0).val < win0_8.index ⟨2 * ((i 0).val / 1000) + 1, hlt⟩ (0 : Fin 2) * 1000 + 1000
    rw [e0']; omega
  | ⟨1, _⟩ =>
    show win0_8.index ⟨2 * ((i 0).val / 1000) + 1, hlt⟩ (1 : Fin 2) * 128 ≤ (i 1).val
      ∧ (i 1).val < win0_8.index ⟨2 * ((i 0).val / 1000) + 1, hlt⟩ (1 : Fin 2) * 128 + 128
    rw [e1]; omega

/-- The result array after the run is the whole result assembled from the row blocks. -/
theorem final_res (c : Dev nD) : (dats m 0 c).arrAt 8 cfg0.N = resArr m c :=
  (dats m 0 c).arrAt_eq_of_cover 8 (resArr m c)
    (fun t hf => flushed_rowBlock m c t ((flush0_8 t).1 hf)) rowBlock_cover

end Cert.KernelIdeal.Body

end
-- ==== Proof.BlockReads.lean ====
/-
  The inputs' staged blocks, read at an index.

  A block of an array at block index q on an axis with blocks of size n starts at element q · n, so the block's
  coordinate y on that axis is the array's coordinate q · n + y. Seven of the inputs are staged whole (one block,
  index 0): read at an index, the block is the array at that index. The adjacency matrix is staged in blocks of
  1000 rows by 5120 columns, one per half of a row block; read where the fetch moved it, the block at point t is
  the array at row 1000 · (t / 2) + r and column 5120 · (t mod 2) + j.
-/
import proofs.«155627_g90632399880415_cont_sun_m_680_22_alg».proof.Proof.Data
import proofs.«155627_g90632399880415_cont_sun_m_680_22_alg».proof.Proof.Tail
import proofs.«155627_g90632399880415_cont_sun_m_680_22_alg».proof.Proof.ResultArray
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ)

/-! ## The inputs staged whole

Seven inputs are staged as one block, the whole array, at block index 0: the block read at an index is the array
read at that index. -/

/-- The block indices of the seven inputs staged whole are 0 at every point, decided over the grid. -/
theorem wholeBlock_index : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0))

/-- The node features X (window 1, [10000, 128]). -/
theorem iblk1_apply (c : Dev nD) (t : Fin cfg0.N) (j : Fin 10000) (f : Fin 128) :
    iblk m c 1 t (ix2 j f) = V m c main_arg1 (ix2 j f) := by
  obtain ⟨e0, e1⟩ := (wholeBlock_index t).1
  show V m c main_arg1 (((cfg0.win 1).blk t).view.emb (ix2 j f)) = V m c main_arg1 (ix2 j f)
  congr 1
  funext a; apply Fin.ext
  match a with
  | ⟨0, _⟩ => show win0_1.index t (0 : Fin 2) * 10000 + 1 * j.val = j.val; rw [e0]; omega
  | ⟨1, _⟩ => show win0_1.index t (1 : Fin 2) * 128 + 1 * f.val = f.val; rw [e1]; omega

/-- The graph convolution's weight Wg (window 2, [128, 128]). -/
theorem iblk2_apply (c : Dev nD) (t : Fin cfg0.N) (f : Fin 128) (k : Fin 128) :
    iblk m c 2 t (ix2 f k) = V m c main_arg2 (ix2 f k) := by
  obtain ⟨e0, e1⟩ := (wholeBlock_index t).2.1
  show V m c main_arg2 (((cfg0.win 2).blk t).view.emb (ix2 f k)) = V m c main_arg2 (ix2 f k)
  congr 1
  funext a; apply Fin.ext
  match a with
  | ⟨0, _⟩ => show win0_2.index t (0 : Fin 2) * 128 + 1 * f.val = f.val; rw [e0]; omega
  | ⟨1, _⟩ => show win0_2.index t (1 : Fin 2) * 128 + 1 * k.val = k.val; rw [e1]; omega

/-- The graph convolution's bias as a row (window 3, [1, 128]). -/
theorem iblk3_apply (c : Dev nD) (t : Fin cfg0.N) (z : Fin 1) (k : Fin 128) :
    iblk m c 3 t (ix2 z k) = V m c main_call0_v10 (ix2 z k) := by
  obtain ⟨e0, e1⟩ := (wholeBlock_index t).2.2.1
  show V m c main_call0_v10 (((cfg0.win 3).blk t).view.emb (ix2 z k)) = V m c main_call0_v10 (ix2 z k)
  congr 1
  funext a; apply Fin.ext
  match a with
  | ⟨0, _⟩ => show win0_3.index t (0 : Fin 2) * 1 + 1 * z.val = z.val; rw [e0]; omega
  | ⟨1, _⟩ => show win0_3.index t (1 : Fin 2) * 128 + 1 * k.val = k.val; rw [e1]; omega

/-- The folded first weight of the head (window 4, [128, 128]). -/
theorem iblk4_apply (c : Dev nD) (t : Fin cfg0.N) (k : Fin 128) (l : Fin 128) :
    iblk m c 4 t (ix2 k l) = V m c main_call0_v6 (ix2 k l) := by
  obtain ⟨e0, e1⟩ := (wholeBlock_index t).2.2.2.1
  show V m c main_call0_v6 (((cfg0.win 4).blk t).view.emb (ix2 k l)) = V m c main_call0_v6 (ix2 k l)
  congr 1
  funext a; apply Fin.ext
  match a with
  | ⟨0, _⟩ => show win0_4.index t (0 : Fin 2) * 128 + 1 * k.val = k.val; rw [e0]; omega
  | ⟨1, _⟩ => show win0_4.index t (1 : Fin 2) * 128 + 1 * l.val = l.val; rw [e1]; omega

/-- The folded first bias of the head as a row (window 5, [1, 128]). -/
theorem iblk5_apply (c : Dev nD) (t : Fin cfg0.N) (z : Fin 1) (l : Fin 128) :
    iblk m c 5 t (ix2 z l) = V m c main_call0_v11 (ix2 z l) := by
  obtain ⟨e0, e1⟩ := (wholeBlock_index t).2.2.2.2.1
  show V m c main_call0_v11 (((cfg0.win 5).blk t).view.emb (ix2 z l)) = V m c main_call0_v11 (ix2 z l)
  congr 1
  funext a; apply Fin.ext
  match a with
  | ⟨0, _⟩ => show win0_5.index t (0 : Fin 2) * 1 + 1 * z.val = z.val; rw [e0]; omega
  | ⟨1, _⟩ => show win0_5.index t (1 : Fin 2) * 128 + 1 * l.val = l.val; rw [e1]; omega

/-- The head's second weight W2 (window 6, [128, 128]). -/
theorem iblk6_apply (c : Dev nD) (t : Fin cfg0.N) (l : Fin 128) (k : Fin 128) :
    iblk m c 6 t (ix2 l k) = V m c main_arg10 (ix2 l k) := by
  obtain ⟨e0, e1⟩ := (wholeBlock_index t).2.2.2.2.2.1
  show V m c main_arg10 (((cfg0.win 6).blk t).view.emb (ix2 l k)) = V m c main_arg10 (ix2 l k)
  congr 1
  funext a; apply Fin.ext
  match a with
  | ⟨0, _⟩ => show win0_6.index t (0 : Fin 2) * 128 + 1 * l.val = l.val; rw [e0]; omega
  | ⟨1, _⟩ => show win0_6.index t (1 : Fin 2) * 128 + 1 * k.val = k.val; rw [e1]; omega

/-- The head's second bias as a row (window 7, [1, 128]). -/
theorem iblk7_apply (c : Dev nD) (t : Fin cfg0.N) (z : Fin 1) (k : Fin 128) :
    iblk m c 7 t (ix2 z k) = V m c main_call0_v12 (ix2 z k) := by
  obtain ⟨e0, e1⟩ := (wholeBlock_index t).2.2.2.2.2.2
  show V m c main_call0_v12 (((cfg0.win 7).blk t).view.emb (ix2 z k)) = V m c main_call0_v12 (ix2 z k)
  congr 1
  funext a; apply Fin.ext
  match a with
  | ⟨0, _⟩ => show win0_7.index t (0 : Fin 2) * 1 + 1 * z.val = z.val; rw [e0]; omega
  | ⟨1, _⟩ => show win0_7.index t (1 : Fin 2) * 128 + 1 * k.val = k.val; rw [e1]; omega

/-! ## The adjacency matrix, staged by halves of a row block

The first input is staged in blocks of 1000 rows by 5120 columns: at point t the block is row block t / 2, column
block t mod 2. A first half's block lies inside the array; a second half's overhangs it by 240 columns, and only its
first 4880 columns are fetched. Read at a row and a column that the fetch moved, the staged block is the array at
row 1000 · (t / 2) + r and column 5120 · (t mod 2) + j. -/

/-- The first input's block index at a point, decided over the grid: (row block, half). -/
theorem adjBlock_index : ∀ t : Fin cfg0.N, win0_0.index t (0 : Fin 2) = t.val / 2 ∧ win0_0.index t (1 : Fin 2) = t.val % 2 :=
  (by decide +kernel : ∀ t : Fin grid0.N, win0_0.index t (0 : Fin 2) = t.val / 2 ∧ win0_0.index t (1 : Fin 2) = t.val % 2)

/-- At a first half, the staged block at row r, column j is adj at row 1000 · (t / 2) + r, column j. -/
theorem adjBlk_start (c : Dev nD) (t : Fin cfg0.N) (he : t.val % 2 = 0) (r : Fin 1000) (j : Fin 5120) :
    adjBlk m c t (ix2 r j)
      = V m c main_arg0 (ix2 (⟨1000 * (t.val / 2) + r.val, by
            have h : t.val < 20 := lt_of_lt_of_eq t.isLt nPoints; have := r.isLt; omega⟩ : Fin 10000)
          (⟨j.val, by have := j.isLt; omega⟩ : Fin 10000)) := by
  have hm : win0_0.moved (grid0.coords t) (ix2 r j) = true :=
    (win0_0.moved_iff _ _).mpr fun a => by rw [xsize_start t he a]; exact (ix2 r j a).isLt
  obtain ⟨e0, e1⟩ := adjBlock_index t
  unfold adjBlk Pipeline.Window.fill
  rw [dif_pos hm]
  show V m c main_arg0 (((cfg0.win 0).blk t).view.emb _) = V m c main_arg0 _
  congr 1
  funext a; apply Fin.ext
  match a with
  | ⟨0, _⟩ => show win0_0.index t (0 : Fin 2) * 1000 + 1 * r.val = 1000 * (t.val / 2) + r.val; rw [e0]; omega
  | ⟨1, _⟩ => show win0_0.index t (1 : Fin 2) * 5120 + 1 * j.val = j.val; rw [e1, he]; omega

/-- At a second half, the first 4880 columns of the staged block at row r, column j are adj at row
    1000 · (t / 2) + r, column 5120 + j. -/
theorem adjBlk_finish (c : Dev nD) (t : Fin cfg0.N) (ho : t.val % 2 = 1) (r : Fin 1000) (j : Fin 4880) :
    View.ld (adjBlk m c t) rCols (ix2 r j)
      = V m c main_arg0 (ix2 (⟨1000 * (t.val / 2) + r.val, by
            have h : t.val < 20 := lt_of_lt_of_eq t.isLt nPoints; have := r.isLt; omega⟩ : Fin 10000)
          (⟨5120 + j.val, by have := j.isLt; omega⟩ : Fin 10000)) := by
  have hm : win0_0.moved (grid0.coords t) (rCols.idx (ix2 r j)) = true :=
    (win0_0.moved_iff _ _).mpr fun a => by
      match a with
      | ⟨0, _⟩ =>
        exact lt_of_lt_of_eq (show (0 + 1 * r.val) < 1000 from by have h := r.isLt; omega) (xsize_finish t ho).1.symm
      | ⟨1, _⟩ =>
        exact lt_of_lt_of_eq (show (0 + 1 * j.val) < 4880 from by have h := j.isLt; omega) (xsize_finish t ho).2.symm
  obtain ⟨e0, e1⟩ := adjBlock_index t
  show adjBlk m c t (rCols.idx (ix2 r j)) = _
  unfold adjBlk Pipeline.Window.fill
  rw [dif_pos hm]
  show V m c main_arg0 (((cfg0.win 0).blk t).view.emb _) = V m c main_arg0 _
  congr 1
  funext a; apply Fin.ext
  match a with
  | ⟨0, _⟩ => show win0_0.index t (0 : Fin 2) * 1000 + 1 * (0 + 1 * r.val) = 1000 * (t.val / 2) + r.val; rw [e0]; omega
  | ⟨1, _⟩ => show win0_0.index t (1 : Fin 2) * 5120 + 1 * (0 + 1 * j.val) = 5120 + j.val; rw [e1, ho]; omega

end Cert.KernelIdeal.Body

end
-- ==== Proof.Spec.lean ====
/-
  The mathematics of this certificate, with no program in sight: a one-layer graph convolution followed by a
  two-layer head whose first layer is batch-normalised, on 10000 nodes with 128 features,
  on the extended reals.

  With `xw = X · Wg`, the hidden layer is `h0 = relu (adj · xw + bg)`; the head is
  `relu (bn (h0 · W1 + b1)) · W2 + b2`, where the batch normalisation in inference mode is
  `bn z = γ · (z − μ) / sqrt (v + ε) + β`, column by column.

  Two arrangements of this one function are stated here.
  * `outR`, the textbook one: the contraction with `adj` is one sum over all 10000 nodes and the
    normalisation is applied to the first layer's output as written above.
  * `outK`, the folded one: the contraction with `adj` is cut at node 5120 into a sum over the first 5120 nodes
    plus a sum over the last 4880, and the normalisation is folded into the first layer's weights and bias:
    with `s = γ · rsqrt (v + ε)`, the layer is `h0 · (W1 · s) + ((b1 − μ) · s + β)`.
  They agree where every input is a real number and `v + ε` is positive (`Algebra.lean`): the cut is
  associativity of a finite sum, and the fold is distributivity of a real factor over a finite sum of reals
  together with `rsqrt y = 1 / sqrt y` for `y > 0`.
-/
import Idealize.ShloMosaic.PureOps.Ideal
import Idealize.ShloMosaic.Lib.ValueIdx

noncomputable section

open scoped BigOperators

namespace Cert.GcnHead

open Idealize.ShloMosaic Idealize.ShloMosaic.ValueIdx

/-- The twelve inputs, each as a function of its coordinates. -/
structure Inputs where
  /-- the adjacency matrix, `[10000, 10000]` -/
  adj : Fin 10000 → Fin 10000 → EReal
  /-- the node features, `[10000, 128]` -/
  X : Fin 10000 → Fin 128 → EReal
  /-- the graph convolution's weight, `[128, 128]` -/
  Wg : Fin 128 → Fin 128 → EReal
  /-- the graph convolution's bias -/
  bg : Fin 128 → EReal
  /-- the head's first weight -/
  W1 : Fin 128 → Fin 128 → EReal
  /-- the head's first bias -/
  b1 : Fin 128 → EReal
  /-- the normalisation's scale γ -/
  gam : Fin 128 → EReal
  /-- the normalisation's shift β -/
  bet : Fin 128 → EReal
  /-- the normalisation's running mean μ -/
  mu : Fin 128 → EReal
  /-- the normalisation's running variance v -/
  var : Fin 128 → EReal
  /-- the head's second weight -/
  W2 : Fin 128 → Fin 128 → EReal
  /-- the head's second bias -/
  b2 : Fin 128 → EReal

/-- Every entry of every input is a real number. -/
structure Inputs.Real (a : Inputs) : Prop where
  adj : ∀ p j, ∃ r : ℝ, a.adj p j = r
  X : ∀ j f, ∃ r : ℝ, a.X j f = r
  Wg : ∀ f k, ∃ r : ℝ, a.Wg f k = r
  bg : ∀ k, ∃ r : ℝ, a.bg k = r
  W1 : ∀ k l, ∃ r : ℝ, a.W1 k l = r
  b1 : ∀ k, ∃ r : ℝ, a.b1 k = r
  gam : ∀ k, ∃ r : ℝ, a.gam k = r
  bet : ∀ k, ∃ r : ℝ, a.bet k = r
  mu : ∀ k, ∃ r : ℝ, a.mu k = r
  var : ∀ k, ∃ r : ℝ, a.var k = r
  W2 : ∀ k c, ∃ r : ℝ, a.W2 k c = r
  b2 : ∀ c, ∃ r : ℝ, a.b2 c = r

/-- The inputs from the twelve argument arrays, in the programs' argument order
    (adj, X, Wg, bg, W1, b1, γ, β, μ, v, W2, b2). -/
def Inputs.ofArrays
    (a0 : (⟨2, ![10000, 10000]⟩ : Shape).Idx → EReal) (a1 : (⟨2, ![10000, 128]⟩ : Shape).Idx → EReal)
    (a2 : (⟨2, ![128, 128]⟩ : Shape).Idx → EReal) (a3 : (⟨1, ![128]⟩ : Shape).Idx → EReal)
    (a4 : (⟨2, ![128, 128]⟩ : Shape).Idx → EReal) (a5 : (⟨1, ![128]⟩ : Shape).Idx → EReal)
    (a6 : (⟨1, ![128]⟩ : Shape).Idx → EReal) (a7 : (⟨1, ![128]⟩ : Shape).Idx → EReal)
    (a8 : (⟨1, ![128]⟩ : Shape).Idx → EReal) (a9 : (⟨1, ![128]⟩ : Shape).Idx → EReal)
    (a10 : (⟨2, ![128, 128]⟩ : Shape).Idx → EReal) (a11 : (⟨1, ![128]⟩ : Shape).Idx → EReal) : Inputs where
  adj p j := a0 (ix2 p j)
  X j f := a1 (ix2 j f)
  Wg f k := a2 (ix2 f k)
  bg k := a3 (ix1 k)
  W1 k l := a4 (ix2 k l)
  b1 k := a5 (ix1 k)
  gam k := a6 (ix1 k)
  bet k := a7 (ix1 k)
  mu k := a8 (ix1 k)
  var k := a9 (ix1 k)
  W2 k c := a10 (ix2 k c)
  b2 c := a11 (ix1 c)

/-- Node `j` among the first 5120. -/
def lo (j : Fin 5120) : Fin 10000 := ⟨j.val, by omega⟩
/-- Node `5120 + j` among the last 4880. -/
def hi (j : Fin 4880) : Fin 10000 := ⟨5120 + j.val, by omega⟩

variable (a : Inputs) (e : EReal)

/-- `(X · Wg)[j, k]`. -/
def xw (j : Fin 10000) (k : Fin 128) : EReal := ∑ f : Fin 128, a.X j f * a.Wg f k

/-! ## The textbook arrangement -/

/-- `relu (adj · xw + bg)`, the contraction one sum over all nodes. -/
def h0R (p : Fin 10000) (k : Fin 128) : EReal := max ((∑ j : Fin 10000, a.adj p j * xw a j k) + a.bg k) 0

/-- `relu (γ · ((h0 · W1 + b1) − μ) / sqrt (v + ε) + β)`. -/
def h1R (p : Fin 10000) (l : Fin 128) : EReal :=
  max (Ideal.div (a.gam l * (((∑ k : Fin 128, h0R a p k * a.W1 k l) + a.b1 l) - a.mu l)) (Ideal.sqrt (a.var l + e)) + a.bet l) 0

/-- `h1 · W2 + b2`. -/
def outR (p : Fin 10000) (c : Fin 128) : EReal := (∑ l : Fin 128, h1R a e p l * a.W2 l c) + a.b2 c

/-! ## The folded arrangement -/

/-- The normalisation's factor `s = γ · rsqrt (v + ε)`. -/
def scale (l : Fin 128) : EReal := a.gam l * Ideal.rsqrt (a.var l + e)

/-- The folded weight `W1 · s`. -/
def w1K (k l : Fin 128) : EReal := a.W1 k l * scale a e l

/-- The folded bias `(b1 − μ) · s + β`. -/
def b1K (l : Fin 128) : EReal := (a.b1 l - a.mu l) * scale a e l + a.bet l

/-- `relu (adj · xw + bg)`, the contraction cut at node 5120. -/
def h0K (p : Fin 10000) (k : Fin 128) : EReal :=
  max (((∑ j : Fin 5120, a.adj p (lo j) * xw a (lo j) k) + (∑ j : Fin 4880, a.adj p (hi j) * xw a (hi j) k)) + a.bg k) 0

/-- `relu (h0 · (W1 · s) + ((b1 − μ) · s + β))`. -/
def h1K (p : Fin 10000) (l : Fin 128) : EReal := max ((∑ k : Fin 128, h0K a p k * w1K a e k l) + b1K a e l) 0

/-- `h1 · W2 + b2`. -/
def outK (p : Fin 10000) (c : Fin 128) : EReal := (∑ l : Fin 128, h1K a e p l * a.W2 l c) + a.b2 c

end Cert.GcnHead

end
-- ==== Proof.PayloadValue.lean ====
/-
  The three values the kernel's body stores, read at one coordinate pair, on the extended reals.

  Each stored value is a composition of matrix products into a zero accumulator, casts of a shape to itself,
  a row of shape [1, 128] repeated over 1000 rows, entrywise sums and entrywise maxima against zero.  Read at
  (r, c), a matrix product into zero is the sum over the contracted coordinate of the products of the entries, a
  cast of a shape to itself changes nothing, a repeated row reads its entry in column c, and the entrywise
  operations act on the entries.
-/
import proofs.«155627_g90632399880415_cont_sun_m_680_22_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.GcnHead.Pay

open Idealize.ShloMosaic Idealize.ShloMosaic.ValueIdx Cert.KernelIdeal

/-! ## A matrix product into a zero accumulator, read at a coordinate pair -/

/-- For a product of an [a, n] matrix with an [n, b] matrix that contracts the first one's columns with the
    second one's rows, the entry at (r, c) of the product into a zero accumulator is the sum over k of the
    products of the entries at (r, k) and (k, c).  The four hypotheses say which coordinate of the result or of
    the contraction each operand's coordinate reads. -/
theorem matmul_zero_ix2 {a n b : ℕ} (D : DotDims ⟨2, ![a, n]⟩ ⟨2, ![n, b]⟩ ⟨2, ![a, b]⟩)
    (hr : D.contr.rank = 1) (hs : D.contr.size ⟨0, by omega⟩ = n)
    (hl0 : ∀ (i : (⟨2, ![a, b]⟩ : Shape).Idx) (q : D.contr.Idx), (D.lhsIdx i q 0).val = (i 0).val)
    (hl1 : ∀ (i : (⟨2, ![a, b]⟩ : Shape).Idx) (q : D.contr.Idx), (D.lhsIdx i q 1).val = (q ⟨0, by omega⟩).val)
    (hr0 : ∀ (i : (⟨2, ![a, b]⟩ : Shape).Idx) (q : D.contr.Idx), (D.rhsIdx i q 0).val = (q ⟨0, by omega⟩).val)
    (hr1 : ∀ (i : (⟨2, ![a, b]⟩ : Shape).Idx) (q : D.contr.Idx), (D.rhsIdx i q 1).val = (i 1).val)
    (prec : Option ContractPrecision) (x : FVec Ideal ⟨2, ![a, n]⟩ .f32) (y : FVec Ideal ⟨2, ![n, b]⟩ .f32)
    (r : Fin a) (c : Fin b) :
    matmul D prec x y (constant ⟨2, ![a, b]⟩ .f32 0x00000000#32) (ix2 r c) = ∑ k : Fin n, x (ix2 r k) * y (ix2 k c) := by
  refine (Ideal.matmul_constant_zero_apply D prec x y (ix2 r c)).trans ?_
  rw [← Equiv.sum_comp (contrEquiv1 D n hr hs).symm]
  refine Finset.sum_congr rfl fun k _ => ?_
  have hk := contrEquiv1_symm_val D n hr hs k
  have el : D.lhsIdx (ix2 r c) ((contrEquiv1 D n hr hs).symm k) = ix2 r k := funext fun ax => Fin.ext (by
    match ax with
    | ⟨0, _⟩ => exact hl0 _ _
    | ⟨1, _⟩ => exact (hl1 _ _).trans hk)
  have er : D.rhsIdx (ix2 r c) ((contrEquiv1 D n hr hs).symm k) = ix2 k c := funext fun ax => Fin.ext (by
    match ax with
    | ⟨0, _⟩ => exact (hr0 _ _).trans hk
    | ⟨1, _⟩ => exact hr1 _ _)
  rw [el, er]

/-- The product of the node features with the graph convolution's weight. -/
theorem matmul_10000x128_128x128 (x : FVec Ideal S10000x128 .f32) (y : FVec Ideal S128x128 .f32) (j : Fin 10000) (k : Fin 128) :
    matmul dot_S10000x128_S128x128_S10000x128_1_0_0_1_n_n none x y (constant S10000x128 .f32 0x00000000#32) (ix2 j k)
      = ∑ f : Fin 128, x (ix2 j f) * y (ix2 f k) :=
  matmul_zero_ix2 dot_S10000x128_S128x128_S10000x128_1_0_0_1_n_n rfl rfl
    (fun i q => by
      unfold DotDims.lhsIdx
      rw [dif_neg (show ¬(0 : Fin S10000x128.rank) ∈ dot_S10000x128_S128x128_S10000x128_1_0_0_1_n_n.lhsBatch by decide),
        dif_pos (show (0 : Fin S10000x128.rank) ∈ dot_S10000x128_S128x128_S10000x128_1_0_0_1_n_n.lhsNonContracting by decide)]
      rfl)
    (fun i q => dot_S10000x128_S128x128_S10000x128_1_0_0_1_n_n.lhsIdx_val_of_single rfl i q)
    (fun i q => dot_S10000x128_S128x128_S10000x128_1_0_0_1_n_n.rhsIdx_val_of_single rfl i q)
    (fun i q => by
      unfold DotDims.rhsIdx
      rw [dif_neg (show ¬(1 : Fin S128x128.rank) ∈ dot_S10000x128_S128x128_S10000x128_1_0_0_1_n_n.rhsBatch by decide),
        dif_pos (show (1 : Fin S128x128.rank) ∈ dot_S10000x128_S128x128_S10000x128_1_0_0_1_n_n.rhsNonContracting by decide)]
      rfl)
    none x y j k

/-- The product of 1000 rows of the adjacency matrix, cut to their first 5120 columns, with the first 5120 rows of a [·, 128] matrix. -/
theorem matmul_1000x5120_5120x128 (x : FVec Ideal S1000x5120 .f32) (y : FVec Ideal S5120x128 .f32) (r : Fin 1000) (k : Fin 128) :
    matmul dot_S1000x5120_S5120x128_S1000x128_1_0_0_1_n_n none x y (constant S1000x128 .f32 0x00000000#32) (ix2 r k)
      = ∑ j : Fin 5120, x (ix2 r j) * y (ix2 j k) :=
  matmul_zero_ix2 dot_S1000x5120_S5120x128_S1000x128_1_0_0_1_n_n rfl rfl
    (fun i q => by
      unfold DotDims.lhsIdx
      rw [dif_neg (show ¬(0 : Fin S1000x5120.rank) ∈ dot_S1000x5120_S5120x128_S1000x128_1_0_0_1_n_n.lhsBatch by decide),
        dif_pos (show (0 : Fin S1000x5120.rank) ∈ dot_S1000x5120_S5120x128_S1000x128_1_0_0_1_n_n.lhsNonContracting by decide)]
      rfl)
    (fun i q => dot_S1000x5120_S5120x128_S1000x128_1_0_0_1_n_n.lhsIdx_val_of_single rfl i q)
    (fun i q => dot_S1000x5120_S5120x128_S1000x128_1_0_0_1_n_n.rhsIdx_val_of_single rfl i q)
    (fun i q => by
      unfold DotDims.rhsIdx
      rw [dif_neg (show ¬(1 : Fin S5120x128.rank) ∈ dot_S1000x5120_S5120x128_S1000x128_1_0_0_1_n_n.rhsBatch by decide),
        dif_pos (show (1 : Fin S5120x128.rank) ∈ dot_S1000x5120_S5120x128_S1000x128_1_0_0_1_n_n.rhsNonContracting by decide)]
      rfl)
    none x y r k

/-- The product of 1000 rows of the adjacency matrix, cut to their last 4880 columns, with the last 4880 rows of a [·, 128] matrix. -/
theorem matmul_1000x4880_4880x128 (x : FVec Ideal S1000x4880 .f32) (y : FVec Ideal S4880x128 .f32) (r : Fin 1000) (k : Fin 128) :
    matmul dot_S1000x4880_S4880x128_S1000x128_1_0_0_1_n_n none x y (constant S1000x128 .f32 0x00000000#32) (ix2 r k)
      = ∑ j : Fin 4880, x (ix2 r j) * y (ix2 j k) :=
  matmul_zero_ix2 dot_S1000x4880_S4880x128_S1000x128_1_0_0_1_n_n rfl rfl
    (fun i q => by
      unfold DotDims.lhsIdx
      rw [dif_neg (show ¬(0 : Fin S1000x4880.rank) ∈ dot_S1000x4880_S4880x128_S1000x128_1_0_0_1_n_n.lhsBatch by decide),
        dif_pos (show (0 : Fin S1000x4880.rank) ∈ dot_S1000x4880_S4880x128_S1000x128_1_0_0_1_n_n.lhsNonContracting by decide)]
      rfl)
    (fun i q => dot_S1000x4880_S4880x128_S1000x128_1_0_0_1_n_n.lhsIdx_val_of_single rfl i q)
    (fun i q => dot_S1000x4880_S4880x128_S1000x128_1_0_0_1_n_n.rhsIdx_val_of_single rfl i q)
    (fun i q => by
      unfold DotDims.rhsIdx
      rw [dif_neg (show ¬(1 : Fin S4880x128.rank) ∈ dot_S1000x4880_S4880x128_S1000x128_1_0_0_1_n_n.rhsBatch by decide),
        dif_pos (show (1 : Fin S4880x128.rank) ∈ dot_S1000x4880_S4880x128_S1000x128_1_0_0_1_n_n.rhsNonContracting by decide)]
      rfl)
    none x y r k

/-- The product of 1000 rows of a hidden layer with a [128, 128] weight. -/
theorem matmul_1000x128_128x128 (x : FVec Ideal S1000x128 .f32) (y : FVec Ideal S128x128 .f32) (r : Fin 1000) (l : Fin 128) :
    matmul dot_S1000x128_S128x128_S1000x128_1_0_0_1_n_n none x y (constant S1000x128 .f32 0x00000000#32) (ix2 r l)
      = ∑ k : Fin 128, x (ix2 r k) * y (ix2 k l) :=
  matmul_zero_ix2 dot_S1000x128_S128x128_S1000x128_1_0_0_1_n_n rfl rfl
    (fun i q => by
      unfold DotDims.lhsIdx
      rw [dif_neg (show ¬(0 : Fin S1000x128.rank) ∈ dot_S1000x128_S128x128_S1000x128_1_0_0_1_n_n.lhsBatch by decide),
        dif_pos (show (0 : Fin S1000x128.rank) ∈ dot_S1000x128_S128x128_S1000x128_1_0_0_1_n_n.lhsNonContracting by decide)]
      rfl)
    (fun i q => dot_S1000x128_S128x128_S1000x128_1_0_0_1_n_n.lhsIdx_val_of_single rfl i q)
    (fun i q => dot_S1000x128_S128x128_S1000x128_1_0_0_1_n_n.rhsIdx_val_of_single rfl i q)
    (fun i q => by
      unfold DotDims.rhsIdx
      rw [dif_neg (show ¬(1 : Fin S128x128.rank) ∈ dot_S1000x128_S128x128_S1000x128_1_0_0_1_n_n.rhsBatch by decide),
        dif_pos (show (1 : Fin S128x128.rank) ∈ dot_S1000x128_S128x128_S1000x128_1_0_0_1_n_n.rhsNonContracting by decide)]
      rfl)
    none x y r l

/-! ## The layout and entrywise operations, read at a coordinate pair -/

/-- The entrywise maximum against the zero scalar repeated over the shape is the maximum of the entry and zero. -/
theorem relu_apply (x : FVec Ideal S1000x128 .f32) (i : S1000x128.Idx) :
    maximumf x (broadcast S1000x128 (Scalar.ofBits (F := Ideal) .f32 0x00000000#32)) i = max (x i) 0 := by
  refine (maximumf_apply x _ i).trans ?_
  exact congrArg (max (x i)) Ideal.ofBits_zero_f32

/-! ## The three stored values -/

/-- The first stored value at (j, k): the product of the node features with the graph convolution's weight. -/
theorem pay1_apply (v11 : Vec Ideal S10000x128 .f32) (v12 : Vec Ideal S128x128 .f32) (j : Fin 10000) (k : Fin 128) :
    Cert.KernelIdeal.Gen.k0_pay1 (F := Ideal) v11 v12 (ix2 j k) = ∑ f : Fin 128, v11 (ix2 j f) * v12 (ix2 f k) := by
  unfold Cert.KernelIdeal.Gen.k0_pay1
  refine (congrFun (shapeCast_self _ _) (ix2 j k)).trans ?_
  exact matmul_10000x128_128x128 v11 v12 j k

/-- The second stored value at (r, k): the contraction over the first 5120 nodes. -/
theorem pay2_apply (v11 : Vec Ideal S1000x5120 .f32) (v12 : Vec Ideal S5120x128 .f32) (r : Fin 1000) (k : Fin 128) :
    Cert.KernelIdeal.Gen.k0_pay2 (F := Ideal) v11 v12 (ix2 r k) = ∑ j : Fin 5120, v11 (ix2 r j) * v12 (ix2 j k) := by
  unfold Cert.KernelIdeal.Gen.k0_pay2
  refine (congrFun (shapeCast_self _ _) (ix2 r k)).trans ?_
  exact matmul_1000x5120_5120x128 v11 v12 r k

/-- The third stored value at (r, c): the contraction over the last 4880 nodes added to the contraction over the
    first 5120, the graph convolution's bias and maximum against zero, then the head's two layers, the first
    with its maximum against zero. -/
theorem pay3_apply (v11 : Vec Ideal S1000x4880 .f32) (v12 : Vec Ideal S4880x128 .f32) (v14 : Vec Ideal S1000x128 .f32)
    (v16 : Vec Ideal S1x128 .f32) (v22 : Vec Ideal S128x128 .f32) (v25 : Vec Ideal S1x128 .f32)
    (v31 : Vec Ideal S128x128 .f32) (v33 : Vec Ideal S1x128 .f32) (r : Fin 1000) (c : Fin 128) :
    Cert.KernelIdeal.Gen.k0_pay3 (F := Ideal) v11 v12 v14 v16 v22 v25 v31 v33 (ix2 r c)
      = (∑ l : Fin 128, max ((∑ k : Fin 128, max (((v14 (ix2 r k) + ∑ j : Fin 4880, v11 (ix2 r j) * v12 (ix2 j k)) + v16 (ix2 0 k))) 0 * v22 (ix2 k l)) + v25 (ix2 0 l)) 0 * v31 (ix2 l c)) + v33 (ix2 0 c) := by
  unfold Cert.KernelIdeal.Gen.k0_pay3
  simp only [addf_apply, relu_apply, matmul_1000x128_128x128, matmul_1000x4880_4880x128, shapeCast_self,
    broadcastTo_1b_ab_apply]

end Cert.GcnHead.Pay

end
-- ==== Proof.OutValue.lean ====
/-
  The row block the second half of a grid point stores, read at one entry, is the folded arrangement `outK`.

  The stored block is the third payload applied to: the staged columns of `adj` cut to their first 4880, the
  last 4880 rows of `xw = X · Wg`, the accumulator the first half left (the contraction of the first 5120
  columns of `adj` with the first 5120 rows of `xw`), and the five small operands (the bias `bg`, the folded
  weight and bias of the head's first layer, and the second layer's weight and bias).  Reading a rectangle of
  an array at an index is reading the array at the index shifted by the rectangle's offset, so rows
  `0 … 5119` of `xw` are the nodes `lo j` and rows `5120 … 9999` the nodes `hi j`.  With every operand read
  at its entry, the payload's entry is, term for term, `outK` at the block's row of the whole array: the sum
  over the first 5120 nodes plus the sum over the last 4880, plus `bg`, rectified, through the two layers.
-/
import proofs.«155627_g90632399880415_cont_sun_m_680_22_alg».proof.Proof.Spec
import proofs.«155627_g90632399880415_cont_sun_m_680_22_alg».proof.Proof.Data
import proofs.«155627_g90632399880415_cont_sun_m_680_22_alg».proof.Proof.PayloadValue
import Idealize.ShloMosaic.Lib.ValueIdx

noncomputable section

open scoped BigOperators

namespace Cert.GcnHead.Out

open Cert.KernelIdeal Idealize.ShloMosaic Idealize.ShloMosaic.TcCoe Idealize.SL.Sem Idealize.ShloMosaic.ValueIdx

/-! ## A rectangle of rows read at an index -/

/-- The first 5120 rows of a `[10000, 128]` array at `(j, k)`: the array at node `lo j`. -/
theorem ld_rLo_apply (X : Vec Ideal S10000x128 .f32) (j : Fin 5120) (k : Fin 128) :
    View.ld (Val := Elt Ideal) X Body.rLo (ix2 j k) = X (ix2 (lo j) k) :=
  congrArg X (funext fun a => Fin.ext (by
    match a with
    | ⟨0, _⟩ => show 0 + 1 * j.val = j.val; omega
    | ⟨1, _⟩ => show 0 + 1 * k.val = k.val; omega))

/-- Its last 4880 rows at `(j, k)`: the array at node `hi j`. -/
theorem ld_rHi_apply (X : Vec Ideal S10000x128 .f32) (j : Fin 4880) (k : Fin 128) :
    View.ld (Val := Elt Ideal) X Body.rHi (ix2 j k) = X (ix2 (hi j) k) :=
  congrArg X (funext fun a => Fin.ext (by
    match a with
    | ⟨0, _⟩ => show 5120 + 1 * j.val = 5120 + j.val; omega
    | ⟨1, _⟩ => show 0 + 1 * k.val = k.val; omega))

/-! ## The three payloads over operands read entry by entry -/

variable (A : Inputs) (e : EReal)

/-- The first payload is `xw = X · Wg`. -/
theorem pay1_eq_xw (X : Vec Ideal S10000x128 .f32) (Wg : Vec Ideal S128x128 .f32)
    (hX : ∀ (j : Fin 10000) (f : Fin 128), X (ix2 j f) = A.X j f)
    (hWg : ∀ f k : Fin 128, Wg (ix2 f k) = A.Wg f k) (j : Fin 10000) (k : Fin 128) :
    Gen.k0_pay1 (F := Ideal) X Wg (ix2 j k) = xw A j k := by
  rw [Pay.pay1_apply]
  simp only [hX, hWg]
  rfl

/-- The second payload, on row `p` of `adj` cut to the first 5120 nodes and the matching rows of `xw`, is the
    sum over the first 5120 nodes. -/
theorem pay2_eq_sumLo (p : Fin 10000) (aLo : Vec Ideal S1000x5120 .f32) (xLo : Vec Ideal S5120x128 .f32)
    (r : Fin 1000) (k : Fin 128)
    (hLo : ∀ j : Fin 5120, aLo (ix2 r j) = A.adj p (lo j))
    (hx : ∀ j : Fin 5120, xLo (ix2 j k) = xw A (lo j) k) :
    Gen.k0_pay2 (F := Ideal) aLo xLo (ix2 r k) = ∑ j : Fin 5120, A.adj p (lo j) * xw A (lo j) k := by
  rw [Pay.pay2_apply]
  simp only [hLo, hx]

/-- The third payload, on row `p` of `adj` cut to the last 4880 nodes, the matching rows of `xw`, the sum over
    the first 5120 nodes as accumulator, and the small operands, is `outK` at row `p`. -/
theorem pay3_eq_outK (p : Fin 10000) (aHi : Vec Ideal S1000x4880 .f32) (xHi : Vec Ideal S4880x128 .f32)
    (acc : Vec Ideal S1000x128 .f32) (bg : Vec Ideal S1x128 .f32) (w1 : Vec Ideal S128x128 .f32)
    (b1 : Vec Ideal S1x128 .f32) (W2 : Vec Ideal S128x128 .f32) (b2 : Vec Ideal S1x128 .f32)
    (r : Fin 1000) (c' : Fin 128)
    (hacc : ∀ k : Fin 128, acc (ix2 r k) = ∑ j : Fin 5120, A.adj p (lo j) * xw A (lo j) k)
    (hHi : ∀ j : Fin 4880, aHi (ix2 r j) = A.adj p (hi j))
    (hx : ∀ (j : Fin 4880) (k : Fin 128), xHi (ix2 j k) = xw A (hi j) k)
    (hbg : ∀ k : Fin 128, bg (ix2 0 k) = A.bg k)
    (hw1 : ∀ k l : Fin 128, w1 (ix2 k l) = w1K A e k l)
    (hb1 : ∀ l : Fin 128, b1 (ix2 0 l) = b1K A e l)
    (hW2 : ∀ l c : Fin 128, W2 (ix2 l c) = A.W2 l c)
    (hb2 : ∀ c : Fin 128, b2 (ix2 0 c) = A.b2 c) :
    Gen.k0_pay3 (F := Ideal) aHi xHi acc bg w1 b1 W2 b2 (ix2 r c') = outK A e p c' := by
  rw [Pay.pay3_apply]
  simp only [hacc, hHi, hx, hbg, hw1, hb1, hW2, hb2]
  rfl

/-! ## The stored row block -/

section
variable (m : (ℓ : Loc nD τ sig) → Buf (Elt Ideal) ℓ) (c : Dev nD)

/-- The twelve argument arrays as launched on core `c`. -/
abbrev argsOf : Inputs := Inputs.ofArrays (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- The normalisation's `ε`. -/
abbrev eps : EReal := Ideal.ofBits .f32 0x3727C5AC#32

/-- `xw` as the first point forms it, at `(j, k)`. -/
theorem xwV_apply
    (hX : ∀ (j : Fin 10000) (f : Fin 128), Gen.iblk (F := Ideal) m c 1 Body.tFirst (ix2 j f) = (argsOf m c).X j f)
    (hWg : ∀ f k : Fin 128, Gen.iblk (F := Ideal) m c 2 Body.tFirst (ix2 f k) = (argsOf m c).Wg f k)
    (j : Fin 10000) (k : Fin 128) :
    Body.xwV (F := Ideal) m c (ix2 j k) = xw (argsOf m c) j k := by
  unfold Body.xwV
  exact pay1_eq_xw (argsOf m c) _ _ hX hWg j k

/-- The accumulator a first half leaves, on row `p` of `adj`, at `(r, k)`: the sum over the first 5120 nodes. -/
theorem accV_apply (s : Fin cfg0.N) (p : Fin 10000) (r : Fin 1000)
    (hLo : ∀ j : Fin 5120, Body.adjBlk (F := Ideal) m c s (ix2 r j) = (argsOf m c).adj p (lo j))
    (hX : ∀ (j : Fin 10000) (f : Fin 128), Gen.iblk (F := Ideal) m c 1 Body.tFirst (ix2 j f) = (argsOf m c).X j f)
    (hWg : ∀ f k : Fin 128, Gen.iblk (F := Ideal) m c 2 Body.tFirst (ix2 f k) = (argsOf m c).Wg f k)
    (k : Fin 128) :
    Body.accV (F := Ideal) m c s (ix2 r k) = ∑ j : Fin 5120, (argsOf m c).adj p (lo j) * xw (argsOf m c) (lo j) k := by
  unfold Body.accV
  exact pay2_eq_sumLo (argsOf m c) p _ _ r k hLo fun j =>
    (ld_rLo_apply (Body.xwV (F := Ideal) m c) j k).trans (xwV_apply m c hX hWg (lo j) k)

/-- The row block a second half stores, at `(r, c')`, is `outK` at row `p` of the whole array, where `p` is the
    row of `adj` that row `r` of the two staged blocks holds. -/
theorem outV_row (t : Fin cfg0.N) (r : Fin 1000) (c' : Fin 128) (p : Fin 10000)
    (hLo : ∀ j : Fin 5120, Body.adjBlk (F := Ideal) m c (Body.prevPt t) (ix2 r j) = (argsOf m c).adj p (lo j))
    (hHi : ∀ j : Fin 4880, View.ld (Val := Elt Ideal) (Body.adjBlk (F := Ideal) m c t) Body.rCols (ix2 r j) = (argsOf m c).adj p (hi j))
    (hX : ∀ (j : Fin 10000) (f : Fin 128), Gen.iblk (F := Ideal) m c 1 Body.tFirst (ix2 j f) = (argsOf m c).X j f)
    (hWg : ∀ f k : Fin 128, Gen.iblk (F := Ideal) m c 2 Body.tFirst (ix2 f k) = (argsOf m c).Wg f k)
    (hbg : ∀ k : Fin 128, Gen.iblk (F := Ideal) m c 3 t (ix2 0 k) = (argsOf m c).bg k)
    (hw1 : ∀ k l : Fin 128, Gen.iblk (F := Ideal) m c 4 t (ix2 k l) = w1K (argsOf m c) eps k l)
    (hb1 : ∀ l : Fin 128, Gen.iblk (F := Ideal) m c 5 t (ix2 0 l) = b1K (argsOf m c) eps l)
    (hW2 : ∀ l c' : Fin 128, Gen.iblk (F := Ideal) m c 6 t (ix2 l c') = (argsOf m c).W2 l c')
    (hb2 : ∀ c' : Fin 128, Gen.iblk (F := Ideal) m c 7 t (ix2 0 c') = (argsOf m c).b2 c') :
    Body.outV (F := Ideal) m c t (ix2 r c') = outK (argsOf m c) eps p c' := by
  unfold Body.outV
  exact pay3_eq_outK (argsOf m c) eps p _ _ _ _ _ _ _ _ r c'
    (accV_apply m c (Body.prevPt t) p r hLo hX hWg) hHi
    (fun j k => (ld_rHi_apply (Body.xwV (F := Ideal) m c) j k).trans (xwV_apply m c hX hWg (hi j) k))
    hbg hw1 hb1 hW2 hb2

/-- The same with the row spelt out: at a point `t` of the 20-point grid, the staged blocks hold rows
    `1000 · (t / 2) … 1000 · (t / 2) + 999` of `adj`, and entry `(r, c')` of the stored block is `outK` at row
    `1000 · (t / 2) + r`. -/
theorem outV_apply (t : Fin cfg0.N) (hN : t.val < 20) (r : Fin 1000) (c' : Fin 128)
    (hLo : ∀ (r : Fin 1000) (j : Fin 5120), Body.adjBlk (F := Ideal) m c (Body.prevPt t) (ix2 r j)
      = (argsOf m c).adj ⟨1000 * (t.val / 2) + r.val, by omega⟩ (lo j))
    (hHi : ∀ (r : Fin 1000) (j : Fin 4880), View.ld (Val := Elt Ideal) (Body.adjBlk (F := Ideal) m c t) Body.rCols (ix2 r j)
      = (argsOf m c).adj ⟨1000 * (t.val / 2) + r.val, by omega⟩ (hi j))
    (hX : ∀ (j : Fin 10000) (f : Fin 128), Gen.iblk (F := Ideal) m c 1 Body.tFirst (ix2 j f) = (argsOf m c).X j f)
    (hWg : ∀ f k : Fin 128, Gen.iblk (F := Ideal) m c 2 Body.tFirst (ix2 f k) = (argsOf m c).Wg f k)
    (hbg : ∀ k : Fin 128, Gen.iblk (F := Ideal) m c 3 t (ix2 0 k) = (argsOf m c).bg k)
    (hw1 : ∀ k l : Fin 128, Gen.iblk (F := Ideal) m c 4 t (ix2 k l) = w1K (argsOf m c) eps k l)
    (hb1 : ∀ l : Fin 128, Gen.iblk (F := Ideal) m c 5 t (ix2 0 l) = b1K (argsOf m c) eps l)
    (hW2 : ∀ l c' : Fin 128, Gen.iblk (F := Ideal) m c 6 t (ix2 l c') = (argsOf m c).W2 l c')
    (hb2 : ∀ c' : Fin 128, Gen.iblk (F := Ideal) m c 7 t (ix2 0 c') = (argsOf m c).b2 c') :
    Body.outV (F := Ideal) m c t (ix2 r c')
      = outK (argsOf m c) eps ⟨1000 * (t.val / 2) + r.val, by omega⟩ c' :=
  outV_row m c t r c' _ (hLo r) (hHi r) hX hWg hbg hw1 hb1 hW2 hb2

end

end Cert.GcnHead.Out

end
-- ==== Proof.HostGlue.lean ====
/-
  The arrays the host prepares before the kernel's one region, read entry by entry.

  Before the region runs, the host folds the inference-mode batch normalisation into the head's first
  layer: with `s = γ · rsqrt (v + ε)` it forms the weight `W1 · s` (each column `l` of `W1` scaled by
  `s l`) and the bias `(b1 − μ) · s + β`, and it presents the three bias vectors as one-row matrices.
  Entry by entry these are the specification's `w1K`, `b1K`, and the biases `bg` and `b2` themselves:
  an elementwise operation is read at the index, a vector broadcast along the rows of a matrix is read at
  the column, and a vector viewed as a one-row matrix is read at the column.
-/
import proofs.«155627_g90632399880415_cont_sun_m_680_22_alg».proof.Proof.Spec
import proofs.«155627_g90632399880415_cont_sun_m_680_22_alg».proof.Proof.Gen.KernelIdeal.Frame
import Idealize.ShloMosaic.Lib.StableHlo.Run
import Idealize.ShloMosaic.Lib.ValueIdx
import Idealize.ShloMosaic.Lib.Pipeline.Value
import Idealize.ShloMosaic.Lib.ValueLayout

noncomputable section

open scoped BigOperators

namespace Cert.GcnHead.Glue

open Cert.KernelIdeal Idealize.ShloMosaic Idealize.ShloMosaic.TcCoe Idealize.SL.Sem Idealize.ShloMosaic.StableHlo
  Idealize.ShloMosaic.ValueIdx

variable (m : (ℓ : Loc nD τ sig) → Buf (Elt Ideal) ℓ) (c : Dev nD)

/-! ## The host operations' terms -/

/-- The folded weight is `W1` times the factor `s` broadcast along the rows. -/
theorem V_v6_eq : (Gen.V (F := Ideal) m c main_call0_v6 : S128x128.Idx → EReal)
      = mulf (m ((c : Thread nD τ).loc main_arg4)) (broadcastInDim S128x128 ![0, 1] Gen.bcast_S1x128_S128x128_0_1
          (broadcastInDim S1x128 ![1] Gen.bcast_S128_S1x128_1
        (mulf (m ((c : Thread nD τ).loc main_arg6)) (Host.rsqrt (F := Ideal) (addf (m ((c : Thread nD τ).loc main_arg9))
          (broadcastInDim S128 ![] Gen.bcast_S_S128 (constant (F := Ideal) S_ .f32 0x3727C5AC#32))))))) := by
  dsimp only [Gen.V, Gen.hostOps0]; after_results; rfl

/-- The folded bias, as a one-row matrix. -/
theorem V_v11_eq : (Gen.V (F := Ideal) m c main_call0_v11 : S1x128.Idx → EReal)
      = shapeCast S1x128 (addf (mulf (subf (m ((c : Thread nD τ).loc main_arg5)) (m ((c : Thread nD τ).loc main_arg8)))
        (mulf (m ((c : Thread nD τ).loc main_arg6)) (Host.rsqrt (F := Ideal) (addf (m ((c : Thread nD τ).loc main_arg9))
          (broadcastInDim S128 ![] Gen.bcast_S_S128 (constant (F := Ideal) S_ .f32 0x3727C5AC#32)))))) (m ((c : Thread nD τ).loc main_arg7))) Gen.shapeCasts_S128_S1x128 := by
  dsimp only [Gen.V, Gen.hostOps0]; after_results; rfl

/-- The graph convolution's bias, as a one-row matrix. -/
theorem V_v10_eq : (Gen.V (F := Ideal) m c main_call0_v10 : S1x128.Idx → EReal)
      = shapeCast S1x128 (m ((c : Thread nD τ).loc main_arg3)) Gen.shapeCasts_S128_S1x128 := by
  dsimp only [Gen.V, Gen.hostOps0]; after_results; rfl

/-- The head's second bias, as a one-row matrix. -/
theorem V_v12_eq : (Gen.V (F := Ideal) m c main_call0_v12 : S1x128.Idx → EReal)
      = shapeCast S1x128 (m ((c : Thread nD τ).loc main_arg11)) Gen.shapeCasts_S128_S1x128 := by
  dsimp only [Gen.V, Gen.hostOps0]; after_results; rfl

/-! ## Read at an index -/

/-- A vector of length 128 broadcast along the rows of a `128 × 128` matrix is read at the column. -/
theorem bcast_rows_apply (x : S128.Idx → EReal) (k l : Fin 128) :
    broadcastInDim S128x128 ![0, 1] Gen.bcast_S1x128_S128x128_0_1
        (broadcastInDim S1x128 ![1] Gen.bcast_S128_S1x128_1 x) (ix2 k l) = x (ix1 l) := by
  rw [broadcastInDim_apply _ Gen.bcast_S1x128_S128x128_0_1 _ (ix2 k l) (ix2 (0 : Fin 1) l) (fun a => match a with
    | ⟨0, _⟩ => by show 0 = if (1 : Nat) = 1 then 0 else k.val; rw [if_pos rfl]
    | ⟨1, _⟩ => by show l.val = if (128 : Nat) = 1 then 0 else l.val; rw [if_neg (by decide)])]
  exact broadcastInDim_apply _ Gen.bcast_S128_S1x128_1 x (ix2 (0 : Fin 1) l) (ix1 l) (fun a => match a with
    | ⟨0, _⟩ => by show l.val = if (128 : Nat) = 1 then 0 else l.val; rw [if_neg (by decide)])

/-- A weight matrix times a vector broadcast along its rows, at `(k, l)`. -/
theorem mul_bcast_rows_apply (w : FVec Ideal S128x128 .f32) (s : FVec Ideal S128 .f32) (k l : Fin 128) :
    mulf w (broadcastInDim S128x128 ![0, 1] Gen.bcast_S1x128_S128x128_0_1
        (broadcastInDim S1x128 ![1] Gen.bcast_S128_S1x128_1 s)) (ix2 k l) = w (ix2 k l) * s (ix1 l) := by
  rw [mulf_apply, bcast_rows_apply]

/-- The vector `(b − μ) · s + β`, viewed as a one-row matrix, at column `l`. -/
theorem fold_bias_apply (b μ s β : FVec Ideal S128 .f32) (h : S128.ShapeCasts S1x128) (l : Fin 128) :
    shapeCast S1x128 (addf (mulf (subf b μ) s) β) h (ix2 0 l)
      = (b (ix1 l) - μ (ix1 l)) * s (ix1 l) + β (ix1 l) := by
  rw [shapeCast_a_1a_apply]
  rfl

/-- The factor `s = γ · rsqrt (v + ε)` at `l`. -/
theorem scale_apply (l : Fin 128) :
    (mulf (m ((c : Thread nD τ).loc main_arg6)) (Host.rsqrt (F := Ideal) (addf (m ((c : Thread nD τ).loc main_arg9))
          (broadcastInDim S128 ![] Gen.bcast_S_S128 (constant (F := Ideal) S_ .f32 0x3727C5AC#32))))) (ix1 l)
      = scale (Inputs.ofArrays (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (Ideal.ofBits .f32 0x3727C5AC#32) l := rfl

/-- The folded weight `W1 · s` at `(k, l)`. -/
theorem V_w1 (k l : Fin 128) :
    (Gen.V (F := Ideal) m c main_call0_v6 : S128x128.Idx → EReal) (ix2 k l)
      = w1K (Inputs.ofArrays (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (Ideal.ofBits .f32 0x3727C5AC#32) k l := by
  rw [V_v6_eq]
  exact (mul_bcast_rows_apply _ _ k l).trans rfl

/-- The folded bias `(b1 − μ) · s + β` at `l`. -/
theorem V_b1 (l : Fin 128) :
    (Gen.V (F := Ideal) m c main_call0_v11 : S1x128.Idx → EReal) (ix2 0 l)
      = b1K (Inputs.ofArrays (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (Ideal.ofBits .f32 0x3727C5AC#32) l := by
  rw [V_v11_eq]
  exact (fold_bias_apply _ _ _ _ _ l).trans rfl

/-- The graph convolution's bias at `k`. -/
theorem V_bg (k : Fin 128) :
    (Gen.V (F := Ideal) m c main_call0_v10 : S1x128.Idx → EReal) (ix2 0 k)
      = (Inputs.ofArrays (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))).bg k := by
  rw [V_v10_eq, shapeCast_a_1a_apply]
  rfl

/-- The head's second bias at `c'`. -/
theorem V_b2 (c' : Fin 128) :
    (Gen.V (F := Ideal) m c main_call0_v12 : S1x128.Idx → EReal) (ix2 0 c')
      = (Inputs.ofArrays (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))).b2 c' := by
  rw [V_v12_eq, shapeCast_a_1a_apply]
  rfl

end Cert.GcnHead.Glue

end
-- ==== Proof.LibSumCut.lean ====
/-
  Two facts about sums over an initial segment of the naturals, for arrays that are padded or cut.

  * A sum over `Fin n` whose terms vanish from position `m` on (an array padded with zeros from row `m`) is the sum
    over the first `m` positions (`sum_eq_sum_castLE`).
  * A sum over `Fin N` with `N = a + b` is the sum over its first `a` positions plus the sum over its last `b`
    (a contraction over a joined axis is the sum of the contractions over the two pieces: `sum_split`).

  Both hold in any additive commutative monoid, so on the extended reals too, infinities included.
-/
import Mathlib.Tactic

open scoped BigOperators

namespace Cert.LibSumCut

/-- A sum over `Fin n` whose terms vanish from position `m` on is the sum over the first `m` positions. -/
theorem sum_eq_sum_castLE {M : Type*} [AddCommMonoid M] {m n : ℕ} (h : m ≤ n) (g : Fin n → M)
    (hz : ∀ i : Fin n, m ≤ i.val → g i = 0) : ∑ i : Fin n, g i = ∑ i : Fin m, g (Fin.castLE h i) := by
  have e : ∑ i : Fin m, g (Fin.castLE h i) = ∑ x ∈ Finset.univ.map (Fin.castLEEmb h), g x := by
    rw [Finset.sum_map]; rfl
  rw [e]
  symm
  refine Finset.sum_subset (Finset.subset_univ _) fun i _ hi => hz i ?_
  by_contra hlt
  exact hi (Finset.mem_map.mpr ⟨⟨i.val, Nat.lt_of_not_le hlt⟩, Finset.mem_univ _, Fin.ext rfl⟩)

/-- A sum over `Fin (a + b)` is the sum over its first `a` positions plus the sum over its last `b`. -/
theorem sum_split {M : Type*} [AddCommMonoid M] {a b N : ℕ} (hN : N = a + b) (f : Fin N → M) :
    ∑ k : Fin N, f k = (∑ k : Fin a, f ⟨k.val, by omega⟩) + ∑ k : Fin b, f ⟨a + k.val, by omega⟩ := by
  subst hN
  rw [Fin.sum_univ_add]
  rfl

end Cert.LibSumCut
-- ==== Proof.LibERealFinite.lean ====
/-
  Finiteness in the extended reals: an extended real is finite when it is neither infinity, that is, when it is
  the image of a real number.  Closure of finiteness under the arithmetic, order and rounding operations, and the
  identities that hold once one operand is known to be finite.
-/
import Mathlib.Tactic
import Idealize.ShloMosaic.PureOps.Ideal

noncomputable section

namespace Cert.Lib.Finite

open Idealize.ShloMosaic

/-- An extended real is finite when it is neither `⊤` nor `⊥`. -/
def Fin' (x : EReal) : Prop := x ≠ ⊤ ∧ x ≠ ⊥

/-- A finite extended real is the image of a real number. -/
theorem Fin'.exists_real {x : EReal} (h : Fin' x) : ∃ r : ℝ, x = (r : EReal) :=
  ⟨x.toReal, (EReal.coe_toReal h.1 h.2).symm⟩

/-- The image of a real number is finite. -/
theorem fin_coe (r : ℝ) : Fin' (r : EReal) := ⟨EReal.coe_ne_top r, EReal.coe_ne_bot r⟩

/-- Finite means: the image of a real number. -/
theorem fin_iff_exists_real {x : EReal} : Fin' x ↔ ∃ r : ℝ, x = (r : EReal) :=
  ⟨Fin'.exists_real, fun ⟨r, h⟩ => h ▸ fin_coe r⟩

/-- Of a real witness, finiteness. -/
theorem fin_of_eq_coe {x : EReal} {r : ℝ} (h : x = (r : EReal)) : Fin' x := h ▸ fin_coe r

theorem fin_zero : Fin' (0 : EReal) := by simpa using fin_coe 0
theorem fin_one : Fin' (1 : EReal) := by simpa using fin_coe 1

/-- The straight-through identity: adding to a finite `a` the difference `b - a` gives `b`, for every extended
    real `b`, the infinities included (`a + (⊤ - a) = ⊤`, `a + (⊥ - a) = ⊥`). -/
theorem add_sub_cancel {a : EReal} (ha : Fin' a) (b : EReal) : a + (b - a) = b := by
  obtain ⟨r, rfl⟩ := ha.exists_real
  induction b using EReal.rec with
  | bot => simp
  | top => simp
  | coe x => norm_cast; ring

/-- The same identity with the difference first. -/
theorem sub_add_cancel {a : EReal} (ha : Fin' a) (b : EReal) : (b - a) + a = b := by
  rw [add_comm]; exact add_sub_cancel ha b

/-! ### Closure -/

theorem fin_add {a b : EReal} (ha : Fin' a) (hb : Fin' b) : Fin' (a + b) := by
  obtain ⟨r, rfl⟩ := ha.exists_real; obtain ⟨t, rfl⟩ := hb.exists_real
  exact fin_of_eq_coe (EReal.coe_add r t).symm

theorem fin_sub {a b : EReal} (ha : Fin' a) (hb : Fin' b) : Fin' (a - b) := by
  obtain ⟨r, rfl⟩ := ha.exists_real; obtain ⟨t, rfl⟩ := hb.exists_real
  exact fin_of_eq_coe (EReal.coe_sub r t).symm

theorem fin_mul {a b : EReal} (ha : Fin' a) (hb : Fin' b) : Fin' (a * b) := by
  obtain ⟨r, rfl⟩ := ha.exists_real; obtain ⟨t, rfl⟩ := hb.exists_real
  exact fin_of_eq_coe (EReal.coe_mul r t).symm

theorem fin_neg {a : EReal} (ha : Fin' a) : Fin' (-a) := by
  obtain ⟨r, rfl⟩ := ha.exists_real
  exact fin_of_eq_coe (EReal.coe_neg r).symm

theorem fin_max {a b : EReal} (ha : Fin' a) (hb : Fin' b) : Fin' (max a b) := by
  rcases max_choice a b with h | h <;> rw [h] <;> assumption

theorem fin_min {a b : EReal} (ha : Fin' a) (hb : Fin' b) : Fin' (min a b) := by
  rcases min_choice a b with h | h <;> rw [h] <;> assumption

/-- Between two finite bounds, finite. -/
theorem fin_of_between {lo hi x : EReal} (hlo : Fin' lo) (hhi : Fin' hi) (h1 : lo ≤ x) (h2 : x ≤ hi) : Fin' x :=
  ⟨fun h => hhi.1 (top_le_iff.mp (h ▸ h2)), fun h => hlo.2 (le_bot_iff.mp (h ▸ h1))⟩

/-- A finite sum of finite terms is finite. -/
theorem fin_sum {ι : Type*} (s : Finset ι) (f : ι → EReal) (h : ∀ i ∈ s, Fin' (f i)) : Fin' (∑ i ∈ s, f i) := by
  classical
  induction s using Finset.induction_on with
  | empty => simpa using fin_zero
  | insert a s ha ih =>
    rw [Finset.sum_insert ha]
    exact fin_add (h a (Finset.mem_insert_self a s)) (ih fun i hi => h i (Finset.mem_insert_of_mem hi))

/-- The sum over a finite type of finite terms is finite. -/
theorem fin_sum_univ {ι : Type*} [Fintype ι] (f : ι → EReal) (h : ∀ i, Fin' (f i)) : Fin' (∑ i, f i) :=
  fin_sum Finset.univ f fun i _ => h i

/-- The sum of the images of reals is the image of the sum. -/
theorem coe_sum {ι : Type*} (s : Finset ι) (g : ι → ℝ) : (∑ i ∈ s, (g i : EReal)) = ((∑ i ∈ s, g i : ℝ) : EReal) := by
  classical
  induction s using Finset.induction_on with
  | empty => simp
  | insert a s ha ih => rw [Finset.sum_insert ha, Finset.sum_insert ha, ih, EReal.coe_add]

/-- The exponential of a finite extended real is finite. -/
theorem fin_exp {x : EReal} (hx : Fin' x) : Fin' (Ideal.exp x) := by
  obtain ⟨r, rfl⟩ := hx.exists_real
  exact fin_of_eq_coe (Ideal.exp_coe (r := r))

/-- The exponential of a finite extended real is positive. -/
theorem exp_pos {x : EReal} (hx : Fin' x) : 0 < Ideal.exp x := by
  obtain ⟨r, rfl⟩ := hx.exists_real
  rw [Ideal.exp_coe]; exact_mod_cast Real.exp_pos r

/-- The quotient of two reals, the divisor not zero, is the image of the real quotient. -/
theorem div_coe_coe (r : ℝ) {t : ℝ} (ht : t ≠ 0) : Ideal.div (r : EReal) (t : EReal) = ((r / t : ℝ) : EReal) := by
  rw [Ideal.div_coe ht, ← EReal.coe_mul, mul_one_div]

/-- The quotient of a finite extended real by a finite nonzero one is finite. -/
theorem fin_div {x s : EReal} (hx : Fin' x) (hs : Fin' s) (h0 : s ≠ 0) : Fin' (Ideal.div x s) := by
  obtain ⟨r, rfl⟩ := hx.exists_real; obtain ⟨t, rfl⟩ := hs.exists_real
  have ht : t ≠ 0 := fun h => h0 (by rw [h]; rfl)
  exact fin_of_eq_coe (div_coe_coe r ht)

/-- A rounding to the integers of a finite extended real is finite. -/
theorem fin_liftRound (f : ℝ → ℤ) {x : EReal} (hx : Fin' x) : Fin' (Ideal.liftRound f x) := by
  obtain ⟨r, rfl⟩ := hx.exists_real
  exact fin_of_eq_coe (Ideal.liftRound_coe (r := r) f)

/-! ### The clip bounds -/

/-- The pattern `0x42FE0000` denotes the real `127`. -/
theorem ofBits_127 : Ideal.ofBits .f32 0x42FE0000#32 = ((127 : ℝ) : EReal) := by
  simp [Ideal.ofBits, Ideal.ieee, -EReal.coe_mul]; norm_num

/-- The pattern `0xC2FE0000` denotes the real `-127`. -/
theorem ofBits_neg127 : Ideal.ofBits .f32 0xC2FE0000#32 = ((-127 : ℝ) : EReal) := by
  simp [Ideal.ofBits, Ideal.ieee, -EReal.coe_mul]; norm_num

/-- A value clipped to `[-127, 127]` is finite, whatever it was. -/
theorem fin_clip (y : EReal) :
    Fin' (min (Ideal.ofBits .f32 0x42FE0000#32) (max (Ideal.ofBits .f32 0xC2FE0000#32) y)) := by
  rw [ofBits_127, ofBits_neg127]
  refine fin_of_between (fin_coe (-127)) (fin_coe 127) (le_min ?_ (le_max_left _ _)) (min_le_left _ _)
  exact_mod_cast (by norm_num : (-127 : ℝ) ≤ 127)

/-! ### The quantization scale -/

/-- The pattern `0x322BCC77` denotes a positive real (`11258999 · 2⁻⁵⁰`, about `1e-8`). -/
theorem ofBits_eps : Ideal.ofBits .f32 0x322BCC77#32 = ((11258999 / 2 ^ 50 : ℝ) : EReal) := by
  simp [Ideal.ofBits, Ideal.ieee, -EReal.coe_mul]; norm_num

/-- That real is positive. -/
theorem ofBits_eps_pos : (0 : EReal) < Ideal.ofBits .f32 0x322BCC77#32 := by
  rw [ofBits_eps]; exact_mod_cast (by positivity : (0 : ℝ) < 11258999 / 2 ^ 50)

/-- The scale `max (M / 127) ε` of a finite `M` is finite. -/
theorem fin_scale {M : EReal} (hM : Fin' M) :
    Fin' (max (Ideal.div M (Ideal.ofBits .f32 0x42FE0000#32)) (Ideal.ofBits .f32 0x322BCC77#32)) := by
  refine fin_max (fin_div hM (fin_of_eq_coe ofBits_127) ?_) (fin_of_eq_coe ofBits_eps)
  rw [ofBits_127]; exact_mod_cast (by norm_num : (127 : ℝ) ≠ 0)

/-- The scale `max (M / 127) ε` is positive, whatever `M` is. -/
theorem scale_pos (M : EReal) :
    0 < max (Ideal.div M (Ideal.ofBits .f32 0x42FE0000#32)) (Ideal.ofBits .f32 0x322BCC77#32) :=
  lt_max_of_lt_right ofBits_eps_pos

/-- A positive extended real is not zero. -/
theorem scale_ne_zero (M : EReal) :
    max (Ideal.div M (Ideal.ofBits .f32 0x42FE0000#32)) (Ideal.ofBits .f32 0x322BCC77#32) ≠ 0 :=
  (scale_pos M).ne'

/-! ### Folding the maximum over a finite set -/

/-- Folding `max` from `⊥` is the supremum. -/
theorem fold_max_eq_sup {ι : Type*} (s : Finset ι) (f : ι → EReal) : s.fold max ⊥ f = s.sup f := by
  classical
  induction s using Finset.induction_on with
  | empty => simp
  | insert a s ha ih => rw [Finset.fold_insert ha, Finset.sup_insert, ih]

/-- Every entry is below the folded maximum. -/
theorem le_fold_max {ι : Type*} {s : Finset ι} (f : ι → EReal) {i : ι} (hi : i ∈ s) : f i ≤ s.fold max ⊥ f := by
  rw [fold_max_eq_sup]; exact Finset.le_sup hi

/-- A bound of every entry bounds the folded maximum. -/
theorem fold_max_le {ι : Type*} {s : Finset ι} {f : ι → EReal} {c : EReal} (h : ∀ i ∈ s, f i ≤ c) :
    s.fold max ⊥ f ≤ c := by
  rw [fold_max_eq_sup]; exact Finset.sup_le h

/-- A bound of every entry that one entry attains is the folded maximum. -/
theorem fold_max_eq_of_le_of_mem {ι : Type*} {s : Finset ι} {f : ι → EReal} {c : EReal} (h : ∀ i ∈ s, f i ≤ c)
    {i : ι} (hi : i ∈ s) (hc : f i = c) : s.fold max ⊥ f = c :=
  le_antisymm (fold_max_le h) (hc ▸ le_fold_max f hi)

/-- Over a nonempty finite set the folded maximum is one of the entries. -/
theorem exists_fold_max_eq {ι : Type*} {s : Finset ι} (hs : s.Nonempty) (f : ι → EReal) :
    ∃ i ∈ s, s.fold max ⊥ f = f i := by
  rw [fold_max_eq_sup]; exact Finset.exists_mem_eq_sup s hs f

/-- Over a nonempty finite type the folded maximum of finite entries is finite. -/
theorem fin_fold_max {ι : Type*} [Fintype ι] [Nonempty ι] (f : ι → EReal) (h : ∀ i, Fin' (f i)) :
    Fin' (Finset.univ.fold max ⊥ f) := by
  obtain ⟨i, -, hi⟩ := exists_fold_max_eq Finset.univ_nonempty f
  rw [hi]; exact h i

/-- The folded maximum of the images of reals is the image of their supremum. -/
theorem fold_max_coe {ι : Type*} {s : Finset ι} (hs : s.Nonempty) (g : ι → ℝ) :
    s.fold max ⊥ (fun i => (g i : EReal)) = ((s.sup' hs g : ℝ) : EReal) := by
  obtain ⟨i, hi, h⟩ := Finset.exists_mem_eq_sup' hs g
  refine fold_max_eq_of_le_of_mem (fun j hj => ?_) hi (by rw [h])
  exact_mod_cast Finset.le_sup' g hj

/-- Re-indexing along a bijection does not change the folded maximum. -/
theorem fold_max_equiv {ι κ : Type*} [Fintype ι] [Fintype κ] (e : ι ≃ κ) (b : EReal) (f : κ → EReal) :
    Finset.univ.fold max b (f ∘ e) = Finset.univ.fold max b f := by
  have h := Finset.fold_map (op := max) (b := b) (g := e.toEmbedding) (f := f) (s := Finset.univ)
  rw [Finset.map_univ_equiv] at h
  exact h.symm

end Cert.Lib.Finite

end
-- ==== Proof.Algebra.lean ====
/-
  The two arrangements of the graph convolution with its batch-normalised head are one function.

  * The cut.  The contraction with the adjacency matrix over all 10000 nodes is the contraction over the
    first 5120 nodes plus the contraction over the last 4880: a finite sum over a joined range is the sum of
    the sums over its two pieces.  This holds in any additive commutative monoid, so for every extended real
    input, the infinities included (h0K_eq_h0R).
  * The fold.  Where every input is a real number, every entry of the hidden layer is a real number, and where
    y = v + ε is a positive real, sqrt y is the positive real σ = √y and rsqrt y is the real σ⁻¹.  Division by σ
    is then multiplication by 1 / σ, and with ρ = σ⁻¹ the identity to prove is one between real numbers:

        Σ_k h_k · (W_k · (γ · ρ)) + ((b − μ) · (γ · ρ) + β) = (γ · ((Σ_k h_k · W_k + b) − μ)) · (1 / σ) + β,

    which is distributivity of the factor γ · ρ over the finite sum (h1K_eq_h1R).
  * The second head layer is the same expression of the first on both sides (outK_eq_outR).
-/
import proofs.«155627_g90632399880415_cont_sun_m_680_22_alg».proof.Proof.Spec
import proofs.«155627_g90632399880415_cont_sun_m_680_22_alg».proof.Proof.LibSumCut
import proofs.«155627_g90632399880415_cont_sun_m_680_22_alg».proof.Proof.LibERealFinite
import Mathlib.Tactic

noncomputable section

open scoped BigOperators

namespace Cert.GcnHead

open Idealize.ShloMosaic

/-! ## The cut -/

/-- The hidden layer with the contraction cut at node 5120 is the hidden layer with the contraction in one
    sum: for every input, with no hypothesis. -/
theorem h0K_eq_h0R (a : Inputs) (p : Fin 10000) (k : Fin 128) : h0K a p k = h0R a p k := by
  have h := Cert.LibSumCut.sum_split (a := 5120) (b := 4880) (N := 10000) (by norm_num)
    (fun j : Fin 10000 => a.adj p j * xw a j k)
  unfold h0K h0R
  rw [h]
  rfl

/-! ## Real inputs give a real hidden layer -/

/-- The maximum of a real number and zero, taken among the extended reals, is the image of the maximum
    taken among the reals. -/
theorem max_coe_zero (x : ℝ) : max (x : EReal) 0 = ((max x 0 : ℝ) : EReal) := by
  rw [← EReal.coe_zero]
  exact (EReal.coe_strictMono.monotone.map_max).symm

/-- Every entry of X · Wg is a real number when the inputs are. -/
theorem xw_real (a : Inputs) (ha : a.Real) (j : Fin 10000) (k : Fin 128) : ∃ r : ℝ, xw a j k = r := by
  choose x hx using ha.X
  choose w hw using ha.Wg
  refine ⟨∑ f : Fin 128, x j f * w f k, ?_⟩
  unfold xw
  simp only [hx, hw, ← EReal.coe_mul]
  exact Cert.Lib.Finite.coe_sum _ _

/-- Every entry of the hidden layer is a real number when the inputs are. -/
theorem h0R_real (a : Inputs) (ha : a.Real) (p : Fin 10000) (k : Fin 128) : ∃ r : ℝ, h0R a p k = r := by
  choose A hA using ha.adj
  choose x hx using xw_real a ha
  obtain ⟨b, hb⟩ := ha.bg k
  refine ⟨max ((∑ j : Fin 10000, A p j * x j k) + b) 0, ?_⟩
  unfold h0R
  simp only [hA, hx, hb, ← EReal.coe_mul, Cert.Lib.Finite.coe_sum, ← EReal.coe_add]
  exact max_coe_zero _

/-! ## The square root and its reciprocal at a positive real -/

/-- At a positive real the square root is the real square root. -/
theorem sqrt_coe_pos {r : ℝ} (hr : 0 < r) : Ideal.sqrt (r : EReal) = ((Real.sqrt r : ℝ) : EReal) := by
  rw [Ideal.sqrt_coe, if_neg (not_lt.mpr hr.le)]

/-- At a positive real the reciprocal square root is the inverse of the real square root. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- With a real variance and v + ε positive, v + ε is a positive real. -/
theorem var_add_eps_real (a : Inputs) (e : ℝ) (ha : a.Real) (hpos : ∀ l, (0 : EReal) < a.var l + (e : EReal))
    (l : Fin 128) : ∃ y : ℝ, 0 < y ∧ a.var l + (e : EReal) = (y : EReal) := by
  obtain ⟨v, hv⟩ := ha.var l
  have h := hpos l
  rw [hv, ← EReal.coe_add] at h
  exact ⟨v + e, by exact_mod_cast h, by rw [hv, EReal.coe_add]⟩

/-! ## The fold -/

/-- The first head layer with the normalisation folded into its weights and bias is the first head layer
    followed by the normalisation. -/
theorem h1K_eq_h1R (a : Inputs) (e : ℝ) (ha : a.Real) (hpos : ∀ l, (0 : EReal) < a.var l + (e : EReal))
    (p : Fin 10000) (l : Fin 128) : h1K a (e : EReal) p l = h1R a (e : EReal) p l := by
  choose H hH using h0R_real a ha p
  choose w hw using fun k => ha.W1 k l
  obtain ⟨g, hg⟩ := ha.gam l
  obtain ⟨b, hb⟩ := ha.b1 l
  obtain ⟨m, hm⟩ := ha.mu l
  obtain ⟨β, hβ⟩ := ha.bet l
  obtain ⟨y, hy, hye⟩ := var_add_eps_real a e ha hpos l
  have hσ : Real.sqrt y ≠ 0 := (Real.sqrt_pos.mpr hy).ne'
  unfold h1K h1R w1K b1K scale
  simp only [h0K_eq_h0R, hH, hw, hg, hb, hm, hβ, hye, sqrt_coe_pos hy, rsqrt_coe_pos hy, Ideal.div_coe hσ]
  simp only [← EReal.coe_mul, ← EReal.coe_add, ← EReal.coe_sub, Cert.Lib.Finite.coe_sum]
  refine congrArg (fun t : ℝ => max (t : EReal) 0) ?_
  have hs : ∑ k : Fin 128, H k * (w k * (g * (Real.sqrt y)⁻¹))
      = (∑ k : Fin 128, H k * w k) * (g * (Real.sqrt y)⁻¹) := by
    rw [Finset.sum_mul]
    exact Finset.sum_congr rfl fun k _ => by ring
  rw [hs]
  ring

/-! ## The two arrangements agree -/

/-- Where every input is a real number and v + ε is positive, the folded arrangement with the cut contraction
    is the textbook arrangement. -/
theorem outK_eq_outR (a : Inputs) (e : ℝ) (ha : a.Real) (hpos : ∀ l, (0 : EReal) < a.var l + (e : EReal)) :
    outK a (e : EReal) = outR a (e : EReal) := by
  funext p c
  unfold outK outR
  simp only [h1K_eq_h1R a e ha hpos]

end Cert.GcnHead

end
-- ==== Proof.RefValue.lean ====
/-
  The reference program, read one output entry at a time, is the textbook arrangement of the
  specification: a graph convolution `relu (adj · (X · Wg) + bg)` followed by a two-layer head whose first
  layer is batch-normalised in inference mode.

  Each stage of the program is read at the index `(p, c)` of a node and a feature.  A contraction is the
  sum over its contracted coordinate of the product of the left entry in row `p` and the right entry in
  column `c`; a vector of length 128 broadcast along the rows contributes its entry `c`; a rectifier is the
  maximum with zero.  Composing these readings stage by stage gives, term for term, the specification's
  `xw`, `h0R`, `h1R` and `outR`.  The sums over the 10000 nodes and the 128 features are never expanded.
-/
import proofs.«155627_g90632399880415_cont_sun_m_680_22_alg».proof.Proof.Spec
import proofs.«155627_g90632399880415_cont_sun_m_680_22_alg».proof.Proof.Gen.ReferenceIdeal.Run
import proofs.«155627_g90632399880415_cont_sun_m_680_22_alg».proof.Proof.Gen.ReferenceIdeal.Read
import Idealize.ShloMosaic.Lib.ValueIdx
import Idealize.ShloMosaic.PureOps.Ideal.Laws

noncomputable section

open scoped BigOperators

namespace Cert.GcnHead.Ref

open Cert.ReferenceIdeal Cert.ReferenceIdeal.Read Idealize.ShloMosaic Idealize.ShloMosaic.ValueIdx

/-! ## Index bookkeeping

The index functions of the generated readings, at an index given by its coordinates, are again given by
coordinates: a contraction reads its left operand in the output's row and its right operand in the output's
column, and a vector of length 128 broadcast along the rows is read at the output's column. -/

/-- `X · Wg` reads `X` at row `p`, column `k`. -/
theorem lidxXW (p : Fin 10000) (c : Fin 128) (k : Fin 128) :
    lidx_main_v0 (ix2 p c) k = ix2 p k :=
  funext fun a => Fin.ext (by match a with | ⟨0, _⟩ => rfl | ⟨1, _⟩ => rfl)

/-- … and `Wg` at row `k`, column `c`. -/
theorem ridxXW (p : Fin 10000) (c : Fin 128) (k : Fin 128) :
    ridx_main_v0 (ix2 p c) k = ix2 k c :=
  funext fun a => Fin.ext (by match a with | ⟨0, _⟩ => rfl | ⟨1, _⟩ => rfl)

/-- The contraction with the adjacency matrix reads it at row `p`, column `j`. -/
theorem lidxAdj (p : Fin 10000) (c : Fin 128) (j : Fin 10000) :
    lidx_main_v1 (ix2 p c) j = ix2 p j :=
  funext fun a => Fin.ext (by match a with | ⟨0, _⟩ => rfl | ⟨1, _⟩ => rfl)

/-- … and `X · Wg` at row `j`, column `c`. -/
theorem ridxAdj (p : Fin 10000) (c : Fin 128) (j : Fin 10000) :
    ridx_main_v1 (ix2 p c) j = ix2 j c :=
  funext fun a => Fin.ext (by match a with | ⟨0, _⟩ => rfl | ⟨1, _⟩ => rfl)

/-- The head's first layer reads the hidden layer at row `p`, column `k`. -/
theorem lidxW1 (p : Fin 10000) (c : Fin 128) (k : Fin 128) :
    lidx_main_v6 (ix2 p c) k = ix2 p k :=
  funext fun a => Fin.ext (by match a with | ⟨0, _⟩ => rfl | ⟨1, _⟩ => rfl)

/-- … and `W1` at row `k`, column `c`. -/
theorem ridxW1 (p : Fin 10000) (c : Fin 128) (k : Fin 128) :
    ridx_main_v6 (ix2 p c) k = ix2 k c :=
  funext fun a => Fin.ext (by match a with | ⟨0, _⟩ => rfl | ⟨1, _⟩ => rfl)

/-- The head's second layer reads the normalised layer at row `p`, column `k`. -/
theorem lidxW2 (p : Fin 10000) (c : Fin 128) (k : Fin 128) :
    lidx_main_v26 (ix2 p c) k = ix2 p k :=
  funext fun a => Fin.ext (by match a with | ⟨0, _⟩ => rfl | ⟨1, _⟩ => rfl)

/-- … and `W2` at row `k`, column `c`. -/
theorem ridxW2 (p : Fin 10000) (c : Fin 128) (k : Fin 128) :
    ridx_main_v26 (ix2 p c) k = ix2 k c :=
  funext fun a => Fin.ext (by match a with | ⟨0, _⟩ => rfl | ⟨1, _⟩ => rfl)

/-- The bias `bg`, broadcast along the rows, is read at the column. -/
theorem rowBg (p : Fin 10000) (c : Fin 128) :
    idx_main_v2 (idx_main_v3 (ix2 p c)) = ix1 c :=
  funext fun a => Fin.ext (by match a with | ⟨0, _⟩ => rfl)

/-- The bias `b1`, likewise. -/
theorem rowB1 (p : Fin 10000) (c : Fin 128) :
    idx_main_v7 (idx_main_v8 (ix2 p c)) = ix1 c :=
  funext fun a => Fin.ext (by match a with | ⟨0, _⟩ => rfl)

/-- The mean `μ`, likewise. -/
theorem rowMu (p : Fin 10000) (c : Fin 128) :
    idx_main_v10 (idx_main_v11 (ix2 p c)) = ix1 c :=
  funext fun a => Fin.ext (by match a with | ⟨0, _⟩ => rfl)

/-- The scale `γ`, likewise. -/
theorem rowGam (p : Fin 10000) (c : Fin 128) :
    idx_main_v13 (idx_main_v14 (ix2 p c)) = ix1 c :=
  funext fun a => Fin.ext (by match a with | ⟨0, _⟩ => rfl)

/-- The standard deviation `sqrt (v + ε)`, likewise. -/
theorem rowSd (p : Fin 10000) (c : Fin 128) :
    idx_main_v19 (idx_main_v20 (ix2 p c)) = ix1 c :=
  funext fun a => Fin.ext (by match a with | ⟨0, _⟩ => rfl)

/-- The shift `β`, likewise. -/
theorem rowBet (p : Fin 10000) (c : Fin 128) :
    idx_main_v22 (idx_main_v23 (ix2 p c)) = ix1 c :=
  funext fun a => Fin.ext (by match a with | ⟨0, _⟩ => rfl)

/-- The bias `b2`, likewise. -/
theorem rowB2 (p : Fin 10000) (c : Fin 128) :
    idx_main_v27 (idx_main_v28 (ix2 p c)) = ix1 c :=
  funext fun a => Fin.ext (by match a with | ⟨0, _⟩ => rfl)

/-! ## The stages -/

section
variable (a0 : FVec Ideal S10000x10000 .f32) (a1 : FVec Ideal S10000x128 .f32) (a2 : FVec Ideal S128x128 .f32)
    (a3 : FVec Ideal S128 .f32) (a4 : FVec Ideal S128x128 .f32) (a5 a6 a7 a8 a9 : FVec Ideal S128 .f32)
    (a10 : FVec Ideal S128x128 .f32) (a11 : FVec Ideal S128 .f32)

/-- `X · Wg` at `(j, k)`. -/
theorem xw_eq (j : Fin 10000) (k : Fin 128) :
    val_main_v0 (F := Ideal) a1 a2 (ix2 j k) = xw (Inputs.ofArrays a0 a1 a2 a3 a4 a5 a6 a7 a8 a9 a10 a11) j k := by
  rw [val_main_v0_apply]
  simp only [lidxXW, ridxXW]
  rfl

/-- The hidden layer `relu (adj · (X · Wg) + bg)` at `(p, k)`: the contraction is one sum over all nodes. -/
theorem h0_eq (p : Fin 10000) (k : Fin 128) :
    val_main_v5 (F := Ideal) a0 a1 a2 a3 (ix2 p k) = h0R (Inputs.ofArrays a0 a1 a2 a3 a4 a5 a6 a7 a8 a9 a10 a11) p k := by
  rw [val_main_v5_apply, val_main_v4_apply, val_main_v1_apply, val_main_v3_apply, val_main_v2_apply,
    val_main_call0_v0_apply, val_main_call0_cst_apply]
  simp only [lidxAdj, ridxAdj, rowBg, xw_eq a0 a1 a2 a3 a4 a5 a6 a7 a8 a9 a10 a11, Ideal.addf_def, Ideal.maximumf_def,
    Ideal.ofBits_def, Ideal.ofBits_zero_f32]
  rfl

/-- The normalised first layer of the head at `(p, l)`:
    `relu (γ · ((h0 · W1 + b1) − μ) / sqrt (v + ε) + β)`. -/
theorem h1_eq (p : Fin 10000) (l : Fin 128) :
    val_main_v25 (F := Ideal) a0 a1 a2 a3 a4 a5 a6 a7 a8 a9 (ix2 p l)
      = h1R (Inputs.ofArrays a0 a1 a2 a3 a4 a5 a6 a7 a8 a9 a10 a11) (Ideal.ofBits .f32 0x3727C5AC#32) p l := by
  rw [val_main_v25_apply, val_main_v24_apply, val_main_v21_apply, val_main_v15_apply, val_main_v14_apply,
    val_main_v13_apply, val_main_v12_apply, val_main_v9_apply, val_main_v6_apply, val_main_v8_apply,
    val_main_v7_apply, val_main_v11_apply, val_main_v10_apply, val_main_v20_apply, val_main_v19_apply,
    val_main_v18_apply, val_main_v17_apply, val_main_v16_apply, val_main_cst_apply, val_main_v23_apply,
    val_main_v22_apply, val_main_call1_v0_apply, val_main_call1_cst_apply]
  simp only [lidxW1, ridxW1, rowB1, rowMu, rowGam, rowSd, rowBet, h0_eq a0 a1 a2 a3 a4 a5 a6 a7 a8 a9 a10 a11,
    Ideal.addf_def, Ideal.subf_def, Ideal.mulf_def, Ideal.hostDivf_def, Ideal.hostUnary_sqrt_def,
    Ideal.maximumf_def, Ideal.ofBits_def, Ideal.ofBits_zero_f32]
  rfl

/-- The reference's result at `(p, c)` is the textbook arrangement `outR`. -/
theorem ref_eq_outR (p : Fin 10000) (c : Fin 128) :
    val_main_v29 (F := Ideal) a0 a1 a2 a3 a4 a5 a6 a7 a8 a9 a10 a11 (ix2 p c) = outR (Inputs.ofArrays a0 a1 a2 a3 a4 a5 a6 a7 a8 a9 a10 a11) (Ideal.ofBits .f32 0x3727C5AC#32) p c := by
  rw [val_main_v29_apply, val_main_v26_apply, val_main_v28_apply, val_main_v27_apply]
  simp only [lidxW2, ridxW2, rowB2, h1_eq a0 a1 a2 a3 a4 a5 a6 a7 a8 a9 a10 a11, Ideal.addf_def]
  rfl

/-- The reference's whole result, as a function of the index: `outR` at the index's two coordinates. -/
theorem ref_eq_outR_fun :
    val_main_v29 (F := Ideal) a0 a1 a2 a3 a4 a5 a6 a7 a8 a9 a10 a11
      = fun i : S10000x128.Idx => outR (Inputs.ofArrays a0 a1 a2 a3 a4 a5 a6 a7 a8 a9 a10 a11) (Ideal.ofBits .f32 0x3727C5AC#32) (i 0) (i 1) := by
  funext i
  obtain ⟨p, c, rfl⟩ : ∃ (p : Fin 10000) (c : Fin 128), i = ix2 p c := ⟨i 0, i 1, eq_ix2 i⟩
  exact ref_eq_outR a0 a1 a2 a3 a4 a5 a6 a7 a8 a9 a10 a11 p c

end

/-! ## The run

Every weakly fair execution of the reference ends with its result buffer holding `outR` of the launch
contents of the twelve arguments, and with the arguments unchanged. -/

open Cert.ReferenceIdeal.Gen Idealize.ShloMosaic.TcCoe Idealize.SL.Sem Idealize.ShloMosaic.StableHlo in
theorem run_outR (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = (fun i : S10000x128.Idx => outR (Inputs.ofArrays
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))) (Ideal.ofBits .f32 0x3727C5AC#32) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨(h c).1.trans ((val_main_v29_eq (F := Ideal) _ _ _ _ _ _ _ _ _ _ _ _).trans
      (ref_eq_outR_fun _ _ _ _ _ _ _ _ _ _ _ _)), (h c).2⟩) (Value.run m ρ)

end Cert.GcnHead.Ref

end
-- ==== Proof.PreDecode.lean ====
/-
  The precondition, read back into plain facts about the inputs.

  The precondition is a conjunction of thirteen tests, each of the form "every entry of an array passes a
  comparison": for each of the twelve inputs, |x| < +∞ at every entry; and for the running variance v,
  v + ε > 0 at every entry, with ε the f32 literal 0x3727C5AC (about 1e-5). On the extended reals
  |x| = max x (−x), and max x (−x) < +∞ excludes exactly x = +∞ and x = −∞, so the first twelve tests say that
  every entry of every input is a real number; the thirteenth is the positivity of v + ε as it stands.

  A conjunction of one-bit words is 1 only when each word is 1; an "all" over an array (a reduction by "and" from
  the constant 1 to a single word) is 1 only when the word at every index is 1; and the word of a comparison is 1
  only when the comparison holds. Both element facts are proved once for an array of any shape, so nothing here
  ever enumerates an index set.
-/
import proofs.«155627_g90632399880415_cont_sun_m_680_22_alg».proof.Proof.Spec
import proofs.«155627_g90632399880415_cont_sun_m_680_22_alg».proof.Pre_finite_inputs
import Idealize.ShloMosaic.Lib.ReduceAll
import Idealize.ShloMosaic.Lib.ValueIdx
import Idealize.ShloMosaic.PureOps.Ideal

noncomputable section

namespace Cert.GcnHead

open Idealize.ShloMosaic Idealize.ShloMosaic.ValueIdx

/-- The rank-0 shape has exactly one index. -/
instance subsingleton_scalar_idx : Subsingleton (⟨0, ![]⟩ : Shape).Idx := ⟨fun _ _ => funext fun d => d.elim0⟩

/-- The f32 pattern 0x7F800000 is +∞. -/
theorem inf_bits : Ideal.ofBits .f32 0x7F800000#32 = ⊤ := by simp [Ideal.ofBits, Ideal.ieee]

/-- An extended real whose absolute value max x (−x) is below +∞ is a real number. -/
theorem real_of_abs_lt_top (x : EReal) (h : max x (-x) < ⊤) : ∃ r : ℝ, x = r := by
  induction x using EReal.rec with
  | bot => simp at h
  | coe r => exact ⟨r, rfl⟩
  | top => simp at h

/-- A one-bit word made from a Boolean is 1 only when the Boolean is true. -/
theorem bool_of_ofBool_eq_one {b : Bool} (h : BitVec.ofBool b = 1#1) : b = true := by
  cases b
  · exact absurd h (by decide)
  · rfl

/-- all(|x| < +∞) = 1 over an array of any shape: every entry is a real number. -/
theorem real_of_all_abs_lt_inf {S : Shape} {axes : List (Fin S.rank)} (x : FVec Ideal S .f32)
    (hb : (⟨0, ![]⟩ : Shape).BroadcastsInDim S (![] : Fin 0 → Fin S.rank))
    (hr : S.ReducesTo axes ⟨0, ![]⟩) (hu : 0 < (⟨0, ![]⟩ : Shape).numel)
    (h : Host.reduce IntOp.andi
          (cmpf .olt (Host.absf x) (broadcastInDim S ![] hb (constant ⟨0, ![]⟩ .f32 0x7F800000#32)))
          (constantI ⟨0, ![]⟩ 1 1#1) hr hu ix0 = 1#1)
    (i : S.Idx) : ∃ r : ℝ, x i = r := by
  have e := Host.reduce_andi_all _ _ hr hu ix0 h i
  apply real_of_abs_lt_top
  have e' : Ideal.cmp .olt (max (x i) (-(x i))) (Ideal.ofBits .f32 0x7F800000#32) = 1#1 := e
  rw [inf_bits] at e'
  exact of_decide_eq_true (bool_of_ofBool_eq_one e')

/-- The f32 pattern 0x00000000 is 0. -/
theorem zero_bits : Ideal.ofBits .f32 0x00000000#32 = 0 := by simp [Ideal.ofBits, Ideal.ieee]

/-- ε, the f32 literal 0x3727C5AC, is a real number. -/
theorem eps_real : ∃ e : ℝ, Ideal.ofBits .f32 0x3727C5AC#32 = (e : EReal) := by
  simp only [Ideal.ofBits, Ideal.ieee]
  rw [if_neg (by decide), if_neg (by decide)]
  exact ⟨_, rfl⟩

/-- all(x + ε > 0) = 1 over an array of any shape: every entry plus ε is positive. -/
theorem pos_of_all_add_gt_zero {S : Shape} {axes : List (Fin S.rank)} (x : FVec Ideal S .f32)
    (hb : (⟨0, ![]⟩ : Shape).BroadcastsInDim S (![] : Fin 0 → Fin S.rank))
    (hr : S.ReducesTo axes ⟨0, ![]⟩) (hu : 0 < (⟨0, ![]⟩ : Shape).numel)
    (h : Host.reduce IntOp.andi
          (cmpf .ogt (addf x (broadcastInDim S ![] hb (constant ⟨0, ![]⟩ .f32 0x3727C5AC#32)))
            (broadcastInDim S ![] hb (constant ⟨0, ![]⟩ .f32 0x00000000#32)))
          (constantI ⟨0, ![]⟩ 1 1#1) hr hu ix0 = 1#1)
    (i : S.Idx) : (0 : EReal) < x i + Ideal.ofBits .f32 0x3727C5AC#32 := by
  have e := Host.reduce_andi_all _ _ hr hu ix0 h i
  have e' : Ideal.cmp .ogt (x i + Ideal.ofBits .f32 0x3727C5AC#32) (Ideal.ofBits .f32 0x00000000#32) = 1#1 := e
  rw [zero_bits] at e'
  exact of_decide_eq_true (bool_of_ofBool_eq_one e')

open Cert.Pre_finite_inputs in
theorem inputs_of_pre [Cert.Pre_finite_inputs.Facts]
    (a0 : FVec Ideal S10000x10000 .f32) (a1 : FVec Ideal S10000x128 .f32)
    (a2 : FVec Ideal S128x128 .f32) (a3 : FVec Ideal S128 .f32) (a4 : FVec Ideal S128x128 .f32)
    (a5 a6 a7 a8 a9 : FVec Ideal S128 .f32) (a10 : FVec Ideal S128x128 .f32) (a11 : FVec Ideal S128 .f32)
    (h : Cert.Pre_finite_inputs.fn (F := Ideal) a0 a1 a2 a3 a4 a5 a6 a7 a8 a9 a10 a11 = (fun _ => 1#1)) :
    (Inputs.ofArrays a0 a1 a2 a3 a4 a5 a6 a7 a8 a9 a10 a11).Real
      ∧ ∀ l : Fin 128, (0 : EReal) < (Inputs.ofArrays a0 a1 a2 a3 a4 a5 a6 a7 a8 a9 a10 a11).var l + Ideal.ofBits .f32 0x3727C5AC#32 := by
  have h0 := congrFun h ix0
  dsimp only [fn, fn_part1, fn_part2, fn_part3] at h0
  simp only [andi, IntOp.andi_eq_one] at h0
  obtain ⟨⟨⟨⟨⟨⟨⟨⟨⟨⟨⟨⟨c0, c1⟩, c2⟩, c3⟩, c4⟩, c5⟩, c6⟩, c7⟩, c8⟩, c9⟩, c10⟩, c11⟩, cv⟩ := h0
  refine ⟨⟨?_, ?_, ?_, ?_, ?_, ?_, ?_, ?_, ?_, ?_, ?_, ?_⟩, ?_⟩
  · exact fun p j => real_of_all_abs_lt_inf a0 _ _ _ c0 (ix2 p j)
  · exact fun j f => real_of_all_abs_lt_inf a1 _ _ _ c1 (ix2 j f)
  · exact fun f k => real_of_all_abs_lt_inf a2 _ _ _ c2 (ix2 f k)
  · exact fun k => real_of_all_abs_lt_inf a3 _ _ _ c3 (ix1 k)
  · exact fun k l => real_of_all_abs_lt_inf a4 _ _ _ c4 (ix2 k l)
  · exact fun k => real_of_all_abs_lt_inf a5 _ _ _ c5 (ix1 k)
  · exact fun k => real_of_all_abs_lt_inf a6 _ _ _ c6 (ix1 k)
  · exact fun k => real_of_all_abs_lt_inf a7 _ _ _ c7 (ix1 k)
  · exact fun k => real_of_all_abs_lt_inf a8 _ _ _ c8 (ix1 k)
  · exact fun k => real_of_all_abs_lt_inf a9 _ _ _ c9 (ix1 k)
  · exact fun k c => real_of_all_abs_lt_inf a10 _ _ _ c10 (ix2 k c)
  · exact fun c => real_of_all_abs_lt_inf a11 _ _ _ c11 (ix1 c)
  · exact fun l => pos_of_all_add_gt_zero a9 _ _ _ cv (ix1 l)

end Cert.GcnHead

end
-- ==== Proof.Assemble.lean ====
/-
  The value claim, assembled from its parts.

  The reference ends with its result holding the textbook arrangement outR of its twelve arguments; the kernel
  ends with its result holding the folded arrangement outK of its twelve arguments (for every extended-real
  input: no precondition is needed for that). Where the precondition holds, every input entry is a real number
  and v + ε is positive, and there the two arrangements are one function; and the two programs start from memories
  that agree on the twelve arguments. So both results are outR of the kernel's arguments, entry by entry.
-/
import proofs.«155627_g90632399880415_cont_sun_m_680_22_alg».proof.Defs
import proofs.«155627_g90632399880415_cont_sun_m_680_22_alg».proof.Proof.Algebra
import proofs.«155627_g90632399880415_cont_sun_m_680_22_alg».proof.Proof.RefValue
import proofs.«155627_g90632399880415_cont_sun_m_680_22_alg».proof.Proof.PreDecode

noncomputable section

namespace Cert.GcnHead.Assemble

open Idealize.ShloMosaic Idealize.ShloMosaic.TcCoe Idealize.SL.Sem Cert.GcnHead

/-- The reference runs and leaves its twelve arguments unchanged: its run with the result conjunct dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.GcnHead.Ref.run_outR m ρ)

/-- The kernel's run: from any launch memory, every weakly fair execution ends with the result buffer holding
    the folded arrangement outK of the launch contents of the twelve arguments, and the arguments unchanged. -/
def KernelRun [Cert.KernelIdeal.Facts] : Prop :=
  ∀ (m : (ℓ : Loc Cert.KernelIdeal.nD Cert.KernelIdeal.τ Cert.KernelIdeal.sig) → Buf (Elt Ideal) ℓ)
    (ρ : Dev Cert.KernelIdeal.nD → PrngReg),
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v0)
          = (fun i : Cert.KernelIdeal.S10000x128.Idx => outK (Inputs.ofArrays
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7))
            (m ((c.tc : Thread Cert.KernelIdeal.nD Cert.KernelIdeal.τ).loc Cert.KernelIdeal.main_arg8))
            (m ((c.tc : Thread Cert.KernelIdeal.nD Cert.KernelIdeal.τ).loc Cert.KernelIdeal.main_arg9))
            (m ((c.tc : Thread Cert.KernelIdeal.nD Cert.KernelIdeal.τ).loc Cert.KernelIdeal.main_arg10))
            (m ((c.tc : Thread Cert.KernelIdeal.nD Cert.KernelIdeal.τ).loc Cert.KernelIdeal.main_arg11)))
              (Ideal.ofBits .f32 0x3727C5AC#32) (i 0) (i 1))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

/-- The value claim, given the kernel's run: both programs end with outR of the kernel's arguments. -/
theorem algebraic_of [Cert.KernelIdeal.Facts] [Cert.ReferenceIdeal.Facts] [Cert.Pre_finite_inputs.Facts]
    (hk : KernelRun) : Cert.algebraic_KernelIdeal_ReferenceIdeal := by
  intro m ρ m' ρ' hpre hagree
  refine ⟨fun c => (fun i : Cert.KernelIdeal.S10000x128.Idx => outR (Inputs.ofArrays
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11)))
      (Ideal.ofBits .f32 0x3727C5AC#32) (i 0) (i 1)), ?_, ?_⟩
  · -- the kernel: outK of its arguments, which is outR of them under the precondition
    refine (θ_run Cert.KernelIdeal.defs _ _).mono (fun _ h c => ⟨(h c).1.trans ?_, (h c).2⟩) (hk m ρ)
    obtain ⟨hreal, hpos⟩ := inputs_of_pre _ _ _ _ _ _ _ _ _ _ _ _ (hpre c)
    obtain ⟨e, he⟩ := eps_real
    rw [he] at hpos ⊢
    rw [outK_eq_outR _ e hreal hpos]
  · -- the reference: outR of its own arguments, which are the kernel's
    refine (θ_run Cert.ReferenceIdeal.defs _ _).mono (fun _ h c => ⟨(h c).1.trans ?_, (h c).2⟩)
      (Cert.GcnHead.Ref.run_outR m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

end Cert.GcnHead.Assemble

end
-- ==== Proof.KernelValue.lean ====
/-
  The idealized kernel's run, read as a value: the result array ends holding, at row `p` and column `c'`, the folded
  arrangement `outK` of the launch contents of the twelve arguments.

  The result array is the row blocks the second halves stored (`resArr`): row `p` lies in row block `p / 1000` at
  local row `p % 1000`, stored at point `2 · (p / 1000) + 1`. What that point stored is the third payload of: the
  first 4880 staged columns of `adj`'s block there, which are `adj`'s columns 5120 and up at row `p`; the last 4880
  rows of `xw`; the accumulator the point before left, which is the product of `adj`'s first 5120 columns at row `p`
  with the first 5120 rows of `xw`; and the head's weights and biases as the host prepared them — the folded weight
  and bias among them. Term by term this is `outK`.
-/
import proofs.«155627_g90632399880415_cont_sun_m_680_22_alg».proof.Proof.Run
import proofs.«155627_g90632399880415_cont_sun_m_680_22_alg».proof.Proof.ResultArray
import proofs.«155627_g90632399880415_cont_sun_m_680_22_alg».proof.Proof.BlockReads
import proofs.«155627_g90632399880415_cont_sun_m_680_22_alg».proof.Proof.OutValue
import proofs.«155627_g90632399880415_cont_sun_m_680_22_alg».proof.Proof.HostGlue
import proofs.«155627_g90632399880415_cont_sun_m_680_22_alg».proof.Proof.Assemble

set_option maxRecDepth 16384

noncomputable section

namespace Cert.GcnHead.Final

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (Dat Cfg Window)
open Cert.GcnHead

variable (m : (ℓ : Loc nD τ sig) → Buf (Elt Ideal) ℓ) (ρ : Dev nD → PrngReg)

/-- The result array at row `p = i 0`, column `i 1`, is the folded arrangement there. -/
theorem resArr_apply (c : Dev nD) (i : S10000x128.Idx) :
    resArr (F := Ideal) m c i = outK (Out.argsOf m c) Out.eps (i 0) (i 1) := by
  have hrow : (i 0).val < 10000 := (i 0).isLt
  unfold resArr
  refine Out.outV_row m c _ _ _ (i 0) (fun j => ?_) (fun j => ?_) (fun j f => ?_) (fun f k => ?_) (fun k => ?_)
    (fun k l => ?_) (fun l => ?_) (fun l c' => ?_) (fun c' => ?_)
  · -- the first 5120 columns, staged at the point before
    refine (adjBlk_start m c _ (by show (2 * ((i 0).val / 1000) + 1 - 1) % 2 = 0; omega) _ j).trans ?_
    rw [V_main_arg0]
    exact congrArg (fun p : Fin 10000 => m ((c : Thread nD τ).loc main_arg0) (ix2 p (lo j)))
      (Fin.ext (by show 1000 * ((2 * ((i 0).val / 1000) + 1 - 1) / 2) + (i 0).val % 1000 = (i 0).val; omega))
  · -- the last 4880 columns, staged at the point itself
    refine (adjBlk_finish m c _ (by show (2 * ((i 0).val / 1000) + 1) % 2 = 1; omega) _ j).trans ?_
    rw [V_main_arg0]
    exact congrArg (fun p : Fin 10000 => m ((c : Thread nD τ).loc main_arg0) (ix2 p (hi j)))
      (Fin.ext (by show 1000 * ((2 * ((i 0).val / 1000) + 1) / 2) + (i 0).val % 1000 = (i 0).val; omega))
  · exact (iblk1_apply m c tFirst j f).trans (by rw [V_main_arg1]; rfl)
  · exact (iblk2_apply m c tFirst f k).trans (by rw [V_main_arg2]; rfl)
  · exact (iblk3_apply m c _ 0 k).trans (Glue.V_bg m c k)
  · exact (iblk4_apply m c _ k l).trans (Glue.V_w1 m c k l)
  · exact (iblk5_apply m c _ 0 l).trans (Glue.V_b1 m c l)
  · exact (iblk6_apply m c _ l c').trans (by rw [V_main_arg10]; rfl)
  · exact (iblk7_apply m c _ 0 c').trans (Glue.V_b2 m c c')

/-- The idealized kernel runs to the end, its result array the folded arrangement of the arguments, the arguments
    unchanged. -/
theorem kernelRun : Assemble.KernelRun := fun m ρ =>
  (θ_run defs _ _).mono (fun r h c =>
    ⟨((h c).1 8).trans ((final_res m c).trans (funext fun i => resArr_apply m c i)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 6).trans (((dats m 0 c).arrAt_in 6 rfl _).trans ((A_eq m c 6).trans (V_main_arg10 m c))),
      ((h c).2 main_arg11 (Pipeline.mem_restRefs_of main_arg11 (by decide) (by decide))).trans (V_main_arg11 m c)⟩)
    (run_main (F := Ideal) m ρ)

end Cert.GcnHead.Final

end
-- ==== Proof.lean ====
/-
  The certificate of a graph-convolution layer with a batch-normalised two-layer head, on 10000 nodes with 128
  features: the kernel against its plain reference, on the extended reals.

  Both programs compute `relu (bn (relu (adj · (X · Wg) + bg) · W1 + b1)) · W2 + b2` with
  `bn z = γ · (z − μ) / sqrt (v + ε) + β`. The reference computes it as written. The kernel visits ten row blocks of
  `adj` in two halves of the contraction (5120 columns, then the remaining 4880, the second block overhanging the
  array), forms `X · Wg` once, at the first point, into a scratch buffer, carries each row block's partial product in a
  second scratch buffer from the first half to the second, and applies the head with the normalisation folded on the
  host into the first layer's weight and bias: `s = γ · rsqrt (v + ε)`, `W1 · s`, `(b1 − μ) · s + β`.

  Where every input entry is a real number and `v + ε > 0` the two agree: cutting the contraction is associativity
  of a finite sum, and the fold is distributivity of a real factor over a finite sum of reals with
  `rsqrt y = 1 / sqrt y` for `y > 0` (`Algebra.lean`). Below the positivity the reference's own square root is undefined
  and its quotient is by zero or by an undefined value, which is why the precondition asks for it.

  The parts: `Spec` states both arrangements; `Algebra` proves them equal; `PreDecode` reads the precondition;
  `RefValue` reads the reference's run as the textbook arrangement; `Guards` … `Run` run the kernel (its three
  guarded parts, the proof data with the two scratch buffers tracked point by point, the body obligation, the run) —
  once with floats as extended reals and once as machine words; `ResultArray`, `BlockReads`, `PayloadValue`,
  `HostGlue`, `OutValue`, `KernelValue` read the kernel's result array as the folded arrangement; `Assemble` joins
  the two runs.
-/
import proofs.«155627_g90632399880415_cont_sun_m_680_22_alg».proof.Defs
import proofs.«155627_g90632399880415_cont_sun_m_680_22_alg».proof.Proof.Gen.Kernel
import proofs.«155627_g90632399880415_cont_sun_m_680_22_alg».proof.Proof.Gen.Kernel.Skeleton
import proofs.«155627_g90632399880415_cont_sun_m_680_22_alg».proof.Proof.Gen.Kernel.Launch
import proofs.«155627_g90632399880415_cont_sun_m_680_22_alg».proof.Proof.Gen.Kernel.Points
import proofs.«155627_g90632399880415_cont_sun_m_680_22_alg».proof.Proof.Gen.Kernel.Frame
import proofs.«155627_g90632399880415_cont_sun_m_680_22_alg».proof.Proof.Gen.KernelIdeal
import proofs.«155627_g90632399880415_cont_sun_m_680_22_alg».proof.Proof.Gen.KernelIdeal.Skeleton
import proofs.«155627_g90632399880415_cont_sun_m_680_22_alg».proof.Proof.Gen.KernelIdeal.Launch
import proofs.«155627_g90632399880415_cont_sun_m_680_22_alg».proof.Proof.Gen.KernelIdeal.Points
import proofs.«155627_g90632399880415_cont_sun_m_680_22_alg».proof.Proof.Gen.KernelIdeal.Frame
import proofs.«155627_g90632399880415_cont_sun_m_680_22_alg».proof.Proof.Gen.ReferenceIdeal
import proofs.«155627_g90632399880415_cont_sun_m_680_22_alg».proof.Proof.Gen.Pre_finite_inputs
import proofs.«155627_g90632399880415_cont_sun_m_680_22_alg».proof.Proof.Gen.ReferenceIdeal.Run
import proofs.«155627_g90632399880415_cont_sun_m_680_22_alg».proof.Proof.Gen.ReferenceIdeal.Read
import proofs.«155627_g90632399880415_cont_sun_m_680_22_alg».proof.Proof.WordRun
import proofs.«155627_g90632399880415_cont_sun_m_680_22_alg».proof.Proof.KernelValue
import Idealize.ShloMosaic.Adequacy
import Idealize.ShloMosaic.Init

noncomputable section

namespace Cert.Proof

open Idealize.ShloMosaic Idealize.SL.Sem

/-- The printed kernel, floats as machine words: it runs to the end and leaves its arguments as they were. -/
theorem frame_word : Cert.frame_Kernel := fun m ρ _ =>
  Cert.Kernel.Gen.frame_of m ρ (Cert.Kernel.Body.dats m) (Cert.Kernel.Body.A_eq m) (Cert.Kernel.Body.run_main (F := Bits) m ρ)

/-- The idealized kernel likewise. -/
theorem frame_ideal : Cert.frame_KernelIdeal := fun m ρ _ =>
  Cert.KernelIdeal.Gen.frame_of m ρ (Cert.KernelIdeal.Body.dats m) (Cert.KernelIdeal.Body.A_eq m)
    (Cert.KernelIdeal.Body.run_main (F := Ideal) m ρ)

theorem claim : Cert.Claim :=
  ⟨Cert.Kernel.Gen.facts, Cert.KernelIdeal.Gen.facts, Cert.ReferenceIdeal.Gen.facts, Cert.Pre_finite_inputs.Gen.facts,
    frame_word, frame_ideal, Cert.GcnHead.Assemble.frame_ri, trivial,
    Cert.GcnHead.Assemble.algebraic_of Cert.GcnHead.Final.kernelRun⟩

end Cert.Proof

end
